-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v11) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x128 : Shape := ⟨2, ![10000, 128]⟩
abbrev S10000x10000 : Shape := ⟨2, ![10000, 10000]⟩
abbrev S128x128 : Shape := ⟨2, ![128, 128]⟩
abbrev S128 : Shape := ⟨1, ![128]⟩
abbrev S_ : Shape := ⟨0, ![]⟩

class Facts : Prop where
  bcast_S_S10000x128 : S_.BroadcastsInDim S10000x128 (![] : Fin 0 → Fin S10000x128.rank)
  reducesTo_S10000x128_S_d0_1 : S10000x128.ReducesTo [0, 1] S_
  h_S_ : 0 < S_.numel
  bcast_S_S10000x10000 : S_.BroadcastsInDim S10000x10000 (![] : Fin 0 → Fin S10000x10000.rank)
  reducesTo_S10000x10000_S_d0_1 : S10000x10000.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg4 : FVec F S128 .f32) (main_arg5 : FVec F S128x128 .f32) (main_arg6 : FVec F S128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg4
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg5
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg6
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  main_v33

def fn {F : FTy → Type} [FloatOps F] (main_arg0 : FVec F S10000x128 .f32) (main_arg1 : FVec F S10000x10000 .f32) (main_arg2 : FVec F S10000x10000 .f32) (main_arg3 : FVec F S128x128 .f32) (main_arg4 : FVec F S128 .f32) (main_arg5 : FVec F S128x128 .f32) (main_arg6 : FVec F S128 .f32) : IVec S_ 1 :=
  let main_v0 : FVec F S10000x128 .f32 := Host.absf main_arg0
  let main_cst : FVec F S_ .f32 := constant S_ .f32 0x7F800000#32
  let main_v1 : FVec F S10000x128 .f32 := broadcastInDim S10000x128 ![] bcast_S_S10000x128 main_cst
  let main_v2 : IVec S10000x128 1 := cmpf .olt main_v0 main_v1
  let main_c : IVec S_ 1 := constantI S_ 1 1#1
  let main_v3 : IVec S_ 1 := (fun x v => Host.reduce IntOp.andi x v reducesTo_S10000x128_S_d0_1 h_S_) main_v2 main_c
  let main_v4 : FVec F S10000x10000 .f32 := Host.absf main_arg1
  let main_cst_0 : FVec F S_ .f32 := constant S_ .f32 0x7F800000#32
  let main_v5 : FVec F S10000x10000 .f32 := broadcastInDim S10000x10000 ![] bcast_S_S10000x10000 main_cst_0
  let main_v6 : IVec S10000x10000 1 := cmpf .olt main_v4 main_v5
  let main_c_1 : IVec S_ 1 := constantI S_ 1 1#1
  let main_v7 : IVec S_ 1 := (fun x v => Host.reduce IntOp.andi x v reducesTo_S10000x10000_S_d0_1 h_S_) main_v6 main_c_1
  let main_v8 : IVec S_ 1 := andi main_v3 main_v7
  let main_v9 : FVec F S10000x10000 .f32 := Host.absf main_arg2
  let main_cst_2 : FVec F S_ .f32 := constant S_ .f32 0x7F800000#32
  let main_v10 : FVec F S10000x10000 .f32 := broadcastInDim S10000x10000 ![] bcast_S_S10000x10000 main_cst_2
  let main_v11 : IVec S10000x10000 1 := cmpf .olt main_v9 main_v10
  let main_c_3 : IVec S_ 1 := constantI S_ 1 1#1
  let main_v12 : IVec S_ 1 := (fun x v => Host.reduce IntOp.andi x v reducesTo_S10000x10000_S_d0_1 h_S_) main_v11 main_c_3
  let main_v13 : IVec S_ 1 := andi main_v8 main_v12
  let main_v14 : FVec F S128x128 .f32 := Host.absf main_arg3
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg4 main_arg5 main_arg6 main_v13 main_v16
-- ==== Kernel.lean ====
abbrev S10000x128 : Shape := ⟨2, ![10000, 128]⟩
abbrev S10000x10000 : Shape := ⟨2, ![10000, 10000]⟩
abbrev S128x128 : Shape := ⟨2, ![128, 128]⟩
abbrev S128 : Shape := ⟨1, ![128]⟩
abbrev S_ : Shape := ⟨0, ![]⟩
abbrev S10240x128 : Shape := ⟨2, ![10240, 128]⟩
abbrev S1x128 : Shape := ⟨2, ![1, 128]⟩
abbrev S1000x2560 : Shape := ⟨2, ![1000, 2560]⟩
abbrev S1000x128 : Shape := ⟨2, ![1000, 128]⟩
abbrev S2560x128 : Shape := ⟨2, ![2560, 128]⟩

abbrev nBuf : Space → Nat
  | .hbm => 13
  | .vmem => 13
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S10000x10000, .f32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S_, .i32⟩
  | .hbm, ⟨8, _⟩ => ⟨S_, .f32⟩
  | .hbm, ⟨9, _⟩ => ⟨S10240x128, .f32⟩
  | .hbm, ⟨10, _⟩ => ⟨S1x128, .f32⟩
  | .hbm, ⟨11, _⟩ => ⟨S1x128, .f32⟩
  | .hbm, ⟨12, _⟩ => ⟨S10000x128, .f32⟩
  | .local _ .vmem, ⟨0, _⟩ => ⟨S1000x2560, .f32⟩
  | .local _ .vmem, ⟨1, _⟩ => ⟨S1000x2560, .f32⟩
  | .local _ .vmem, ⟨2, _⟩ => ⟨S1000x2560, .f32⟩
  | .local _ .vmem, ⟨3, _⟩ => ⟨S1000x2560, .f32⟩
  | .local _ .vmem, ⟨4, _⟩ => ⟨S10240x128, .f32⟩
  | .local _ .vmem, ⟨5, _⟩ => ⟨S128x128, .f32⟩
  | .local _ .vmem, ⟨6, _⟩ => ⟨S1x128, .f32⟩
  | .local _ .vmem, ⟨7, _⟩ => ⟨S128x128, .f32⟩
  | .local _ .vmem, ⟨8, _⟩ => ⟨S1x128, .f32⟩
  | .local _ .vmem, ⟨9, _⟩ => ⟨S1000x128, .f32⟩
  | .local _ .vmem, ⟨10, _⟩ => ⟨S1000x128, .f32⟩
  | .local _ .vmem, ⟨11, _⟩ => ⟨S1000x128, .f32⟩
  | .local _ .vmem, ⟨12, _⟩ => ⟨S1000x128, .f32⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_call0_c : Ref sig .tc := ⟨.hbm, 7, rfl⟩
abbrev main_call0_call0_v0 : Ref sig .tc := ⟨.hbm, 8, rfl⟩
abbrev main_call0_v0 : Ref sig .tc := ⟨.hbm, 9, rfl⟩
abbrev main_call0_v1 : Ref sig .tc := ⟨.hbm, 10, rfl⟩
abbrev main_call0_v2 : Ref sig .tc := ⟨.hbm, 11, rfl⟩
abbrev main_v0 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_scratch0 : Ref sig .tc := ⟨.vmem, 11, rfl⟩
abbrev cc0_scratch1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10

abbrev nD : Nat := 1
abbrev τ : Topo := Topo.v7x

variable {F : FTy → Type} [FloatOps F]

abbrev grid0 : Pipeline.Grid := ⟨2, ![10, 4], ![false, false]⟩

def k0_off1 (i : grid0.Coords) : Fin 2 → Nat :=
  let arg1 : BitVec 32 := BitVec.ofNat 32 (i 1).val
  let c2560_i32 : BitVec 32 := 2560#32
  let v3 : BitVec 32 := Scalar.muli arg1 c2560_i32
  let v4 : Index := Scalar.indexCast v3
  let c0 : Index := 0#32
  ![v4.toNat, 0]
def k0_cond4 (i : grid0.Coords) : BitVec 1 :=
  let arg1 : BitVec 32 := BitVec.ofNat 32 (i 1).val
  let c3_i32_4 : BitVec 32 := 3#32
  let v14 : BitVec 1 := Scalar.cmpi .eq arg1 c3_i32_4
  let v15 : BitVec 32 := Scalar.extui v14
  let c0_i32_5 : BitVec 32 := 0#32
  let v16 : BitVec 1 := Scalar.cmpi .ne v15 c0_i32_5
  v16

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1000x2560 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1000x2560 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S10240x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1000x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

class Facts₀ : Prop where
  pads_S10000x128_S10240x128_02400_000 : S10000x128.Pads (![0, 0] : Fin 2 → Nat) ![240, 0] ![0, 0] S10240x128
  h_S_ : 0 < S_.numel
  shapeCasts_S128_S1x128 : S128.ShapeCasts S1x128
  inb_S1000x128_S1000x128_0_0 : ∀ a, (![0, 0] : Fin 2 → Nat) a + S1000x128.size a ≤ S1000x128.size a
  h_S1000x128 : 0 < S1000x128.numel
  shapeCasts_S1000x128_S1000x128 : S1000x128.ShapeCasts S1000x128
  h_S2560x128 : 0 < S2560x128.numel
  shapeCasts_S2560x128_S2560x128 : S2560x128.ShapeCasts S2560x128
  bitsLt_bf16_f32 : FTy.bits .bf16 < FTy.bits .f32
  iota_S1000x2560_d1_w32 : S1000x2560.Iotas .tc 32 [1]
  inb_S1000x2560_S1000x2560_0_0 : ∀ a, (![0, 0] : Fin 2 → Nat) a + S1000x2560.size a ≤ S1000x2560.size a
  h_S1000x2560 : 0 < S1000x2560.numel
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S1000x128 : S1x128.Broadcasts S1000x128
  dot_S1000x2560_S2560x128_S1000x128_1_0_0_1_n_n_wf : DotDims.WF S1000x2560 S2560x128 S1000x128 [1] [0] [0] [1] [] []
  dot_S1000x128_S128x128_S1000x128_1_0_0_1_n_n_wf : DotDims.WF S1000x128 S128x128 S1000x128 [1] [0] [0] [1] [] []
  hrank0 : 0 < grid0.rank
  k0_off1_inb : ∀ i : grid0.Coords, ∀ a, (k0_off1 i) a + S2560x128.size a ≤ S10240x128.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hstart0_0 : ∀ (i : grid0.Coords) a, cc0_transform_0 i a * S1000x2560.size a < S10000x10000.size a
  hwx0_0 : ∀ i : grid0.Coords, EltTy.bits .f32 = 32 ∨ (Rect.unit (s := S10000x10000) (fun a => cc0_transform_0 i a * S1000x2560.size a) (fun a => (Pipeline.Clip.of (cc0_transform_0 i a) (S1000x2560.size a) (S10000x10000.size a)).extent (S1000x2560.size a)) fun a => Pipeline.Clip.inb (Pipeline.Clip.ok_of (hstart0_0 i a))).WholeWords (EltTy.packing .f32)
  hwxs0_0 : ∀ i : grid0.Coords, EltTy.bits .f32 = 32 ∨ (Rect.unit (s := S1000x2560) (fun _ => 0) (fun a => (Pipeline.Clip.of (cc0_transform_0 i a) (S1000x2560.size a) (S10000x10000.size a)).extent (S1000x2560.size a)) fun a => (Nat.zero_add _).trans_le (Pipeline.Clip.extent_le (Pipeline.Clip.ok_of (hstart0_0 i a)))).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hstart0_1 : ∀ (i : grid0.Coords) a, cc0_transform_1 i a * S1000x2560.size a < S10000x10000.size a
  hwx0_1 : ∀ i : grid0.Coords, EltTy.bits .f32 = 32 ∨ (Rect.unit (s := S10000x10000) (fun a => cc0_transform_1 i a * S1000x2560.size a) (fun a => (Pipeline.Clip.of (cc0_transform_1 i a) (S1000x2560.size a) (S10000x10000.size a)).extent (S1000x2560.size a)) fun a => Pipeline.Clip.inb (Pipeline.Clip.ok_of (hstart0_1 i a))).WholeWords (EltTy.packing .f32)
  hwxs0_1 : ∀ i : grid0.Coords, EltTy.bits .f32 = 32 ∨ (Rect.unit (s := S1000x2560) (fun _ => 0) (fun a => (Pipeline.Clip.of (cc0_transform_1 i a) (S1000x2560.size a) (S10000x10000.size a)).extent (S1000x2560.size a)) fun a => (Nat.zero_add _).trans_le (Pipeline.Clip.extent_le (Pipeline.Clip.ok_of (hstart0_1 i a)))).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S10240x128.size a ≤ S10240x128.size a
  hwx0_2 : ∀ i : grid0.Coords, EltTy.bits .f32 = 32 ∨ (Rect.block (s := S10240x128) S10240x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x128.size a ≤ S128x128.size a
  hwx0_5 : ∀ i : grid0.Coords, EltTy.bits .f32 = 32 ∨ (Rect.block (s := S128x128) S128x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x128.size a ≤ S1x128.size a
  hwx0_6 : ∀ i : grid0.Coords, EltTy.bits .f32 = 32 ∨ (Rect.block (s := S1x128) S1x128.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1000x128.size a ≤ S10000x128.size a
  hwx0_7 : ∀ i : grid0.Coords, EltTy.bits .f32 = 32 ∨ (Rect.block (s := S10000x128) S1000x128.size (cc0_transform_7 i) (hinb0_7 i)).WholeWords (EltTy.packing .f32)

variable [Facts₀]

def dot_S1000x2560_S2560x128_S1000x128_1_0_0_1_n_n : DotDims S1000x2560 S2560x128 S1000x128 where
  lhsContracting := [1]
  rhsContracting := [0]
  lhsNonContracting := [0]
  rhsNonContracting := [1]
  lhsBatch := []
  rhsBatch := []
  wf := dot_S1000x2560_S2560x128_S1000x128_1_0_0_1_n_n_wf
def dot_S1000x128_S128x128_S1000x128_1_0_0_1_n_n : DotDims S1000x128 S128x128 S1000x128 where
  lhsContracting := [1]
  rhsContracting := [0]
  lhsNonContracting := [0]
  rhsNonContracting := [1]
  lhsBatch := []
  rhsBatch := []
  wf := dot_S1000x128_S128x128_S1000x128_1_0_0_1_n_n_wf

abbrev win0_0 : Pipeline.Window sig grid0 :=
  Pipeline.Window.ofSpecClip (Memref.whole main_arg1) S1000x2560.size cc0_transform_0 reads0_0 false false 2 stage0_0 sem0_0
    hrank0 hreads0_0 hstart0_0 nbuf0_0 (Memref.isWhole_whole _) hwx0_0 hwxs0_0 hstage0_0

abbrev win0_1 : Pipeline.Window sig grid0 :=
  Pipeline.Window.ofSpecClip (Memref.whole main_arg2) S1000x2560.size cc0_transform_1 reads0_1 false false 2 stage0_1 sem0_1
    hrank0 hreads0_1 hstart0_1 nbuf0_1 (Memref.isWhole_whole _) hwx0_1 hwxs0_1 hstage0_1

abbrev win0_2 : Pipeline.Window sig grid0 :=
  Pipeline.Window.ofSpec (Memref.whole main_call0_v0) S10240x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_call0_v1) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S128x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_call0_v2) S1x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v0) S1000x128.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev idle0 : Fin 8 → grid0.Coords → Bool := fun | 0 => fun _ => false | 1 => fun _ => false | 2 => fun _ => false | 3 => fun _ => false | 4 => fun _ => false | 5 => fun _ => false | 6 => fun _ => false | 7 => fun i => !(k0_cond4 i == 1#1) | ⟨_ + 8, h⟩ => absurd h (Nat.not_lt.2 (Nat.le_add_left _ _))

class Facts : Prop extends Facts₀ where

variable [Facts]
-- ==== ReferenceIdeal.lean ====
abbrev S10000x128 : Shape := ⟨2, ![10000, 128]⟩
abbrev S10000x10000 : Shape := ⟨2, ![10000, 10000]⟩
abbrev S128x128 : Shape := ⟨2, ![128, 128]⟩
abbrev S128 : Shape := ⟨1, ![128]⟩
abbrev S1x128 : Shape := ⟨2, ![1, 128]⟩
abbrev S_ : Shape := ⟨0, ![]⟩

abbrev nBuf : Space → Nat
  | .hbm => 21
  | .vmem => 0
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S10000x10000, .f32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S10000x128, .f32⟩
  | .hbm, ⟨8, _⟩ => ⟨S10000x128, .f32⟩
  | .hbm, ⟨9, _⟩ => ⟨S1x128, .f32⟩
  | .hbm, ⟨10, _⟩ => ⟨S10000x128, .f32⟩
  | .hbm, ⟨11, _⟩ => ⟨S10000x128, .f32⟩
  | .hbm, ⟨12, _⟩ => ⟨S10000x128, .f32⟩
  | .hbm, ⟨13, _⟩ => ⟨S10000x128, .f32⟩
  | .hbm, ⟨14, _⟩ => ⟨S1x128, .f32⟩
  | .hbm, ⟨15, _⟩ => ⟨S10000x128, .f32⟩
  | .hbm, ⟨16, _⟩ => ⟨S10000x128, .f32⟩
  | .hbm, ⟨17, _⟩ => ⟨S_, .f32⟩
  | .hbm, ⟨18, _⟩ => ⟨S10000x128, .f32⟩
  | .hbm, ⟨19, _⟩ => ⟨S10000x128, .f32⟩
  | .hbm, ⟨20, _⟩ => ⟨S10000x128, .f32⟩
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_call0_cst : Ref sig .tc := ⟨.hbm, 17, rfl⟩
abbrev main_call0_v0 : Ref sig .tc := ⟨.hbm, 18, rfl⟩
abbrev main_v10 : Ref sig .tc := ⟨.hbm, 19, rfl⟩
abbrev main_v11 : Ref sig .tc := ⟨.hbm, 20, rfl⟩

abbrev nD : Nat := 1
abbrev τ : Topo := Topo.v7x

variable {F : FTy → Type} [FloatOps F]

class Facts₀ : Prop where
  bcast_S128_S1x128_1 : S128.BroadcastsInDim S1x128 (![1] : Fin 1 → Fin S1x128.rank)
  bcast_S1x128_S10000x128_0_1 : S1x128.BroadcastsInDim S10000x128 (![0, 1] : Fin 2 → Fin S10000x128.rank)
  bcast_S_S10000x128 : S_.BroadcastsInDim S10000x128 (![] : Fin 0 → Fin S10000x128.rank)
  dot_S10000x10000_S10000x128_S10000x128_1_0_0_1_n_n_wf : DotDims.WF S10000x10000 S10000x128 S10000x128 [1] [0] [0] [1] [] []
  dot_S10000x128_S128x128_S10000x128_1_0_0_1_n_n_wf : DotDims.WF S10000x128 S128x128 S10000x128 [1] [0] [0] [1] [] []

variable [Facts₀]

def dot_S10000x10000_S10000x128_S10000x128_1_0_0_1_n_n : DotDims S10000x10000 S10000x128 S10000x128 where
  lhsContracting := [1]
  rhsContracting := [0]
  lhsNonContracting := [0]
  rhsNonContracting := [1]
  lhsBatch := []
  rhsBatch := []
  wf := dot_S10000x10000_S10000x128_S10000x128_1_0_0_1_n_n_wf
def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf

class Facts : Prop extends Facts₀ where

variable [Facts]
-- ==== Proof.Bits.Schedule.lean ====
/-
  The schedule of the tiled product. The grid is 10 row tiles by 4 contraction tiles; point `t` is row tile `t / 4`,
  contraction tile `t % 4`. The body branches four times on the contraction coordinate: it clears the two
  accumulators at tile 0, adds the masked partial products at tile 3, the unmasked ones at tiles 0, 1, 2, and at
  tile 3 also runs the two projections and stores the result block. Each condition is decided here over the grid,
  as is where the result's window is idle, and the memrefs the body is called with are named.
-/
import proofs.«157794_g77704548319642_cont_9to1_m_740_10_alg».proof.Proof.Gen.Kernel.Frame
import proofs.«157794_g77704548319642_cont_9to1_m_740_10_alg».proof.Proof.Gen.Kernel.Skeleton
import Idealize.ShloMosaic.Lib.Pipeline.FrameBody
import Idealize.ShloMosaic.Lib.Ring
import Idealize.ShloMosaic.Lib.Tactic

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-! ## The four conditions, from the contraction coordinate -/

/-- The accumulators are cleared: contraction tile 0. -/
abbrev isFirst (i : grid0.Coords) : Prop := (Scalar.cmpi .ne (Scalar.extui (Scalar.cmpi .eq (BitVec.ofNat 32 (i 1).val) 0#32)) 0#32) = 1#1
/-- The masked partial product is added: contraction tile 3. -/
abbrev isLast (i : grid0.Coords) : Prop := (Scalar.cmpi .ne (Scalar.extui (Scalar.cmpi .eq (BitVec.ofNat 32 (i 1).val) 3#32)) 0#32) = 1#1
/-- The unmasked partial product is added: contraction tiles 0, 1, 2. -/
abbrev isInner (i : grid0.Coords) : Prop := (Scalar.cmpi .ne (Scalar.extui (Scalar.cmpi .slt (BitVec.ofNat 32 (i 1).val) 3#32)) 0#32) = 1#1
/-- The projections run and the result block is stored: contraction tile 3. -/
abbrev isEpilogue (i : grid0.Coords) : Prop := k0_cond4 i = 1#1

theorem isFirst_iff : ∀ t : Fin cfg0.N, isFirst (grid0.coords t) ↔ t.val % 4 = 0 :=
  (by decide +kernel : ∀ t : Fin grid0.N, isFirst (grid0.coords t) ↔ t.val % 4 = 0)
theorem isLast_iff : ∀ t : Fin cfg0.N, isLast (grid0.coords t) ↔ t.val % 4 = 3 :=
  (by decide +kernel : ∀ t : Fin grid0.N, isLast (grid0.coords t) ↔ t.val % 4 = 3)
theorem isInner_iff : ∀ t : Fin cfg0.N, isInner (grid0.coords t) ↔ t.val % 4 ≠ 3 :=
  (by decide +kernel : ∀ t : Fin grid0.N, isInner (grid0.coords t) ↔ t.val % 4 ≠ 3)
theorem isEpilogue_iff : ∀ t : Fin cfg0.N, isEpilogue (grid0.coords t) ↔ t.val % 4 = 3 :=
  (by decide +kernel : ∀ t : Fin grid0.N, isEpilogue (grid0.coords t) ↔ t.val % 4 = 3)

/-! ## Where the windows are idle -/

theorem live_0 : ∀ t : Fin cfg0.N, cfg0.idle 0 (grid0.coords t) = false := by decide +kernel
theorem live_1 : ∀ t : Fin cfg0.N, cfg0.idle 1 (grid0.coords t) = false := by decide +kernel
theorem live_2 : ∀ t : Fin cfg0.N, cfg0.idle 2 (grid0.coords t) = false := by decide +kernel
theorem live_3 : ∀ t : Fin cfg0.N, cfg0.idle 3 (grid0.coords t) = false := by decide +kernel
theorem live_4 : ∀ t : Fin cfg0.N, cfg0.idle 4 (grid0.coords t) = false := by decide +kernel
theorem live_5 : ∀ t : Fin cfg0.N, cfg0.idle 5 (grid0.coords t) = false := by decide +kernel
theorem live_6 : ∀ t : Fin cfg0.N, cfg0.idle 6 (grid0.coords t) = false := by decide +kernel
/-- The result's window is idle away from contraction tile 3, and not written back there; -/
theorem idle_7 : ∀ t : Fin cfg0.N, t.val % 4 ≠ 3 → cfg0.idle 7 (grid0.coords t) = true := by decide +kernel
theorem noFlush_7 : ∀ t : Fin cfg0.N, t.val % 4 ≠ 3 → (cfg0.win 7).flush t = false := by decide +kernel
/-- at tile 3 the body stores its block. -/
theorem live_7 : ∀ t : Fin cfg0.N, t.val % 4 = 3 → cfg0.idle 7 (grid0.coords t) = false := by decide +kernel

/-! ## The memrefs the body is called with -/

abbrev ms0 (t : Fin cfg0.N) : Memref sig .tc .vmem S1000x2560 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S1000x2560 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S10240x128 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S128x128 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S1x128 .f32 := win0_4.stage (cfg0.slots t 4)
abbrev hs4 (t : Fin cfg0.N) : (ms4 t).IsWhole := hstage0_4 ((cfg0.slots t 4).cast nbuf0_4)
abbrev ms5 (t : Fin cfg0.N) : Memref sig .tc .vmem S128x128 .f32 := win0_5.stage (cfg0.slots t 5)
abbrev hs5 (t : Fin cfg0.N) : (ms5 t).IsWhole := hstage0_5 ((cfg0.slots t 5).cast nbuf0_5)
abbrev ms6 (t : Fin cfg0.N) : Memref sig .tc .vmem S1x128 .f32 := win0_6.stage (cfg0.slots t 6)
abbrev hs6 (t : Fin cfg0.N) : (ms6 t).IsWhole := hstage0_6 ((cfg0.slots t 6).cast nbuf0_6)
abbrev ms7 (t : Fin cfg0.N) : Memref sig .tc .vmem S1000x128 .f32 := win0_7.stage (cfg0.slots t 7)
abbrev hs7 (t : Fin cfg0.N) : (ms7 t).IsWhole := hstage0_7 ((cfg0.slots t 7).cast nbuf0_7)
/-- The two accumulators: whole scratch buffers of the kernel's own. -/
abbrev scN : Memref sig .tc .vmem S1000x128 .f32 := Memref.whole cc0_scratch0
abbrev scE : Memref sig .tc .vmem S1000x128 .f32 := Memref.whole cc0_scratch1

/-- The region's plain invariant with the two accumulators as memrefs owned at some contents. -/
theorem PhiA_eq (c : Dev nD) :
    (Pipeline.ΦA spec0 c : sProp 𝕄)
      = iprop(iprop((∃ d, owns (c : Thread nD τ) scN fullShare d) ∗ (∃ d, owns (c : Thread nD τ) scE fullShare d)) ∗ (∃ r, prngReg c r)) := by
  unfold Pipeline.ΦA; rw [scopedRest0_eq]; simp only [scN, scE, owns_whole]; try rfl

end Cert.Kernel.Body

end
-- ==== Proof.Bits.RunInner.lean ====
/-
  The body at contraction tiles 1 and 2: nothing is cleared, the unmasked partial products of the two adjacency
  blocks with the tile's rows of the feature matrix are added to the two accumulators, the result block is untouched.
  The run is by symbolic execution of the body's memory operations; the pieces it leaves in the two accumulators are
  what that run finds.
-/
import proofs.«157794_g77704548319642_cont_9to1_m_740_10_alg».proof.Proof.Bits.Schedule

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

set_option maxHeartbeats 4000000 in
/-- The body at an inner tile that is not the first: on whole memrefs, the inputs at their contents, the result's
    buffer at contents handed back untouched, the accumulators at what the tile before left, it runs to the
    continuation with the accumulators at their pieces written. -/
noncomputable def runInner (c : Dev nD) (i : grid0.Coords) (arg2 : Memref sig .tc .vmem S1000x2560 .f32) (harg2 : arg2.IsWhole) (arg3 : Memref sig .tc .vmem S1000x2560 .f32) (harg3 : arg3.IsWhole) (arg4 : Memref sig .tc .vmem S10240x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S128x128 .f32) (harg7 : arg7.IsWhole) (arg8 : Memref sig .tc .vmem S1x128 .f32) (harg8 : arg8.IsWhole) (arg9 : Memref sig .tc .vmem S1000x128 .f32) (harg9 : arg9.IsWhole) (arg10 : Memref sig .tc .vmem S1000x128 .f32) (harg10 : arg10.IsWhole) (arg11 : Memref sig .tc .vmem S1000x128 .f32) (harg11 : arg11.IsWhole)
    (h1 : ¬isFirst i) (h2 : ¬isLast i) (h3 : isInner i) (h4 : ¬isEpilogue i)
    (x0 : Vec F S1000x2560 .f32) (x1 : Vec F S1000x2560 .f32) (x2 : Vec F S10240x128 .f32) (x3 : Vec F S128x128 .f32) (x4 : Vec F S1x128 .f32) (x5 : Vec F S128x128 .f32) (x6 : Vec F S1x128 .f32) (xsN xsE : Vec F S1000x128 .f32) :
    Σ' (LN : List (View.Piece (Elt F) S1000x128 .f32)), { LE : List (View.Piece (Elt F) S1000x128 .f32) //
      ∀ (xi7 : Vec F S1000x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare xi7 ∗ owns (c : Thread nD τ) arg10 fullShare xsN ∗ owns (c : Thread nD τ) arg11 fullShare xsE
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare xi7 ∗ (∃ f, arg10.view.loc (c : Thread nD τ) ↦[arg10.view.set]{fullShare} arg10.view.writes (Elt F) f LN) ∗ (∃ f, arg11.view.loc (c : Thread nD τ) ↦[arg11.view.set]{fullShare} arg11.view.writes (Elt F) f LE)) -∗ K ⟨⟩))
          ⊢ wp frame (wpE (defs₀ (F := F)) Variants.none c none) E (cc0__fgc_kernel i arg2 harg2 arg3 harg3 arg4 harg4 arg5 harg5 arg6 harg6 arg7 harg7 arg8 harg8 arg9 harg9 arg10 harg10 arg11 harg11) K } := by
  refine ⟨?_, ?_, fun xi7 E K => ?run⟩
  case run =>
    simp only [cc0__fgc_kernel_eq_skeleton]; unfold cc0__fgc_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%fN, %hfN, HN⟩, ⟨%fE, %hfE, HE⟩, Hk⟩
    obtain rfl := harg2.eq_unread hf0; obtain rfl := harg3.eq_unread hf1; obtain rfl := harg4.eq_unread hf2
    obtain rfl := harg5.eq_unread hf3; obtain rfl := harg6.eq_unread hf4; obtain rfl := harg7.eq_unread hf5
    obtain rfl := harg8.eq_unread hf6; obtain rfl := harg9.eq_unread hf7
    obtain rfl := harg10.eq_unread hfN; obtain rfl := harg11.eq_unread hfE
    sl_exec (disch := first | exact h1 | exact h2 | exact h3 | exact h4)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [HN]
    · iexists _; iexact HN
    iexists _; iexact HE

end Cert.Kernel.Body

end
-- ==== Proof.Bits.RunFirst.lean ====
/-
  The body at contraction tile 0: both accumulators are cleared, then the unmasked partial products of the two
  adjacency blocks with the tile's rows of the feature matrix are added to them; the result block is untouched.
-/
import proofs.«157794_g77704548319642_cont_9to1_m_740_10_alg».proof.Proof.Bits.RunInner

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

set_option maxHeartbeats 4000000 in
/-- The body at the first tile: on whole memrefs, the inputs at their contents, the result's buffer at contents
    handed back untouched, the accumulators at anything, it runs to the continuation with the accumulators at their
    pieces written. -/
noncomputable def runFirst (c : Dev nD) (i : grid0.Coords) (arg2 : Memref sig .tc .vmem S1000x2560 .f32) (harg2 : arg2.IsWhole) (arg3 : Memref sig .tc .vmem S1000x2560 .f32) (harg3 : arg3.IsWhole) (arg4 : Memref sig .tc .vmem S10240x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S128x128 .f32) (harg7 : arg7.IsWhole) (arg8 : Memref sig .tc .vmem S1x128 .f32) (harg8 : arg8.IsWhole) (arg9 : Memref sig .tc .vmem S1000x128 .f32) (harg9 : arg9.IsWhole) (arg10 : Memref sig .tc .vmem S1000x128 .f32) (harg10 : arg10.IsWhole) (arg11 : Memref sig .tc .vmem S1000x128 .f32) (harg11 : arg11.IsWhole)
    (h1 : isFirst i) (h2 : ¬isLast i) (h3 : isInner i) (h4 : ¬isEpilogue i)
    (x0 : Vec F S1000x2560 .f32) (x1 : Vec F S1000x2560 .f32) (x2 : Vec F S10240x128 .f32) (x3 : Vec F S128x128 .f32) (x4 : Vec F S1x128 .f32) (x5 : Vec F S128x128 .f32) (x6 : Vec F S1x128 .f32) :
    Σ' (LN : List (View.Piece (Elt F) S1000x128 .f32)), { LE : List (View.Piece (Elt F) S1000x128 .f32) //
      ∀ (xi7 : Vec F S1000x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare xi7 ∗ (∃ d, owns (c : Thread nD τ) arg10 fullShare d) ∗ (∃ d, owns (c : Thread nD τ) arg11 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare xi7 ∗ (∃ f, arg10.view.loc (c : Thread nD τ) ↦[arg10.view.set]{fullShare} arg10.view.writes (Elt F) f LN) ∗ (∃ f, arg11.view.loc (c : Thread nD τ) ↦[arg11.view.set]{fullShare} arg11.view.writes (Elt F) f LE)) -∗ K ⟨⟩))
          ⊢ wp frame (wpE (defs₀ (F := F)) Variants.none c none) E (cc0__fgc_kernel i arg2 harg2 arg3 harg3 arg4 harg4 arg5 harg5 arg6 harg6 arg7 harg7 arg8 harg8 arg9 harg9 arg10 harg10 arg11 harg11) K } := by
  refine ⟨?_, ?_, fun xi7 E K => ?run⟩
  case run =>
    simp only [cc0__fgc_kernel_eq_skeleton]; unfold cc0__fgc_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%dN, %fN, -, HN⟩, ⟨%dE, %fE, -, HE⟩, Hk⟩
    obtain rfl := harg2.eq_unread hf0; obtain rfl := harg3.eq_unread hf1; obtain rfl := harg4.eq_unread hf2
    obtain rfl := harg5.eq_unread hf3; obtain rfl := harg6.eq_unread hf4; obtain rfl := harg7.eq_unread hf5
    obtain rfl := harg8.eq_unread hf6; obtain rfl := harg9.eq_unread hf7
    sl_exec (disch := first | exact h1 | exact h2 | exact h3 | exact h4)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [HN]
    · iexists _; iexact HN
    iexists _; iexact HE

end Cert.Kernel.Body

end
-- ==== Proof.Bits.RunLast.lean ====
/-
  The body at contraction tile 3: the partial products of the two adjacency blocks, masked to the columns inside
  the matrix, with the tile's rows of the feature matrix are added to the two accumulators; then each accumulator is
  projected by its weight matrix, the bias row added, the first clamped below at zero, and the sum stored as the
  result block.
-/
import proofs.«157794_g77704548319642_cont_9to1_m_740_10_alg».proof.Proof.Bits.RunFirst

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

set_option maxHeartbeats 4000000 in
/-- The body at the last tile: on whole memrefs, the inputs at their contents, the result's buffer at anything,
    the accumulators at what the tile before left, it runs to the continuation with the accumulators and the result's
    buffer at their pieces written. -/
noncomputable def runLast (c : Dev nD) (i : grid0.Coords) (arg2 : Memref sig .tc .vmem S1000x2560 .f32) (harg2 : arg2.IsWhole) (arg3 : Memref sig .tc .vmem S1000x2560 .f32) (harg3 : arg3.IsWhole) (arg4 : Memref sig .tc .vmem S10240x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S128x128 .f32) (harg7 : arg7.IsWhole) (arg8 : Memref sig .tc .vmem S1x128 .f32) (harg8 : arg8.IsWhole) (arg9 : Memref sig .tc .vmem S1000x128 .f32) (harg9 : arg9.IsWhole) (arg10 : Memref sig .tc .vmem S1000x128 .f32) (harg10 : arg10.IsWhole) (arg11 : Memref sig .tc .vmem S1000x128 .f32) (harg11 : arg11.IsWhole)
    (h1 : ¬isFirst i) (h2 : isLast i) (h3 : ¬isInner i) (h4 : isEpilogue i)
    (x0 : Vec F S1000x2560 .f32) (x1 : Vec F S1000x2560 .f32) (x2 : Vec F S10240x128 .f32) (x3 : Vec F S128x128 .f32) (x4 : Vec F S1x128 .f32) (x5 : Vec F S128x128 .f32) (x6 : Vec F S1x128 .f32) (xsN xsE : Vec F S1000x128 .f32) :
    Σ' (L7 : List (View.Piece (Elt F) S1000x128 .f32)) (LN : List (View.Piece (Elt F) S1000x128 .f32)), { LE : List (View.Piece (Elt F) S1000x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ d, owns (c : Thread nD τ) arg9 fullShare d) ∗ owns (c : Thread nD τ) arg10 fullShare xsN ∗ owns (c : Thread nD τ) arg11 fullShare xsE
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ f, arg9.view.loc (c : Thread nD τ) ↦[arg9.view.set]{fullShare} arg9.view.writes (Elt F) f L7) ∗ (∃ f, arg10.view.loc (c : Thread nD τ) ↦[arg10.view.set]{fullShare} arg10.view.writes (Elt F) f LN) ∗ (∃ f, arg11.view.loc (c : Thread nD τ) ↦[arg11.view.set]{fullShare} arg11.view.writes (Elt F) f LE)) -∗ K ⟨⟩))
          ⊢ wp frame (wpE (defs₀ (F := F)) Variants.none c none) E (cc0__fgc_kernel i arg2 harg2 arg3 harg3 arg4 harg4 arg5 harg5 arg6 harg6 arg7 harg7 arg8 harg8 arg9 harg9 arg10 harg10 arg11 harg11) K } := by
  refine ⟨?_, ?_, ?_, fun E K => ?run⟩
  case run =>
    simp only [cc0__fgc_kernel_eq_skeleton]; unfold cc0__fgc_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%fN, %hfN, HN⟩, ⟨%fE, %hfE, HE⟩, Hk⟩
    obtain rfl := harg2.eq_unread hf0; obtain rfl := harg3.eq_unread hf1; obtain rfl := harg4.eq_unread hf2
    obtain rfl := harg5.eq_unread hf3; obtain rfl := harg6.eq_unread hf4; obtain rfl := harg7.eq_unread hf5
    obtain rfl := harg8.eq_unread hf6
    obtain rfl := harg10.eq_unread hfN; obtain rfl := harg11.eq_unread hfE
    sl_exec (disch := first | exact h1 | exact h2 | exact h3 | exact h4)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; iexact H7
    isplitl [HN]
    · iexists _; iexact HN
    iexists _; iexact HE

end Cert.Kernel.Body

end
-- ==== Proof.Bits.Pieces.lean ====
/-
  What each case of the body leaves in the buffers it stores into, as values: the pieces the runs found are single
  whole-buffer stores, so each buffer ends at its last store's payload, and every load in a payload reads the whole
  contents of the buffer it names — except the feature rows, read at the tile's row offset.
-/
import proofs.«157794_g77704548319642_cont_9to1_m_740_10_alg».proof.Proof.Bits.RunLast
import Idealize.ShloMosaic.Lib.Pipeline.Value

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

theorem hz : (![0, 0] : Fin 2 → Nat) = fun _ => 0 := funext fun a => by fin_cases a <;> rfl

/-- The 2560 rows of the padded feature matrix that contraction tile `i 1` multiplies by: rows `2560 · (i 1)` on. -/
abbrev fRows (x2 : Vec F S10240x128 .f32) (i : grid0.Coords) : Vec F S2560x128 .f32 :=
  View.ld x2 (Rect.unit (s := S10240x128) (k0_off1 i) S2560x128.size (k0_off1_inb i))

/-! ## An inner tile after the first -/

theorem coverN_inner (c : Dev nD) (i : grid0.Coords) (arg2 : Memref sig .tc .vmem S1000x2560 .f32) (harg2 : arg2.IsWhole) (arg3 : Memref sig .tc .vmem S1000x2560 .f32) (harg3 : arg3.IsWhole) (arg4 : Memref sig .tc .vmem S10240x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S128x128 .f32) (harg7 : arg7.IsWhole) (arg8 : Memref sig .tc .vmem S1x128 .f32) (harg8 : arg8.IsWhole) (arg9 : Memref sig .tc .vmem S1000x128 .f32) (harg9 : arg9.IsWhole) (arg10 : Memref sig .tc .vmem S1000x128 .f32) (harg10 : arg10.IsWhole) (arg11 : Memref sig .tc .vmem S1000x128 .f32) (harg11 : arg11.IsWhole)
    (h1 : ¬isFirst i) (h2 : ¬isLast i) (h3 : isInner i) (h4 : ¬isEpilogue i)
    (x0 : Vec F S1000x2560 .f32) (x1 : Vec F S1000x2560 .f32) (x2 : Vec F S10240x128 .f32) (x3 : Vec F S128x128 .f32) (x4 : Vec F S1x128 .f32) (x5 : Vec F S128x128 .f32) (x6 : Vec F S1x128 .f32) (xsN xsE : Vec F S1000x128 .f32) (y : S1000x128.Idx) :
    ∃ pc ∈ (runInner c i arg2 harg2 arg3 harg3 arg4 harg4 arg5 harg5 arg6 harg6 arg7 harg7 arg8 harg8 arg9 harg9 arg10 harg10 arg11 harg11 h1 h2 h3 h4 x0 x1 x2 x3 x4 x5 x6 xsN xsE).1, y ∈ pc.1.set :=
  View.cover_of_tiledL (runInner c i arg2 harg2 arg3 harg3 arg4 harg4 arg5 harg5 arg6 harg6 arg7 harg7 arg8 harg8 arg9 harg9 arg10 harg10 arg11 harg11 h1 h2 h3 h4 x0 x1 x2 x3 x4 x5 x6 xsN xsE).1 S1000x128.size (by sl_kernel_rfl) y

theorem coverE_inner (c : Dev nD) (i : grid0.Coords) (arg2 : Memref sig .tc .vmem S1000x2560 .f32) (harg2 : arg2.IsWhole) (arg3 : Memref sig .tc .vmem S1000x2560 .f32) (harg3 : arg3.IsWhole) (arg4 : Memref sig .tc .vmem S10240x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S128x128 .f32) (harg7 : arg7.IsWhole) (arg8 : Memref sig .tc .vmem S1x128 .f32) (harg8 : arg8.IsWhole) (arg9 : Memref sig .tc .vmem S1000x128 .f32) (harg9 : arg9.IsWhole) (arg10 : Memref sig .tc .vmem S1000x128 .f32) (harg10 : arg10.IsWhole) (arg11 : Memref sig .tc .vmem S1000x128 .f32) (harg11 : arg11.IsWhole)
    (h1 : ¬isFirst i) (h2 : ¬isLast i) (h3 : isInner i) (h4 : ¬isEpilogue i)
    (x0 : Vec F S1000x2560 .f32) (x1 : Vec F S1000x2560 .f32) (x2 : Vec F S10240x128 .f32) (x3 : Vec F S128x128 .f32) (x4 : Vec F S1x128 .f32) (x5 : Vec F S128x128 .f32) (x6 : Vec F S1x128 .f32) (xsN xsE : Vec F S1000x128 .f32) (y : S1000x128.Idx) :
    ∃ pc ∈ (runInner c i arg2 harg2 arg3 harg3 arg4 harg4 arg5 harg5 arg6 harg6 arg7 harg7 arg8 harg8 arg9 harg9 arg10 harg10 arg11 harg11 h1 h2 h3 h4 x0 x1 x2 x3 x4 x5 x6 xsN xsE).2.1, y ∈ pc.1.set :=
  View.cover_of_tiledL (runInner c i arg2 harg2 arg3 harg3 arg4 harg4 arg5 harg5 arg6 harg6 arg7 harg7 arg8 harg8 arg9 harg9 arg10 harg10 arg11 harg11 h1 h2 h3 h4 x0 x1 x2 x3 x4 x5 x6 xsN xsE).2.1 S1000x128.size (by sl_kernel_rfl) y

theorem canonN_inner (c : Dev nD) (i : grid0.Coords) (arg2 : Memref sig .tc .vmem S1000x2560 .f32) (harg2 : arg2.IsWhole) (arg3 : Memref sig .tc .vmem S1000x2560 .f32) (harg3 : arg3.IsWhole) (arg4 : Memref sig .tc .vmem S10240x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S128x128 .f32) (harg7 : arg7.IsWhole) (arg8 : Memref sig .tc .vmem S1x128 .f32) (harg8 : arg8.IsWhole) (arg9 : Memref sig .tc .vmem S1000x128 .f32) (harg9 : arg9.IsWhole) (arg10 : Memref sig .tc .vmem S1000x128 .f32) (harg10 : arg10.IsWhole) (arg11 : Memref sig .tc .vmem S1000x128 .f32) (harg11 : arg11.IsWhole)
    (h1 : ¬isFirst i) (h2 : ¬isLast i) (h3 : isInner i) (h4 : ¬isEpilogue i)
    (x0 : Vec F S1000x2560 .f32) (x1 : Vec F S1000x2560 .f32) (x2 : Vec F S10240x128 .f32) (x3 : Vec F S128x128 .f32) (x4 : Vec F S1x128 .f32) (x5 : Vec F S128x128 .f32) (x6 : Vec F S1x128 .f32) (xsN xsE : Vec F S1000x128 .f32) :
    View.canon (runInner c i arg2 harg2 arg3 harg3 arg4 harg4 arg5 harg5 arg6 harg6 arg7 harg7 arg8 harg8 arg9 harg9 arg10 harg10 arg11 harg11 h1 h2 h3 h4 x0 x1 x2 x3 x4 x5 x6 xsN xsE).1 = k0_pay7 (fRows x2 i) x0 xsN := by
  unfold runInner
  dsimp only
  rw [View.canon_unit_zero hz]
  simp only [View.readAt_eq_ld, harg2.read_unread, harg3.read_unread, harg4.read_unread, harg5.read_unread, harg6.read_unread, harg7.read_unread, harg8.read_unread, harg10.read_unread, harg11.read_unread, View.ld_unit_zero (S := S1000x2560) hz, View.ld_unit_zero (S := S1000x128) hz, View.ld_unit_zero (S := S128x128) hz, View.ld_unit_zero (S := S1x128) hz]
  all_goals rfl

theorem canonE_inner (c : Dev nD) (i : grid0.Coords) (arg2 : Memref sig .tc .vmem S1000x2560 .f32) (harg2 : arg2.IsWhole) (arg3 : Memref sig .tc .vmem S1000x2560 .f32) (harg3 : arg3.IsWhole) (arg4 : Memref sig .tc .vmem S10240x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S128x128 .f32) (harg7 : arg7.IsWhole) (arg8 : Memref sig .tc .vmem S1x128 .f32) (harg8 : arg8.IsWhole) (arg9 : Memref sig .tc .vmem S1000x128 .f32) (harg9 : arg9.IsWhole) (arg10 : Memref sig .tc .vmem S1000x128 .f32) (harg10 : arg10.IsWhole) (arg11 : Memref sig .tc .vmem S1000x128 .f32) (harg11 : arg11.IsWhole)
    (h1 : ¬isFirst i) (h2 : ¬isLast i) (h3 : isInner i) (h4 : ¬isEpilogue i)
    (x0 : Vec F S1000x2560 .f32) (x1 : Vec F S1000x2560 .f32) (x2 : Vec F S10240x128 .f32) (x3 : Vec F S128x128 .f32) (x4 : Vec F S1x128 .f32) (x5 : Vec F S128x128 .f32) (x6 : Vec F S1x128 .f32) (xsN xsE : Vec F S1000x128 .f32) :
    View.canon (runInner c i arg2 harg2 arg3 harg3 arg4 harg4 arg5 harg5 arg6 harg6 arg7 harg7 arg8 harg8 arg9 harg9 arg10 harg10 arg11 harg11 h1 h2 h3 h4 x0 x1 x2 x3 x4 x5 x6 xsN xsE).2.1 = k0_pay8 (fRows x2 i) x1 xsE := by
  unfold runInner
  dsimp only
  rw [View.canon_unit_zero hz]
  simp only [View.readAt_eq_ld, harg2.read_unread, harg3.read_unread, harg4.read_unread, harg5.read_unread, harg6.read_unread, harg7.read_unread, harg8.read_unread, harg10.read_unread, harg11.read_unread, View.ld_unit_zero (S := S1000x2560) hz, View.ld_unit_zero (S := S1000x128) hz, View.ld_unit_zero (S := S128x128) hz, View.ld_unit_zero (S := S1x128) hz]
  all_goals rfl

/-! ## The first tile -/

theorem coverN_first (c : Dev nD) (i : grid0.Coords) (arg2 : Memref sig .tc .vmem S1000x2560 .f32) (harg2 : arg2.IsWhole) (arg3 : Memref sig .tc .vmem S1000x2560 .f32) (harg3 : arg3.IsWhole) (arg4 : Memref sig .tc .vmem S10240x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S128x128 .f32) (harg7 : arg7.IsWhole) (arg8 : Memref sig .tc .vmem S1x128 .f32) (harg8 : arg8.IsWhole) (arg9 : Memref sig .tc .vmem S1000x128 .f32) (harg9 : arg9.IsWhole) (arg10 : Memref sig .tc .vmem S1000x128 .f32) (harg10 : arg10.IsWhole) (arg11 : Memref sig .tc .vmem S1000x128 .f32) (harg11 : arg11.IsWhole)
    (h1 : isFirst i) (h2 : ¬isLast i) (h3 : isInner i) (h4 : ¬isEpilogue i)
    (x0 : Vec F S1000x2560 .f32) (x1 : Vec F S1000x2560 .f32) (x2 : Vec F S10240x128 .f32) (x3 : Vec F S128x128 .f32) (x4 : Vec F S1x128 .f32) (x5 : Vec F S128x128 .f32) (x6 : Vec F S1x128 .f32) (y : S1000x128.Idx) :
    ∃ pc ∈ (runFirst c i arg2 harg2 arg3 harg3 arg4 harg4 arg5 harg5 arg6 harg6 arg7 harg7 arg8 harg8 arg9 harg9 arg10 harg10 arg11 harg11 h1 h2 h3 h4 x0 x1 x2 x3 x4 x5 x6).1, y ∈ pc.1.set :=
  View.cover_of_tiledL (runFirst c i arg2 harg2 arg3 harg3 arg4 harg4 arg5 harg5 arg6 harg6 arg7 harg7 arg8 harg8 arg9 harg9 arg10 harg10 arg11 harg11 h1 h2 h3 h4 x0 x1 x2 x3 x4 x5 x6).1 S1000x128.size (by sl_kernel_rfl) y

theorem coverE_first (c : Dev nD) (i : grid0.Coords) (arg2 : Memref sig .tc .vmem S1000x2560 .f32) (harg2 : arg2.IsWhole) (arg3 : Memref sig .tc .vmem S1000x2560 .f32) (harg3 : arg3.IsWhole) (arg4 : Memref sig .tc .vmem S10240x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S128x128 .f32) (harg7 : arg7.IsWhole) (arg8 : Memref sig .tc .vmem S1x128 .f32) (harg8 : arg8.IsWhole) (arg9 : Memref sig .tc .vmem S1000x128 .f32) (harg9 : arg9.IsWhole) (arg10 : Memref sig .tc .vmem S1000x128 .f32) (harg10 : arg10.IsWhole) (arg11 : Memref sig .tc .vmem S1000x128 .f32) (harg11 : arg11.IsWhole)
    (h1 : isFirst i) (h2 : ¬isLast i) (h3 : isInner i) (h4 : ¬isEpilogue i)
    (x0 : Vec F S1000x2560 .f32) (x1 : Vec F S1000x2560 .f32) (x2 : Vec F S10240x128 .f32) (x3 : Vec F S128x128 .f32) (x4 : Vec F S1x128 .f32) (x5 : Vec F S128x128 .f32) (x6 : Vec F S1x128 .f32) (y : S1000x128.Idx) :
    ∃ pc ∈ (runFirst c i arg2 harg2 arg3 harg3 arg4 harg4 arg5 harg5 arg6 harg6 arg7 harg7 arg8 harg8 arg9 harg9 arg10 harg10 arg11 harg11 h1 h2 h3 h4 x0 x1 x2 x3 x4 x5 x6).2.1, y ∈ pc.1.set :=
  View.cover_of_tiledL (runFirst c i arg2 harg2 arg3 harg3 arg4 harg4 arg5 harg5 arg6 harg6 arg7 harg7 arg8 harg8 arg9 harg9 arg10 harg10 arg11 harg11 h1 h2 h3 h4 x0 x1 x2 x3 x4 x5 x6).2.1 S1000x128.size (by sl_kernel_rfl) y

theorem canonN_first (c : Dev nD) (i : grid0.Coords) (arg2 : Memref sig .tc .vmem S1000x2560 .f32) (harg2 : arg2.IsWhole) (arg3 : Memref sig .tc .vmem S1000x2560 .f32) (harg3 : arg3.IsWhole) (arg4 : Memref sig .tc .vmem S10240x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S128x128 .f32) (harg7 : arg7.IsWhole) (arg8 : Memref sig .tc .vmem S1x128 .f32) (harg8 : arg8.IsWhole) (arg9 : Memref sig .tc .vmem S1000x128 .f32) (harg9 : arg9.IsWhole) (arg10 : Memref sig .tc .vmem S1000x128 .f32) (harg10 : arg10.IsWhole) (arg11 : Memref sig .tc .vmem S1000x128 .f32) (harg11 : arg11.IsWhole)
    (h1 : isFirst i) (h2 : ¬isLast i) (h3 : isInner i) (h4 : ¬isEpilogue i)
    (x0 : Vec F S1000x2560 .f32) (x1 : Vec F S1000x2560 .f32) (x2 : Vec F S10240x128 .f32) (x3 : Vec F S128x128 .f32) (x4 : Vec F S1x128 .f32) (x5 : Vec F S128x128 .f32) (x6 : Vec F S1x128 .f32) :
    View.canon (runFirst c i arg2 harg2 arg3 harg3 arg4 harg4 arg5 harg5 arg6 harg6 arg7 harg7 arg8 harg8 arg9 harg9 arg10 harg10 arg11 harg11 h1 h2 h3 h4 x0 x1 x2 x3 x4 x5 x6).1 = k0_pay7 (fRows x2 i) x0 k0_pay1 := by
  unfold runFirst
  dsimp only
  sl_unfold_words
  rw [View.canon_cons_unit_zero (S := S1000x128) hz, View.readCov_unit_zero (S := S1000x128) _ hz]
  simp only [View.readAt_eq_ld, harg2.read_unread, harg3.read_unread, harg4.read_unread, harg5.read_unread, harg6.read_unread, harg7.read_unread, harg8.read_unread, harg10.read_unread, harg11.read_unread, View.ld_unit_zero (S := S1000x2560) hz, View.ld_unit_zero (S := S1000x128) hz, View.ld_unit_zero (S := S128x128) hz, View.ld_unit_zero (S := S1x128) hz]
  all_goals rfl

theorem canonE_first (c : Dev nD) (i : grid0.Coords) (arg2 : Memref sig .tc .vmem S1000x2560 .f32) (harg2 : arg2.IsWhole) (arg3 : Memref sig .tc .vmem S1000x2560 .f32) (harg3 : arg3.IsWhole) (arg4 : Memref sig .tc .vmem S10240x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S128x128 .f32) (harg7 : arg7.IsWhole) (arg8 : Memref sig .tc .vmem S1x128 .f32) (harg8 : arg8.IsWhole) (arg9 : Memref sig .tc .vmem S1000x128 .f32) (harg9 : arg9.IsWhole) (arg10 : Memref sig .tc .vmem S1000x128 .f32) (harg10 : arg10.IsWhole) (arg11 : Memref sig .tc .vmem S1000x128 .f32) (harg11 : arg11.IsWhole)
    (h1 : isFirst i) (h2 : ¬isLast i) (h3 : isInner i) (h4 : ¬isEpilogue i)
    (x0 : Vec F S1000x2560 .f32) (x1 : Vec F S1000x2560 .f32) (x2 : Vec F S10240x128 .f32) (x3 : Vec F S128x128 .f32) (x4 : Vec F S1x128 .f32) (x5 : Vec F S128x128 .f32) (x6 : Vec F S1x128 .f32) :
    View.canon (runFirst c i arg2 harg2 arg3 harg3 arg4 harg4 arg5 harg5 arg6 harg6 arg7 harg7 arg8 harg8 arg9 harg9 arg10 harg10 arg11 harg11 h1 h2 h3 h4 x0 x1 x2 x3 x4 x5 x6).2.1 = k0_pay8 (fRows x2 i) x1 k0_pay2 := by
  unfold runFirst
  dsimp only
  sl_unfold_words
  rw [View.canon_cons_unit_zero (S := S1000x128) hz, View.readCov_unit_zero (S := S1000x128) _ hz]
  simp only [View.readAt_eq_ld, harg2.read_unread, harg3.read_unread, harg4.read_unread, harg5.read_unread, harg6.read_unread, harg7.read_unread, harg8.read_unread, harg10.read_unread, harg11.read_unread, View.ld_unit_zero (S := S1000x2560) hz, View.ld_unit_zero (S := S1000x128) hz, View.ld_unit_zero (S := S128x128) hz, View.ld_unit_zero (S := S1x128) hz]
  all_goals rfl

/-! ## The last tile -/

theorem coverO_last (c : Dev nD) (i : grid0.Coords) (arg2 : Memref sig .tc .vmem S1000x2560 .f32) (harg2 : arg2.IsWhole) (arg3 : Memref sig .tc .vmem S1000x2560 .f32) (harg3 : arg3.IsWhole) (arg4 : Memref sig .tc .vmem S10240x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S128x128 .f32) (harg7 : arg7.IsWhole) (arg8 : Memref sig .tc .vmem S1x128 .f32) (harg8 : arg8.IsWhole) (arg9 : Memref sig .tc .vmem S1000x128 .f32) (harg9 : arg9.IsWhole) (arg10 : Memref sig .tc .vmem S1000x128 .f32) (harg10 : arg10.IsWhole) (arg11 : Memref sig .tc .vmem S1000x128 .f32) (harg11 : arg11.IsWhole)
    (h1 : ¬isFirst i) (h2 : isLast i) (h3 : ¬isInner i) (h4 : isEpilogue i)
    (x0 : Vec F S1000x2560 .f32) (x1 : Vec F S1000x2560 .f32) (x2 : Vec F S10240x128 .f32) (x3 : Vec F S128x128 .f32) (x4 : Vec F S1x128 .f32) (x5 : Vec F S128x128 .f32) (x6 : Vec F S1x128 .f32) (xsN xsE : Vec F S1000x128 .f32) (y : S1000x128.Idx) :
    ∃ pc ∈ (runLast c i arg2 harg2 arg3 harg3 arg4 harg4 arg5 harg5 arg6 harg6 arg7 harg7 arg8 harg8 arg9 harg9 arg10 harg10 arg11 harg11 h1 h2 h3 h4 x0 x1 x2 x3 x4 x5 x6 xsN xsE).1, y ∈ pc.1.set :=
  View.cover_of_tiledL (runLast c i arg2 harg2 arg3 harg3 arg4 harg4 arg5 harg5 arg6 harg6 arg7 harg7 arg8 harg8 arg9 harg9 arg10 harg10 arg11 harg11 h1 h2 h3 h4 x0 x1 x2 x3 x4 x5 x6 xsN xsE).1 S1000x128.size (by sl_kernel_rfl) y

theorem coverN_last (c : Dev nD) (i : grid0.Coords) (arg2 : Memref sig .tc .vmem S1000x2560 .f32) (harg2 : arg2.IsWhole) (arg3 : Memref sig .tc .vmem S1000x2560 .f32) (harg3 : arg3.IsWhole) (arg4 : Memref sig .tc .vmem S10240x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S128x128 .f32) (harg7 : arg7.IsWhole) (arg8 : Memref sig .tc .vmem S1x128 .f32) (harg8 : arg8.IsWhole) (arg9 : Memref sig .tc .vmem S1000x128 .f32) (harg9 : arg9.IsWhole) (arg10 : Memref sig .tc .vmem S1000x128 .f32) (harg10 : arg10.IsWhole) (arg11 : Memref sig .tc .vmem S1000x128 .f32) (harg11 : arg11.IsWhole)
    (h1 : ¬isFirst i) (h2 : isLast i) (h3 : ¬isInner i) (h4 : isEpilogue i)
    (x0 : Vec F S1000x2560 .f32) (x1 : Vec F S1000x2560 .f32) (x2 : Vec F S10240x128 .f32) (x3 : Vec F S128x128 .f32) (x4 : Vec F S1x128 .f32) (x5 : Vec F S128x128 .f32) (x6 : Vec F S1x128 .f32) (xsN xsE : Vec F S1000x128 .f32) (y : S1000x128.Idx) :
    ∃ pc ∈ (runLast c i arg2 harg2 arg3 harg3 arg4 harg4 arg5 harg5 arg6 harg6 arg7 harg7 arg8 harg8 arg9 harg9 arg10 harg10 arg11 harg11 h1 h2 h3 h4 x0 x1 x2 x3 x4 x5 x6 xsN xsE).2.1, y ∈ pc.1.set :=
  View.cover_of_tiledL (runLast c i arg2 harg2 arg3 harg3 arg4 harg4 arg5 harg5 arg6 harg6 arg7 harg7 arg8 harg8 arg9 harg9 arg10 harg10 arg11 harg11 h1 h2 h3 h4 x0 x1 x2 x3 x4 x5 x6 xsN xsE).2.1 S1000x128.size (by sl_kernel_rfl) y

theorem coverE_last (c : Dev nD) (i : grid0.Coords) (arg2 : Memref sig .tc .vmem S1000x2560 .f32) (harg2 : arg2.IsWhole) (arg3 : Memref sig .tc .vmem S1000x2560 .f32) (harg3 : arg3.IsWhole) (arg4 : Memref sig .tc .vmem S10240x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S128x128 .f32) (harg7 : arg7.IsWhole) (arg8 : Memref sig .tc .vmem S1x128 .f32) (harg8 : arg8.IsWhole) (arg9 : Memref sig .tc .vmem S1000x128 .f32) (harg9 : arg9.IsWhole) (arg10 : Memref sig .tc .vmem S1000x128 .f32) (harg10 : arg10.IsWhole) (arg11 : Memref sig .tc .vmem S1000x128 .f32) (harg11 : arg11.IsWhole)
    (h1 : ¬isFirst i) (h2 : isLast i) (h3 : ¬isInner i) (h4 : isEpilogue i)
    (x0 : Vec F S1000x2560 .f32) (x1 : Vec F S1000x2560 .f32) (x2 : Vec F S10240x128 .f32) (x3 : Vec F S128x128 .f32) (x4 : Vec F S1x128 .f32) (x5 : Vec F S128x128 .f32) (x6 : Vec F S1x128 .f32) (xsN xsE : Vec F S1000x128 .f32) (y : S1000x128.Idx) :
    ∃ pc ∈ (runLast c i arg2 harg2 arg3 harg3 arg4 harg4 arg5 harg5 arg6 harg6 arg7 harg7 arg8 harg8 arg9 harg9 arg10 harg10 arg11 harg11 h1 h2 h3 h4 x0 x1 x2 x3 x4 x5 x6 xsN xsE).2.2.1, y ∈ pc.1.set :=
  View.cover_of_tiledL (runLast c i arg2 harg2 arg3 harg3 arg4 harg4 arg5 harg5 arg6 harg6 arg7 harg7 arg8 harg8 arg9 harg9 arg10 harg10 arg11 harg11 h1 h2 h3 h4 x0 x1 x2 x3 x4 x5 x6 xsN xsE).2.2.1 S1000x128.size (by sl_kernel_rfl) y

theorem canonN_last (c : Dev nD) (i : grid0.Coords) (arg2 : Memref sig .tc .vmem S1000x2560 .f32) (harg2 : arg2.IsWhole) (arg3 : Memref sig .tc .vmem S1000x2560 .f32) (harg3 : arg3.IsWhole) (arg4 : Memref sig .tc .vmem S10240x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S128x128 .f32) (harg7 : arg7.IsWhole) (arg8 : Memref sig .tc .vmem S1x128 .f32) (harg8 : arg8.IsWhole) (arg9 : Memref sig .tc .vmem S1000x128 .f32) (harg9 : arg9.IsWhole) (arg10 : Memref sig .tc .vmem S1000x128 .f32) (harg10 : arg10.IsWhole) (arg11 : Memref sig .tc .vmem S1000x128 .f32) (harg11 : arg11.IsWhole)
    (h1 : ¬isFirst i) (h2 : isLast i) (h3 : ¬isInner i) (h4 : isEpilogue i)
    (x0 : Vec F S1000x2560 .f32) (x1 : Vec F S1000x2560 .f32) (x2 : Vec F S10240x128 .f32) (x3 : Vec F S128x128 .f32) (x4 : Vec F S1x128 .f32) (x5 : Vec F S128x128 .f32) (x6 : Vec F S1x128 .f32) (xsN xsE : Vec F S1000x128 .f32) :
    View.canon (runLast c i arg2 harg2 arg3 harg3 arg4 harg4 arg5 harg5 arg6 harg6 arg7 harg7 arg8 harg8 arg9 harg9 arg10 harg10 arg11 harg11 h1 h2 h3 h4 x0 x1 x2 x3 x4 x5 x6 xsN xsE).2.1 = k0_pay5 i (fRows x2 i) x0 xsN := by
  unfold runLast
  dsimp only
  sl_unfold_words
  rw [View.canon_unit_zero hz]
  simp only [View.readAt_eq_ld, harg2.read_unread, harg3.read_unread, harg4.read_unread, harg5.read_unread, harg6.read_unread, harg7.read_unread, harg8.read_unread, harg10.read_unread, harg11.read_unread, View.ld_unit_zero (S := S1000x2560) hz, View.ld_unit_zero (S := S1000x128) hz, View.ld_unit_zero (S := S128x128) hz, View.ld_unit_zero (S := S1x128) hz]
  all_goals rfl

theorem canonE_last (c : Dev nD) (i : grid0.Coords) (arg2 : Memref sig .tc .vmem S1000x2560 .f32) (harg2 : arg2.IsWhole) (arg3 : Memref sig .tc .vmem S1000x2560 .f32) (harg3 : arg3.IsWhole) (arg4 : Memref sig .tc .vmem S10240x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S128x128 .f32) (harg7 : arg7.IsWhole) (arg8 : Memref sig .tc .vmem S1x128 .f32) (harg8 : arg8.IsWhole) (arg9 : Memref sig .tc .vmem S1000x128 .f32) (harg9 : arg9.IsWhole) (arg10 : Memref sig .tc .vmem S1000x128 .f32) (harg10 : arg10.IsWhole) (arg11 : Memref sig .tc .vmem S1000x128 .f32) (harg11 : arg11.IsWhole)
    (h1 : ¬isFirst i) (h2 : isLast i) (h3 : ¬isInner i) (h4 : isEpilogue i)
    (x0 : Vec F S1000x2560 .f32) (x1 : Vec F S1000x2560 .f32) (x2 : Vec F S10240x128 .f32) (x3 : Vec F S128x128 .f32) (x4 : Vec F S1x128 .f32) (x5 : Vec F S128x128 .f32) (x6 : Vec F S1x128 .f32) (xsN xsE : Vec F S1000x128 .f32) :
    View.canon (runLast c i arg2 harg2 arg3 harg3 arg4 harg4 arg5 harg5 arg6 harg6 arg7 harg7 arg8 harg8 arg9 harg9 arg10 harg10 arg11 harg11 h1 h2 h3 h4 x0 x1 x2 x3 x4 x5 x6 xsN xsE).2.2.1 = k0_pay6 i (fRows x2 i) x1 xsE := by
  unfold runLast
  dsimp only
  sl_unfold_words
  rw [View.canon_unit_zero hz]
  simp only [View.readAt_eq_ld, harg2.read_unread, harg3.read_unread, harg4.read_unread, harg5.read_unread, harg6.read_unread, harg7.read_unread, harg8.read_unread, harg10.read_unread, harg11.read_unread, View.ld_unit_zero (S := S1000x2560) hz, View.ld_unit_zero (S := S1000x128) hz, View.ld_unit_zero (S := S128x128) hz, View.ld_unit_zero (S := S1x128) hz]
  all_goals rfl

theorem canonO_last (c : Dev nD) (i : grid0.Coords) (arg2 : Memref sig .tc .vmem S1000x2560 .f32) (harg2 : arg2.IsWhole) (arg3 : Memref sig .tc .vmem S1000x2560 .f32) (harg3 : arg3.IsWhole) (arg4 : Memref sig .tc .vmem S10240x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S128x128 .f32) (harg7 : arg7.IsWhole) (arg8 : Memref sig .tc .vmem S1x128 .f32) (harg8 : arg8.IsWhole) (arg9 : Memref sig .tc .vmem S1000x128 .f32) (harg9 : arg9.IsWhole) (arg10 : Memref sig .tc .vmem S1000x128 .f32) (harg10 : arg10.IsWhole) (arg11 : Memref sig .tc .vmem S1000x128 .f32) (harg11 : arg11.IsWhole)
    (h1 : ¬isFirst i) (h2 : isLast i) (h3 : ¬isInner i) (h4 : isEpilogue i)
    (x0 : Vec F S1000x2560 .f32) (x1 : Vec F S1000x2560 .f32) (x2 : Vec F S10240x128 .f32) (x3 : Vec F S128x128 .f32) (x4 : Vec F S1x128 .f32) (x5 : Vec F S128x128 .f32) (x6 : Vec F S1x128 .f32) (xsN xsE : Vec F S1000x128 .f32) :
    View.canon (runLast c i arg2 harg2 arg3 harg3 arg4 harg4 arg5 harg5 arg6 harg6 arg7 harg7 arg8 harg8 arg9 harg9 arg10 harg10 arg11 harg11 h1 h2 h3 h4 x0 x1 x2 x3 x4 x5 x6 xsN xsE).1
      = k0_pay9 (k0_pay5 i (fRows x2 i) x0 xsN) x3 x4 (k0_pay6 i (fRows x2 i) x1 xsE) x5 x6 := by
  unfold runLast
  dsimp only
  sl_unfold_words
  rw [View.canon_unit_zero hz, View.readCov_unit_zero (S := S1000x128) _ hz, View.readCov_unit_zero (S := S1000x128) _ hz]
  simp only [View.readAt_eq_ld, harg2.read_unread, harg3.read_unread, harg4.read_unread, harg5.read_unread, harg6.read_unread, harg7.read_unread, harg8.read_unread, harg10.read_unread, harg11.read_unread, View.ld_unit_zero (S := S1000x2560) hz, View.ld_unit_zero (S := S1000x128) hz, View.ld_unit_zero (S := S128x128) hz, View.ld_unit_zero (S := S1x128) hz]
  all_goals rfl

end Cert.Kernel.Body

end
-- ==== Proof.Bits.Accum.lean ====
/-
  The accumulation across the contraction tiles. At point `t` the body is handed the two adjacency blocks as their
  fetches left them: the block's part inside the matrix, and beyond it words nothing names. Away from the last
  contraction tile every block lies inside the matrix; at the last one the columns past 10000 are beyond it, and there
  the body's mask — column index below 10000 — selects zero instead. So what the body adds to the accumulators does
  not depend on those words, and the accumulators after each point are a function of the argument arrays alone: the
  running sum, restarted at each row tile's first contraction tile.
-/
import proofs.«157794_g77704548319642_cont_9to1_m_740_10_alg».proof.Proof.Bits.Pieces

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The part of each adjacency block its fetch moves -/

theorem rowsA : ∀ t : Fin cfg0.N, win0_0.xsize (grid0.coords t) 0 = 1000 := by decide +kernel
theorem colsA_inner : ∀ t : Fin cfg0.N, t.val % 4 ≠ 3 → win0_0.xsize (grid0.coords t) 1 = 2560 := by decide +kernel
theorem colsA_last : ∀ t : Fin cfg0.N, t.val % 4 = 3 → win0_0.xsize (grid0.coords t) 1 = 2320 := by decide +kernel
theorem rowsB : ∀ t : Fin cfg0.N, win0_1.xsize (grid0.coords t) 0 = 1000 := by decide +kernel
theorem colsB_inner : ∀ t : Fin cfg0.N, t.val % 4 ≠ 3 → win0_1.xsize (grid0.coords t) 1 = 2560 := by decide +kernel
theorem colsB_last : ∀ t : Fin cfg0.N, t.val % 4 = 3 → win0_1.xsize (grid0.coords t) 1 = 2320 := by decide +kernel
theorem tile_last : ∀ t : Fin cfg0.N, t.val % 4 = 3 → ((grid0.coords t) 1).val = 3 := by decide +kernel

/-- Away from the last contraction tile the whole block is moved. -/
theorem movedA_inner (t : Fin cfg0.N) (h : t.val % 4 ≠ 3) (j : S1000x2560.Idx) : win0_0.moved (grid0.coords t) j = true :=
  (win0_0.moved_iff _ j).mpr fun a => by
    match a with
    | ⟨0, _⟩ => show (j 0).val < win0_0.xsize (grid0.coords t) 0; rw [rowsA t]; exact (j 0).isLt
    | ⟨1, _⟩ => show (j 1).val < win0_0.xsize (grid0.coords t) 1; rw [colsA_inner t h]; exact (j 1).isLt
theorem movedB_inner (t : Fin cfg0.N) (h : t.val % 4 ≠ 3) (j : S1000x2560.Idx) : win0_1.moved (grid0.coords t) j = true :=
  (win0_1.moved_iff _ j).mpr fun a => by
    match a with
    | ⟨0, _⟩ => show (j 0).val < win0_1.xsize (grid0.coords t) 0; rw [rowsB t]; exact (j 0).isLt
    | ⟨1, _⟩ => show (j 1).val < win0_1.xsize (grid0.coords t) 1; rw [colsB_inner t h]; exact (j 1).isLt

/-- At the last contraction tile an entry the fetch does not move lies in a column past 2320 of the block. -/
theorem colA_of_not_moved (t : Fin cfg0.N) (h : t.val % 4 = 3) (j : S1000x2560.Idx)
    (hm : ¬win0_0.moved (grid0.coords t) j = true) : 2320 ≤ (j 1).val := by
  by_contra hlt
  refine hm ((win0_0.moved_iff _ j).mpr fun a => ?_)
  match a with
  | ⟨0, _⟩ => show (j 0).val < win0_0.xsize (grid0.coords t) 0; rw [rowsA t]; exact (j 0).isLt
  | ⟨1, _⟩ => show (j 1).val < win0_0.xsize (grid0.coords t) 1; rw [colsA_last t h]; omega
theorem colB_of_not_moved (t : Fin cfg0.N) (h : t.val % 4 = 3) (j : S1000x2560.Idx)
    (hm : ¬win0_1.moved (grid0.coords t) j = true) : 2320 ≤ (j 1).val := by
  by_contra hlt
  refine hm ((win0_1.moved_iff _ j).mpr fun a => ?_)
  match a with
  | ⟨0, _⟩ => show (j 0).val < win0_1.xsize (grid0.coords t) 0; rw [rowsB t]; exact (j 0).isLt
  | ⟨1, _⟩ => show (j 1).val < win0_1.xsize (grid0.coords t) 1; rw [colsB_last t h]; omega

/-- Away from the last contraction tile the block does not depend on what the buffer held. -/
theorem fillA_inner (t : Fin cfg0.N) (h : t.val % 4 ≠ 3) (d d' : S1000x2560.Idx → Elt F .f32)
    (g : (win0_0.xblock (grid0.coords t)).Idx → Elt F .f32) :
    win0_0.fill (grid0.coords t) d g = win0_0.fill (grid0.coords t) d' g := by
  funext j; unfold Window.fill; rw [dif_pos (movedA_inner t h j), dif_pos (movedA_inner t h j)]
theorem fillB_inner (t : Fin cfg0.N) (h : t.val % 4 ≠ 3) (d d' : S1000x2560.Idx → Elt F .f32)
    (g : (win0_1.xblock (grid0.coords t)).Idx → Elt F .f32) :
    win0_1.fill (grid0.coords t) d g = win0_1.fill (grid0.coords t) d' g := by
  funext j; unfold Window.fill; rw [dif_pos (movedB_inner t h j), dif_pos (movedB_inner t h j)]

/-! ## The mask at the last contraction tile -/

/-- At contraction tile 3 block column `n` is matrix column `7680 + n`: at or past 10000 from `n = 2320` on, where
    the mask bit is off. -/
theorem mask_off (i : grid0.Coords) (hi : (i 1).val = 3) (j : S1000x2560.Idx) (hj : 2320 ≤ (j 1).val) : k0_pay4 i j ≠ 1#1 := by
  have hj2 : (j 1).val < 2560 := (j 1).isLt
  unfold k0_pay4
  dsimp only [cmpi, addi, broadcast, iota, List.foldl]
  rw [hi]
  have e : (0 * ![1000, 2560] 1 + (j 1).val) = (j 1).val := by simp
  rw [e]
  generalize (j 1).val = n at hj hj2
  have hm : Scalar.muli 3#32 2560#32 = 7680#32 := by decide
  rw [hm]
  have hs : (IntOp.addi 7680#32 (BitVec.ofNat 32 n)).slt 10000#32 = false := by
    unfold IntOp.addi
    rw [BitVec.slt_eq_decide]
    have h1 : (7680#32 + BitVec.ofNat 32 n).toNat = 7680 + n := by
      rw [BitVec.toNat_add, BitVec.toNat_ofNat, BitVec.toNat_ofNat]; omega
    have h2 : (7680#32 + BitVec.ofNat 32 n).toInt = 7680 + n := by
      rw [BitVec.toInt_eq_toNat_cond, h1]; split <;> omega
    have h3 : (10000#32 : BitVec 32).toInt = 10000 := by decide
    rw [h2, h3]
    simp only [decide_eq_false_iff_not]; omega
  unfold IntOp.cmpi
  simp only [hs]
  decide

/-- So the masked block does not depend on what the buffer held beyond the matrix. -/
theorem maskedA (t : Fin cfg0.N) (h : t.val % 4 = 3) (d d' z : S1000x2560.Idx → Elt F .f32)
    (g : (win0_0.xblock (grid0.coords t)).Idx → Elt F .f32) :
    select (k0_pay4 (grid0.coords t)) (win0_0.fill (grid0.coords t) d g) z
      = select (k0_pay4 (grid0.coords t)) (win0_0.fill (grid0.coords t) d' g) z := by
  funext j
  show Scalar.select (k0_pay4 (grid0.coords t) j) (win0_0.fill (grid0.coords t) d g j) (z j)
    = Scalar.select (k0_pay4 (grid0.coords t) j) (win0_0.fill (grid0.coords t) d' g j) (z j)
  by_cases hm : win0_0.moved (grid0.coords t) j = true
  · unfold Window.fill; rw [dif_pos hm, dif_pos hm]
  · have hoff := mask_off (grid0.coords t) (tile_last t h) j (colA_of_not_moved t h j hm)
    unfold Scalar.select; exact (if_neg hoff).trans (if_neg hoff).symm
theorem maskedB (t : Fin cfg0.N) (h : t.val % 4 = 3) (d d' z : S1000x2560.Idx → Elt F .f32)
    (g : (win0_1.xblock (grid0.coords t)).Idx → Elt F .f32) :
    select (k0_pay4 (grid0.coords t)) (win0_1.fill (grid0.coords t) d g) z
      = select (k0_pay4 (grid0.coords t)) (win0_1.fill (grid0.coords t) d' g) z := by
  funext j
  show Scalar.select (k0_pay4 (grid0.coords t) j) (win0_1.fill (grid0.coords t) d g j) (z j)
    = Scalar.select (k0_pay4 (grid0.coords t) j) (win0_1.fill (grid0.coords t) d' g j) (z j)
  by_cases hm : win0_1.moved (grid0.coords t) j = true
  · unfold Window.fill; rw [dif_pos hm, dif_pos hm]
  · have hoff := mask_off (grid0.coords t) (tile_last t h) j (colB_of_not_moved t h j hm)
    unfold Scalar.select; exact (if_neg hoff).trans (if_neg hoff).symm

/-- The masked partial product added at the last tile does not depend on those words either. -/
theorem pay5_fill (t : Fin cfg0.N) (h : t.val % 4 = 3) (d d' : S1000x2560.Idx → Elt F .f32)
    (g : (win0_0.xblock (grid0.coords t)).Idx → Elt F .f32) (v5 : Vec F S2560x128 .f32) (p : Vec F S1000x128 .f32) :
    k0_pay5 (grid0.coords t) v5 (win0_0.fill (grid0.coords t) d g) p = k0_pay5 (grid0.coords t) v5 (win0_0.fill (grid0.coords t) d' g) p := by
  unfold k0_pay5; dsimp only; rw [maskedA t h d d']
theorem pay6_fill (t : Fin cfg0.N) (h : t.val % 4 = 3) (d d' : S1000x2560.Idx → Elt F .f32)
    (g : (win0_1.xblock (grid0.coords t)).Idx → Elt F .f32) (v5 : Vec F S2560x128 .f32) (p : Vec F S1000x128 .f32) :
    k0_pay6 (grid0.coords t) v5 (win0_1.fill (grid0.coords t) d g) p = k0_pay6 (grid0.coords t) v5 (win0_1.fill (grid0.coords t) d' g) p := by
  unfold k0_pay6; dsimp only; rw [maskedB t h d d']

/-! ## The accumulators after each point -/

/-- The words written beyond the matrix in the blocks the accumulation is stated over: zeros. -/
abbrev zfill : S1000x2560.Idx → Elt F .f32 := fun _ => Scalar.ofBits .f32 0#32

/-- The two adjacency blocks at point `t`: the part inside the matrix, zeros beyond. -/
def blkA (c : Dev nD) (t : Fin cfg0.N) : Vec F S1000x2560 .f32 := win0_0.fill (grid0.coords t) zfill (iblk m c 0 t)
def blkB (c : Dev nD) (t : Fin cfg0.N) : Vec F S1000x2560 .f32 := win0_1.fill (grid0.coords t) zfill (iblk m c 1 t)

/-- One point's step on the two accumulators `p`: at contraction tile 0 from zero, at tile 3 masked. -/
def accStep (t : Fin cfg0.N) (x0 x1 : Vec F S1000x2560 .f32) (x2 : Vec F S10240x128 .f32)
    (p : Vec F S1000x128 .f32 × Vec F S1000x128 .f32) : Vec F S1000x128 .f32 × Vec F S1000x128 .f32 :=
  if t.val % 4 = 0 then (k0_pay7 (fRows x2 (grid0.coords t)) x0 k0_pay1, k0_pay8 (fRows x2 (grid0.coords t)) x1 k0_pay2)
  else if t.val % 4 = 3 then (k0_pay5 (grid0.coords t) (fRows x2 (grid0.coords t)) x0 p.1, k0_pay6 (grid0.coords t) (fRows x2 (grid0.coords t)) x1 p.2)
  else (k0_pay7 (fRows x2 (grid0.coords t)) x0 p.1, k0_pay8 (fRows x2 (grid0.coords t)) x1 p.2)

/-- The step does not depend on the words beyond the matrix. -/
theorem accStep_fill (c : Dev nD) (t : Fin cfg0.N) (d0 d1 : S1000x2560.Idx → Elt F .f32) (x2 : Vec F S10240x128 .f32)
    (p : Vec F S1000x128 .f32 × Vec F S1000x128 .f32) :
    accStep t (win0_0.fill (grid0.coords t) d0 (iblk m c 0 t)) (win0_1.fill (grid0.coords t) d1 (iblk m c 1 t)) x2 p
      = accStep t (blkA m c t) (blkB m c t) x2 p := by
  unfold blkA blkB
  by_cases h3 : t.val % 4 = 3
  · have h0 : ¬t.val % 4 = 0 := by omega
    unfold accStep
    rw [if_neg h0, if_pos h3, if_neg h0, if_pos h3, pay5_fill t h3 d0 zfill, pay6_fill t h3 d1 zfill]
  · rw [fillA_inner t h3 d0 zfill, fillB_inner t h3 d1 zfill]

/-- The two accumulators after the body at position `n`. -/
def accAt (c : Dev nD) : (n : ℕ) → n < cfg0.N → Vec F S1000x128 .f32 × Vec F S1000x128 .f32
  | 0, hn => accStep ⟨0, hn⟩ (blkA m c ⟨0, hn⟩) (blkB m c ⟨0, hn⟩) (iblk m c 2 ⟨0, hn⟩) (k0_pay1, k0_pay2)
  | n + 1, hn => accStep ⟨n + 1, hn⟩ (blkA m c ⟨n + 1, hn⟩) (blkB m c ⟨n + 1, hn⟩) (iblk m c 2 ⟨n + 1, hn⟩) (accAt c n (Nat.lt_of_succ_lt hn))

theorem accAt_eq (c : Dev nD) (t : Fin cfg0.N) :
    accAt m c t.val t.isLt
      = accStep t (blkA m c t) (blkB m c t) (iblk m c 2 t) (accAt m c (t.val - 1) (Nat.lt_of_le_of_lt (Nat.sub_le _ _) t.isLt)) := by
  obtain ⟨n, hn⟩ := t
  cases n with
  | zero =>
    show accStep ⟨0, hn⟩ _ _ _ _ = accStep ⟨0, hn⟩ _ _ _ _
    unfold accStep; rw [if_pos (Nat.zero_mod 4), if_pos (Nat.zero_mod 4)]
  | succ n => rfl

/-- The result block the body stores at a last contraction tile: both accumulators projected, biased, the first
    clamped below at zero, added. -/
def outAt (c : Dev nD) (t : Fin cfg0.N) : Vec F S1000x128 .f32 :=
  k0_pay9 (accAt m c t.val t.isLt).1 (iblk m c 3 t) (iblk m c 4 t) (accAt m c t.val t.isLt).2 (iblk m c 5 t) (iblk m c 6 t)

/-! ## The invariant and the proof data -/

/-- Before position `n`: at the region's entry the plain invariant (accumulators at anything); afterwards the two
    accumulators at what the point before left, and the generator register at some state. -/
def PhiS (c : Dev nD) : (n : ℕ) → n ≤ cfg0.N → sProp 𝕄
  | 0, _ => Pipeline.ΦA spec0 c
  | n + 1, hn => iprop(iprop(owns (c : Thread nD τ) scN fullShare ((accAt m c n hn).1) ∗ owns (c : Thread nD τ) scE fullShare ((accAt m c n hn).2)) ∗ (∃ r, prngReg c r))

theorem PhiS_zero (c : Dev nD) (n : ℕ) (h : n ≤ cfg0.N) (hz : n = 0) : PhiS m c n h = Pipeline.ΦA spec0 c := by
  subst hz; rfl
theorem PhiS_succ (c : Dev nD) (n : ℕ) (hn : n < cfg0.N) :
    PhiS m c (n + 1) hn = iprop(iprop(owns (c : Thread nD τ) scN fullShare ((accAt m c n hn).1) ∗ owns (c : Thread nD τ) scE fullShare ((accAt m c n hn).2)) ∗ (∃ r, prngReg c r)) := rfl
theorem PhiS_pos (c : Dev nD) (n : ℕ) (h : n ≤ cfg0.N) (hz : n ≠ 0) :
    PhiS m c n h = iprop(iprop(owns (c : Thread nD τ) scN fullShare ((accAt m c (n - 1) (by omega)).1) ∗ owns (c : Thread nD τ) scE fullShare ((accAt m c (n - 1) (by omega)).2)) ∗ (∃ r, prngReg c r)) := by
  cases n with
  | zero => exact absurd rfl hz
  | succ n => rfl

/-- The proof data of the pipeline on core `c`: the arrays as the region finds them; after the body each adjacency
    window's buffer at its block (zeros beyond the matrix), each resident input's at its block, the result's at the
    stored block; the invariant carrying the accumulators; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => blkA m c t
    | ⟨1, _⟩ => blkB m c t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => outAt m c t
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after_0 (c : Dev nD) (t : Fin cfg0.N) : (dats m 0 c).after 0 t = blkA m c t := by dsimp only [dats]
theorem after_1 (c : Dev nD) (t : Fin cfg0.N) : (dats m 0 c).after 1 t = blkB m c t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = outAt m c t := by dsimp only [dats]

/-- Each adjacency window is fetched at every point: its buffer holds the block's part inside the matrix, and
    beyond it what the buffer held. -/
theorem before_0 (c : Dev nD) (t : Fin cfg0.N) (d) :
    (dats m 0 c).before 0 t d = win0_0.fill (grid0.coords t) d (iblk m c 0 t) := by
  unfold Dat.before; rw [if_pos (fetch0_0 t)]; unfold Dat.fetched Dat.blockOf iblk; rw [A_eq]; try rfl
theorem before_1 (c : Dev nD) (t : Fin cfg0.N) (d) :
    (dats m 0 c).before 1 t d = win0_1.fill (grid0.coords t) d (iblk m c 1 t) := by
  unfold Dat.before; rw [if_pos (fetch0_1 t)]; unfold Dat.fetched Dat.blockOf iblk; rw [A_eq]; try rfl
/-- Each resident input's buffer holds its block at every point. -/
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d
theorem before_5 (c : Dev nD) (t : Fin cfg0.N) (d) : (dats m 0 c).before 5 t d = iblk m c 5 t :=
  before0_5_of m (dats m 0 c) (A_eq m c 5) (after_5 m c) t d
theorem before_6 (c : Dev nD) (t : Fin cfg0.N) (d) : (dats m 0 c).before 6 t d = iblk m c 6 t :=
  before0_6_of m (dats m 0 c) (A_eq m c 6) (after_6 m c) t d

end Cert.Kernel.Body

end
-- ==== Proof.Bits.Obligation.lean ====
/-
  The body obligation. At every point the body is handed the invariant (the two accumulators at what the point before
  left, at anything at the region's entry), the adjacency blocks as fetched, the resident inputs at their blocks and
  the result's buffer; it returns the invariant at the next position, the inputs as they were, and the result's buffer
  untouched — or, at a last contraction tile, holding the stored block. Which of the three cases of the body applies
  is the point's residue modulo 4.
-/
import proofs.«157794_g77704548319642_cont_9to1_m_740_10_alg».proof.Proof.Bits.Accum

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What a step leaves, whatever the words beyond the matrix -/

theorem stepN_first (c : Dev nD) (t : Fin cfg0.N) (h0 : t.val % 4 = 0) (d0 d1 : S1000x2560.Idx → Elt F .f32)
    (p : Vec F S1000x128 .f32 × Vec F S1000x128 .f32) :
    (accStep t (blkA m c t) (blkB m c t) (iblk m c 2 t) p).1 = k0_pay7 (fRows (iblk m c 2 t) (grid0.coords t)) (win0_0.fill (grid0.coords t) d0 (iblk m c 0 t)) k0_pay1 := by
  rw [← accStep_fill m c t d0 d1]; unfold accStep; rw [if_pos h0]
theorem stepE_first (c : Dev nD) (t : Fin cfg0.N) (h0 : t.val % 4 = 0) (d0 d1 : S1000x2560.Idx → Elt F .f32)
    (p : Vec F S1000x128 .f32 × Vec F S1000x128 .f32) :
    (accStep t (blkA m c t) (blkB m c t) (iblk m c 2 t) p).2 = k0_pay8 (fRows (iblk m c 2 t) (grid0.coords t)) (win0_1.fill (grid0.coords t) d1 (iblk m c 1 t)) k0_pay2 := by
  rw [← accStep_fill m c t d0 d1]; unfold accStep; rw [if_pos h0]
theorem stepN_inner (c : Dev nD) (t : Fin cfg0.N) (h0 : ¬t.val % 4 = 0) (h3 : ¬t.val % 4 = 3) (d0 d1 : S1000x2560.Idx → Elt F .f32)
    (p : Vec F S1000x128 .f32 × Vec F S1000x128 .f32) :
    (accStep t (blkA m c t) (blkB m c t) (iblk m c 2 t) p).1 = k0_pay7 (fRows (iblk m c 2 t) (grid0.coords t)) (win0_0.fill (grid0.coords t) d0 (iblk m c 0 t)) p.1 := by
  rw [← accStep_fill m c t d0 d1]; unfold accStep; rw [if_neg h0, if_neg h3]
theorem stepE_inner (c : Dev nD) (t : Fin cfg0.N) (h0 : ¬t.val % 4 = 0) (h3 : ¬t.val % 4 = 3) (d0 d1 : S1000x2560.Idx → Elt F .f32)
    (p : Vec F S1000x128 .f32 × Vec F S1000x128 .f32) :
    (accStep t (blkA m c t) (blkB m c t) (iblk m c 2 t) p).2 = k0_pay8 (fRows (iblk m c 2 t) (grid0.coords t)) (win0_1.fill (grid0.coords t) d1 (iblk m c 1 t)) p.2 := by
  rw [← accStep_fill m c t d0 d1]; unfold accStep; rw [if_neg h0, if_neg h3]
theorem stepN_last (c : Dev nD) (t : Fin cfg0.N) (h0 : ¬t.val % 4 = 0) (h3 : t.val % 4 = 3) (d0 d1 : S1000x2560.Idx → Elt F .f32)
    (p : Vec F S1000x128 .f32 × Vec F S1000x128 .f32) :
    (accStep t (blkA m c t) (blkB m c t) (iblk m c 2 t) p).1 = k0_pay5 (grid0.coords t) (fRows (iblk m c 2 t) (grid0.coords t)) (win0_0.fill (grid0.coords t) d0 (iblk m c 0 t)) p.1 := by
  rw [← accStep_fill m c t d0 d1]; unfold accStep; rw [if_neg h0, if_pos h3]
theorem stepE_last (c : Dev nD) (t : Fin cfg0.N) (h0 : ¬t.val % 4 = 0) (h3 : t.val % 4 = 3) (d0 d1 : S1000x2560.Idx → Elt F .f32)
    (p : Vec F S1000x128 .f32 × Vec F S1000x128 .f32) :
    (accStep t (blkA m c t) (blkB m c t) (iblk m c 2 t) p).2 = k0_pay6 (grid0.coords t) (fRows (iblk m c 2 t) (grid0.coords t)) (win0_1.fill (grid0.coords t) d1 (iblk m c 1 t)) p.2 := by
  rw [← accStep_fill m c t d0 d1]; unfold accStep; rw [if_neg h0, if_pos h3]
/-- The stored block at a last contraction tile. -/
theorem out_last (c : Dev nD) (t : Fin cfg0.N) (h0 : ¬t.val % 4 = 0) (h3 : t.val % 4 = 3) (d0 d1 : S1000x2560.Idx → Elt F .f32) :
    outAt m c t = k0_pay9 (k0_pay5 (grid0.coords t) (fRows (iblk m c 2 t) (grid0.coords t)) (win0_0.fill (grid0.coords t) d0 (iblk m c 0 t)) (accAt m c (t.val - 1) (Nat.lt_of_le_of_lt (Nat.sub_le _ _) t.isLt)).1) (iblk m c 3 t) (iblk m c 4 t)
      (k0_pay6 (grid0.coords t) (fRows (iblk m c 2 t) (grid0.coords t)) (win0_1.fill (grid0.coords t) d1 (iblk m c 1 t)) (accAt m c (t.val - 1) (Nat.lt_of_le_of_lt (Nat.sub_le _ _) t.isLt)).2) (iblk m c 5 t) (iblk m c 6 t) := by
  unfold outAt; rw [accAt_eq m c t, stepN_last m c t h0 h3 d0 d1, stepE_last m c t h0 h3 d0 d1]

/-! ## What the obligation asks of each window -/

theorem leaves_0 (c : Dev nD) (t : Fin cfg0.N) :
    (dats m 0 c).leaves 0 t = iprop(∃ d, owns (c : Thread nD τ) (ms0 t) fullShare (win0_0.fill (grid0.coords t) d (iblk m c 0 t))) := by
  unfold Dat.leaves; rw [live_0 t]
  show iprop(∃ d, owns (c : Thread nD τ) (ms0 t) fullShare (win0_0.fill (grid0.coords t) d (win0_0.cut (grid0.coords t) ((dats m 0 c).after 0 t)))) = _
  rw [after_0]; unfold blkA; rw [Window.cut_fill]
theorem leaves_1 (c : Dev nD) (t : Fin cfg0.N) :
    (dats m 0 c).leaves 1 t = iprop(∃ d, owns (c : Thread nD τ) (ms1 t) fullShare (win0_1.fill (grid0.coords t) d (iblk m c 1 t))) := by
  unfold Dat.leaves; rw [live_1 t]
  show iprop(∃ d, owns (c : Thread nD τ) (ms1 t) fullShare (win0_1.fill (grid0.coords t) d (win0_1.cut (grid0.coords t) ((dats m 0 c).after 1 t)))) = _
  rw [after_1]; unfold blkB; rw [Window.cut_fill]
theorem leaves_2 (c : Dev nD) (t : Fin cfg0.N) : (dats m 0 c).leaves 2 t = owns (c : Thread nD τ) (ms2 t) fullShare (iblk m c 2 t) := by
  unfold Dat.leaves; rw [live_2 t]; show owns (c : Thread nD τ) (ms2 t) fullShare ((dats m 0 c).after 2 t) = _; rw [after_2]
theorem leaves_3 (c : Dev nD) (t : Fin cfg0.N) : (dats m 0 c).leaves 3 t = owns (c : Thread nD τ) (ms3 t) fullShare (iblk m c 3 t) := by
  unfold Dat.leaves; rw [live_3 t]; show owns (c : Thread nD τ) (ms3 t) fullShare ((dats m 0 c).after 3 t) = _; rw [after_3]
theorem leaves_4 (c : Dev nD) (t : Fin cfg0.N) : (dats m 0 c).leaves 4 t = owns (c : Thread nD τ) (ms4 t) fullShare (iblk m c 4 t) := by
  unfold Dat.leaves; rw [live_4 t]; show owns (c : Thread nD τ) (ms4 t) fullShare ((dats m 0 c).after 4 t) = _; rw [after_4]
theorem leaves_5 (c : Dev nD) (t : Fin cfg0.N) : (dats m 0 c).leaves 5 t = owns (c : Thread nD τ) (ms5 t) fullShare (iblk m c 5 t) := by
  unfold Dat.leaves; rw [live_5 t]; show owns (c : Thread nD τ) (ms5 t) fullShare ((dats m 0 c).after 5 t) = _; rw [after_5]
theorem leaves_6 (c : Dev nD) (t : Fin cfg0.N) : (dats m 0 c).leaves 6 t = owns (c : Thread nD τ) (ms6 t) fullShare (iblk m c 6 t) := by
  unfold Dat.leaves; rw [live_6 t]; show owns (c : Thread nD τ) (ms6 t) fullShare ((dats m 0 c).after 6 t) = _; rw [after_6]
theorem leaves_7_last (c : Dev nD) (t : Fin cfg0.N) (h3 : t.val % 4 = 3) :
    (dats m 0 c).leaves 7 t = owns (c : Thread nD τ) (ms7 t) fullShare (outAt m c t) := by
  unfold Dat.leaves; rw [live_7 t h3]; show owns (c : Thread nD τ) (ms7 t) fullShare ((dats m 0 c).after 7 t) = _; rw [after_7]

/-! ## The body at a generic point -/

def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d))
    ∗ (∃ d, owns (c : Thread nD τ) (ms7 t) fullShare ((dats m 0 c).before 7 t d)))

def bodyPost (c : Dev nD) (t : Fin cfg0.N) : sProp 𝕄 :=
  iprop((dats m 0 c).Φ t.succ ∗ (dats m 0 c).owesAt () t.succ
    ∗ (dats m 0 c).leaves 0 t ∗ (dats m 0 c).leaves 1 t ∗ (dats m 0 c).leaves 2 t ∗ (dats m 0 c).leaves 3 t
    ∗ (dats m 0 c).leaves 4 t ∗ (dats m 0 c).leaves 5 t ∗ (dats m 0 c).leaves 6 t ∗ (dats m 0 c).leaves 7 t)

set_option maxHeartbeats 8000000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6]
  rw [leaves_0, leaves_1, leaves_2, leaves_3, leaves_4, leaves_5, leaves_6]
  rw [show (dats m 0 c).owesAt () t.succ = (dats m 0 c).owesAt () t.castSucc from rfl]
  rw [show (dats m 0 c).Φ t.succ = PhiS m c (t.val + 1) t.isLt from rfl, PhiS_succ, accAt_eq m c t]
  have hN : t.val < 40 := lt_of_lt_of_eq t.isLt (show cfg0.N = 40 from N_0)
  by_cases h0 : t.val % 4 = 0
  · have h3 : ¬t.val % 4 = 3 := by omega
    rw [Dat.leaves_idle (dats m 0 c) 7 t (idle_7 t h3) (noFlush_7 t h3)]
    by_cases hz : t.val = 0
    · rw [PhiS_castSucc m c t, PhiS_zero m c _ _ hz, PhiA_eq]
      iintro ⟨⟨⟨HN, HE⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((runFirst c (grid0.coords t) (ms0 t) (hs0 t) (ms1 t) (hs1 t) (ms2 t) (hs2 t) (ms3 t) (hs3 t) (ms4 t) (hs4 t) (ms5 t) (hs5 t) (ms6 t) (hs6 t) (ms7 t) (hs7 t) scN (Memref.isWhole_whole _) scE (Memref.isWhole_whole _) ((isFirst_iff t).mpr h0) (fun h => h3 ((isLast_iff t).mp h)) ((isInner_iff t).mpr h3) (fun h => h3 ((isEpilogue_iff t).mp h)) (win0_0.fill (grid0.coords t) d0 (iblk m c 0 t)) (win0_1.fill (grid0.coords t) d1 (iblk m c 1 t)) (iblk m c 2 t) (iblk m c 3 t) (iblk m c 4 t) (iblk m c 5 t) (iblk m c 6 t)).2.2 ((dats m 0 c).before 7 t d7) Set.univ _)
      ·
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [HN]; · iexact HN
        isplitl [HE]; · iexact HE
        iintro ⟨H0, H1, H2, H3, H4, H5, H6, H7, ⟨%esN, HN⟩, ⟨%esE, HE⟩⟩
        isplitl [HN HE Hg]
        · isplitl [HN HE]
          · isplitl [HN]
            · unfold owns; iexists _; isplitr
              swap; · iexact HN
              ipureintro
              exact (View.read_writes_eq_canon _ _ _ (coverN_first c (grid0.coords t) (ms0 t) (hs0 t) (ms1 t) (hs1 t) (ms2 t) (hs2 t) (ms3 t) (hs3 t) (ms4 t) (hs4 t) (ms5 t) (hs5 t) (ms6 t) (hs6 t) (ms7 t) (hs7 t) scN (Memref.isWhole_whole _) scE (Memref.isWhole_whole _) ((isFirst_iff t).mpr h0) (fun h => h3 ((isLast_iff t).mp h)) ((isInner_iff t).mpr h3) (fun h => h3 ((isEpilogue_iff t).mp h)) (win0_0.fill (grid0.coords t) d0 (iblk m c 0 t)) (win0_1.fill (grid0.coords t) d1 (iblk m c 1 t)) (iblk m c 2 t) (iblk m c 3 t) (iblk m c 4 t) (iblk m c 5 t) (iblk m c 6 t))).trans ((canonN_first c (grid0.coords t) (ms0 t) (hs0 t) (ms1 t) (hs1 t) (ms2 t) (hs2 t) (ms3 t) (hs3 t) (ms4 t) (hs4 t) (ms5 t) (hs5 t) (ms6 t) (hs6 t) (ms7 t) (hs7 t) scN (Memref.isWhole_whole _) scE (Memref.isWhole_whole _) ((isFirst_iff t).mpr h0) (fun h => h3 ((isLast_iff t).mp h)) ((isInner_iff t).mpr h3) (fun h => h3 ((isEpilogue_iff t).mp h)) (win0_0.fill (grid0.coords t) d0 (iblk m c 0 t)) (win0_1.fill (grid0.coords t) d1 (iblk m c 1 t)) (iblk m c 2 t) (iblk m c 3 t) (iblk m c 4 t) (iblk m c 5 t) (iblk m c 6 t)).trans (stepN_first m c t h0 d0 d1 _).symm)
            · unfold owns; iexists _; isplitr
              swap; · iexact HE
              ipureintro
              exact (View.read_writes_eq_canon _ _ _ (coverE_first c (grid0.coords t) (ms0 t) (hs0 t) (ms1 t) (hs1 t) (ms2 t) (hs2 t) (ms3 t) (hs3 t) (ms4 t) (hs4 t) (ms5 t) (hs5 t) (ms6 t) (hs6 t) (ms7 t) (hs7 t) scN (Memref.isWhole_whole _) scE (Memref.isWhole_whole _) ((isFirst_iff t).mpr h0) (fun h => h3 ((isLast_iff t).mp h)) ((isInner_iff t).mpr h3) (fun h => h3 ((isEpilogue_iff t).mp h)) (win0_0.fill (grid0.coords t) d0 (iblk m c 0 t)) (win0_1.fill (grid0.coords t) d1 (iblk m c 1 t)) (iblk m c 2 t) (iblk m c 3 t) (iblk m c 4 t) (iblk m c 5 t) (iblk m c 6 t))).trans ((canonE_first c (grid0.coords t) (ms0 t) (hs0 t) (ms1 t) (hs1 t) (ms2 t) (hs2 t) (ms3 t) (hs3 t) (ms4 t) (hs4 t) (ms5 t) (hs5 t) (ms6 t) (hs6 t) (ms7 t) (hs7 t) scN (Memref.isWhole_whole _) scE (Memref.isWhole_whole _) ((isFirst_iff t).mpr h0) (fun h => h3 ((isLast_iff t).mp h)) ((isInner_iff t).mpr h3) (fun h => h3 ((isEpilogue_iff t).mp h)) (win0_0.fill (grid0.coords t) d0 (iblk m c 0 t)) (win0_1.fill (grid0.coords t) d1 (iblk m c 1 t)) (iblk m c 2 t) (iblk m c 3 t) (iblk m c 4 t) (iblk m c 5 t) (iblk m c 6 t)).trans (stepE_first m c t h0 d0 d1 _).symm)
          iexact Hg
        isplitl [Ho]; · iexact Ho
        isplitl [H0]; · iexists d0; iexact H0
        isplitl [H1]; · iexists d1; iexact H1
        isplitl [H2]; · iexact H2
        isplitl [H3]; · iexact H3
        isplitl [H4]; · iexact H4
        isplitl [H5]; · iexact H5
        isplitl [H6]; · iexact H6
        iexists d7; iexact H7
    · rw [PhiS_castSucc m c t, PhiS_pos m c _ _ hz]
      iintro ⟨⟨⟨HN, HE⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((runFirst c (grid0.coords t) (ms0 t) (hs0 t) (ms1 t) (hs1 t) (ms2 t) (hs2 t) (ms3 t) (hs3 t) (ms4 t) (hs4 t) (ms5 t) (hs5 t) (ms6 t) (hs6 t) (ms7 t) (hs7 t) scN (Memref.isWhole_whole _) scE (Memref.isWhole_whole _) ((isFirst_iff t).mpr h0) (fun h => h3 ((isLast_iff t).mp h)) ((isInner_iff t).mpr h3) (fun h => h3 ((isEpilogue_iff t).mp h)) (win0_0.fill (grid0.coords t) d0 (iblk m c 0 t)) (win0_1.fill (grid0.coords t) d1 (iblk m c 1 t)) (iblk m c 2 t) (iblk m c 3 t) (iblk m c 4 t) (iblk m c 5 t) (iblk m c 6 t)).2.2 ((dats m 0 c).before 7 t d7) Set.univ _)
      ·
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [HN]; · iexists _; iexact HN
        isplitl [HE]; · iexists _; iexact HE
        iintro ⟨H0, H1, H2, H3, H4, H5, H6, H7, ⟨%esN, HN⟩, ⟨%esE, HE⟩⟩
        isplitl [HN HE Hg]
        · isplitl [HN HE]
          · isplitl [HN]
            · unfold owns; iexists _; isplitr
              swap; · iexact HN
              ipureintro
              exact (View.read_writes_eq_canon _ _ _ (coverN_first c (grid0.coords t) (ms0 t) (hs0 t) (ms1 t) (hs1 t) (ms2 t) (hs2 t) (ms3 t) (hs3 t) (ms4 t) (hs4 t) (ms5 t) (hs5 t) (ms6 t) (hs6 t) (ms7 t) (hs7 t) scN (Memref.isWhole_whole _) scE (Memref.isWhole_whole _) ((isFirst_iff t).mpr h0) (fun h => h3 ((isLast_iff t).mp h)) ((isInner_iff t).mpr h3) (fun h => h3 ((isEpilogue_iff t).mp h)) (win0_0.fill (grid0.coords t) d0 (iblk m c 0 t)) (win0_1.fill (grid0.coords t) d1 (iblk m c 1 t)) (iblk m c 2 t) (iblk m c 3 t) (iblk m c 4 t) (iblk m c 5 t) (iblk m c 6 t))).trans ((canonN_first c (grid0.coords t) (ms0 t) (hs0 t) (ms1 t) (hs1 t) (ms2 t) (hs2 t) (ms3 t) (hs3 t) (ms4 t) (hs4 t) (ms5 t) (hs5 t) (ms6 t) (hs6 t) (ms7 t) (hs7 t) scN (Memref.isWhole_whole _) scE (Memref.isWhole_whole _) ((isFirst_iff t).mpr h0) (fun h => h3 ((isLast_iff t).mp h)) ((isInner_iff t).mpr h3) (fun h => h3 ((isEpilogue_iff t).mp h)) (win0_0.fill (grid0.coords t) d0 (iblk m c 0 t)) (win0_1.fill (grid0.coords t) d1 (iblk m c 1 t)) (iblk m c 2 t) (iblk m c 3 t) (iblk m c 4 t) (iblk m c 5 t) (iblk m c 6 t)).trans (stepN_first m c t h0 d0 d1 _).symm)
            · unfold owns; iexists _; isplitr
              swap; · iexact HE
              ipureintro
              exact (View.read_writes_eq_canon _ _ _ (coverE_first c (grid0.coords t) (ms0 t) (hs0 t) (ms1 t) (hs1 t) (ms2 t) (hs2 t) (ms3 t) (hs3 t) (ms4 t) (hs4 t) (ms5 t) (hs5 t) (ms6 t) (hs6 t) (ms7 t) (hs7 t) scN (Memref.isWhole_whole _) scE (Memref.isWhole_whole _) ((isFirst_iff t).mpr h0) (fun h => h3 ((isLast_iff t).mp h)) ((isInner_iff t).mpr h3) (fun h => h3 ((isEpilogue_iff t).mp h)) (win0_0.fill (grid0.coords t) d0 (iblk m c 0 t)) (win0_1.fill (grid0.coords t) d1 (iblk m c 1 t)) (iblk m c 2 t) (iblk m c 3 t) (iblk m c 4 t) (iblk m c 5 t) (iblk m c 6 t))).trans ((canonE_first c (grid0.coords t) (ms0 t) (hs0 t) (ms1 t) (hs1 t) (ms2 t) (hs2 t) (ms3 t) (hs3 t) (ms4 t) (hs4 t) (ms5 t) (hs5 t) (ms6 t) (hs6 t) (ms7 t) (hs7 t) scN (Memref.isWhole_whole _) scE (Memref.isWhole_whole _) ((isFirst_iff t).mpr h0) (fun h => h3 ((isLast_iff t).mp h)) ((isInner_iff t).mpr h3) (fun h => h3 ((isEpilogue_iff t).mp h)) (win0_0.fill (grid0.coords t) d0 (iblk m c 0 t)) (win0_1.fill (grid0.coords t) d1 (iblk m c 1 t)) (iblk m c 2 t) (iblk m c 3 t) (iblk m c 4 t) (iblk m c 5 t) (iblk m c 6 t)).trans (stepE_first m c t h0 d0 d1 _).symm)
          iexact Hg
        isplitl [Ho]; · iexact Ho
        isplitl [H0]; · iexists d0; iexact H0
        isplitl [H1]; · iexists d1; iexact H1
        isplitl [H2]; · iexact H2
        isplitl [H3]; · iexact H3
        isplitl [H4]; · iexact H4
        isplitl [H5]; · iexact H5
        isplitl [H6]; · iexact H6
        iexists d7; iexact H7
  · have hz : t.val ≠ 0 := fun h => h0 (by rw [h])
    by_cases h3 : t.val % 4 = 3
    · rw [leaves_7_last m c t h3]
      rw [PhiS_castSucc m c t, PhiS_pos m c _ _ hz]
      iintro ⟨⟨⟨HN, HE⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((runLast c (grid0.coords t) (ms0 t) (hs0 t) (ms1 t) (hs1 t) (ms2 t) (hs2 t) (ms3 t) (hs3 t) (ms4 t) (hs4 t) (ms5 t) (hs5 t) (ms6 t) (hs6 t) (ms7 t) (hs7 t) scN (Memref.isWhole_whole _) scE (Memref.isWhole_whole _) (fun h => h0 ((isFirst_iff t).mp h)) ((isLast_iff t).mpr h3) (fun h => (isInner_iff t).mp h h3) ((isEpilogue_iff t).mpr h3) (win0_0.fill (grid0.coords t) d0 (iblk m c 0 t)) (win0_1.fill (grid0.coords t) d1 (iblk m c 1 t)) (iblk m c 2 t) (iblk m c 3 t) (iblk m c 4 t) (iblk m c 5 t) (iblk m c 6 t) (accAt m c (t.val - 1) (Nat.lt_of_le_of_lt (Nat.sub_le _ _) t.isLt)).1 (accAt m c (t.val - 1) (Nat.lt_of_le_of_lt (Nat.sub_le _ _) t.isLt)).2).2.2.2 Set.univ _)
      ·
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexists _; iexact H7
        isplitl [HN]; · iexact HN
        isplitl [HE]; · iexact HE
        iintro ⟨H0, H1, H2, H3, H4, H5, H6, ⟨%e7, H7⟩, ⟨%esN, HN⟩, ⟨%esE, HE⟩⟩
        isplitl [HN HE Hg]
        · isplitl [HN HE]
          · isplitl [HN]
            · unfold owns; iexists _; isplitr
              swap; · iexact HN
              ipureintro
              exact (View.read_writes_eq_canon _ _ _ (coverN_last c (grid0.coords t) (ms0 t) (hs0 t) (ms1 t) (hs1 t) (ms2 t) (hs2 t) (ms3 t) (hs3 t) (ms4 t) (hs4 t) (ms5 t) (hs5 t) (ms6 t) (hs6 t) (ms7 t) (hs7 t) scN (Memref.isWhole_whole _) scE (Memref.isWhole_whole _) (fun h => h0 ((isFirst_iff t).mp h)) ((isLast_iff t).mpr h3) (fun h => (isInner_iff t).mp h h3) ((isEpilogue_iff t).mpr h3) (win0_0.fill (grid0.coords t) d0 (iblk m c 0 t)) (win0_1.fill (grid0.coords t) d1 (iblk m c 1 t)) (iblk m c 2 t) (iblk m c 3 t) (iblk m c 4 t) (iblk m c 5 t) (iblk m c 6 t) (accAt m c (t.val - 1) (Nat.lt_of_le_of_lt (Nat.sub_le _ _) t.isLt)).1 (accAt m c (t.val - 1) (Nat.lt_of_le_of_lt (Nat.sub_le _ _) t.isLt)).2)).trans ((canonN_last c (grid0.coords t) (ms0 t) (hs0 t) (ms1 t) (hs1 t) (ms2 t) (hs2 t) (ms3 t) (hs3 t) (ms4 t) (hs4 t) (ms5 t) (hs5 t) (ms6 t) (hs6 t) (ms7 t) (hs7 t) scN (Memref.isWhole_whole _) scE (Memref.isWhole_whole _) (fun h => h0 ((isFirst_iff t).mp h)) ((isLast_iff t).mpr h3) (fun h => (isInner_iff t).mp h h3) ((isEpilogue_iff t).mpr h3) (win0_0.fill (grid0.coords t) d0 (iblk m c 0 t)) (win0_1.fill (grid0.coords t) d1 (iblk m c 1 t)) (iblk m c 2 t) (iblk m c 3 t) (iblk m c 4 t) (iblk m c 5 t) (iblk m c 6 t) (accAt m c (t.val - 1) (Nat.lt_of_le_of_lt (Nat.sub_le _ _) t.isLt)).1 (accAt m c (t.val - 1) (Nat.lt_of_le_of_lt (Nat.sub_le _ _) t.isLt)).2).trans (stepN_last m c t h0 h3 d0 d1 _).symm)
            · unfold owns; iexists _; isplitr
              swap; · iexact HE
              ipureintro
              exact (View.read_writes_eq_canon _ _ _ (coverE_last c (grid0.coords t) (ms0 t) (hs0 t) (ms1 t) (hs1 t) (ms2 t) (hs2 t) (ms3 t) (hs3 t) (ms4 t) (hs4 t) (ms5 t) (hs5 t) (ms6 t) (hs6 t) (ms7 t) (hs7 t) scN (Memref.isWhole_whole _) scE (Memref.isWhole_whole _) (fun h => h0 ((isFirst_iff t).mp h)) ((isLast_iff t).mpr h3) (fun h => (isInner_iff t).mp h h3) ((isEpilogue_iff t).mpr h3) (win0_0.fill (grid0.coords t) d0 (iblk m c 0 t)) (win0_1.fill (grid0.coords t) d1 (iblk m c 1 t)) (iblk m c 2 t) (iblk m c 3 t) (iblk m c 4 t) (iblk m c 5 t) (iblk m c 6 t) (accAt m c (t.val - 1) (Nat.lt_of_le_of_lt (Nat.sub_le _ _) t.isLt)).1 (accAt m c (t.val - 1) (Nat.lt_of_le_of_lt (Nat.sub_le _ _) t.isLt)).2)).trans ((canonE_last c (grid0.coords t) (ms0 t) (hs0 t) (ms1 t) (hs1 t) (ms2 t) (hs2 t) (ms3 t) (hs3 t) (ms4 t) (hs4 t) (ms5 t) (hs5 t) (ms6 t) (hs6 t) (ms7 t) (hs7 t) scN (Memref.isWhole_whole _) scE (Memref.isWhole_whole _) (fun h => h0 ((isFirst_iff t).mp h)) ((isLast_iff t).mpr h3) (fun h => (isInner_iff t).mp h h3) ((isEpilogue_iff t).mpr h3) (win0_0.fill (grid0.coords t) d0 (iblk m c 0 t)) (win0_1.fill (grid0.coords t) d1 (iblk m c 1 t)) (iblk m c 2 t) (iblk m c 3 t) (iblk m c 4 t) (iblk m c 5 t) (iblk m c 6 t) (accAt m c (t.val - 1) (Nat.lt_of_le_of_lt (Nat.sub_le _ _) t.isLt)).1 (accAt m c (t.val - 1) (Nat.lt_of_le_of_lt (Nat.sub_le _ _) t.isLt)).2).trans (stepE_last m c t h0 h3 d0 d1 _).symm)
          iexact Hg
        isplitl [Ho]; · iexact Ho
        isplitl [H0]; · iexists d0; iexact H0
        isplitl [H1]; · iexists d1; iexact H1
        isplitl [H2]; · iexact H2
        isplitl [H3]; · iexact H3
        isplitl [H4]; · iexact H4
        isplitl [H5]; · iexact H5
        isplitl [H6]; · iexact H6
        unfold owns; iexists _; isplitr
        swap; · iexact H7
        ipureintro
        exact (View.read_writes_eq_canon _ _ _ (coverO_last c (grid0.coords t) (ms0 t) (hs0 t) (ms1 t) (hs1 t) (ms2 t) (hs2 t) (ms3 t) (hs3 t) (ms4 t) (hs4 t) (ms5 t) (hs5 t) (ms6 t) (hs6 t) (ms7 t) (hs7 t) scN (Memref.isWhole_whole _) scE (Memref.isWhole_whole _) (fun h => h0 ((isFirst_iff t).mp h)) ((isLast_iff t).mpr h3) (fun h => (isInner_iff t).mp h h3) ((isEpilogue_iff t).mpr h3) (win0_0.fill (grid0.coords t) d0 (iblk m c 0 t)) (win0_1.fill (grid0.coords t) d1 (iblk m c 1 t)) (iblk m c 2 t) (iblk m c 3 t) (iblk m c 4 t) (iblk m c 5 t) (iblk m c 6 t) (accAt m c (t.val - 1) (Nat.lt_of_le_of_lt (Nat.sub_le _ _) t.isLt)).1 (accAt m c (t.val - 1) (Nat.lt_of_le_of_lt (Nat.sub_le _ _) t.isLt)).2)).trans ((canonO_last c (grid0.coords t) (ms0 t) (hs0 t) (ms1 t) (hs1 t) (ms2 t) (hs2 t) (ms3 t) (hs3 t) (ms4 t) (hs4 t) (ms5 t) (hs5 t) (ms6 t) (hs6 t) (ms7 t) (hs7 t) scN (Memref.isWhole_whole _) scE (Memref.isWhole_whole _) (fun h => h0 ((isFirst_iff t).mp h)) ((isLast_iff t).mpr h3) (fun h => (isInner_iff t).mp h h3) ((isEpilogue_iff t).mpr h3) (win0_0.fill (grid0.coords t) d0 (iblk m c 0 t)) (win0_1.fill (grid0.coords t) d1 (iblk m c 1 t)) (iblk m c 2 t) (iblk m c 3 t) (iblk m c 4 t) (iblk m c 5 t) (iblk m c 6 t) (accAt m c (t.val - 1) (Nat.lt_of_le_of_lt (Nat.sub_le _ _) t.isLt)).1 (accAt m c (t.val - 1) (Nat.lt_of_le_of_lt (Nat.sub_le _ _) t.isLt)).2).trans (out_last m c t h0 h3 d0 d1).symm)
    · rw [Dat.leaves_idle (dats m 0 c) 7 t (idle_7 t h3) (noFlush_7 t h3)]
      rw [PhiS_castSucc m c t, PhiS_pos m c _ _ hz]
      iintro ⟨⟨⟨HN, HE⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((runInner c (grid0.coords t) (ms0 t) (hs0 t) (ms1 t) (hs1 t) (ms2 t) (hs2 t) (ms3 t) (hs3 t) (ms4 t) (hs4 t) (ms5 t) (hs5 t) (ms6 t) (hs6 t) (ms7 t) (hs7 t) scN (Memref.isWhole_whole _) scE (Memref.isWhole_whole _) (fun h => h0 ((isFirst_iff t).mp h)) (fun h => h3 ((isLast_iff t).mp h)) ((isInner_iff t).mpr h3) (fun h => h3 ((isEpilogue_iff t).mp h)) (win0_0.fill (grid0.coords t) d0 (iblk m c 0 t)) (win0_1.fill (grid0.coords t) d1 (iblk m c 1 t)) (iblk m c 2 t) (iblk m c 3 t) (iblk m c 4 t) (iblk m c 5 t) (iblk m c 6 t) (accAt m c (t.val - 1) (Nat.lt_of_le_of_lt (Nat.sub_le _ _) t.isLt)).1 (accAt m c (t.val - 1) (Nat.lt_of_le_of_lt (Nat.sub_le _ _) t.isLt)).2).2.2 ((dats m 0 c).before 7 t d7) Set.univ _)
      ·
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [HN]; · iexact HN
        isplitl [HE]; · iexact HE
        iintro ⟨H0, H1, H2, H3, H4, H5, H6, H7, ⟨%esN, HN⟩, ⟨%esE, HE⟩⟩
        isplitl [HN HE Hg]
        · isplitl [HN HE]
          · isplitl [HN]
            · unfold owns; iexists _; isplitr
              swap; · iexact HN
              ipureintro
              exact (View.read_writes_eq_canon _ _ _ (coverN_inner c (grid0.coords t) (ms0 t) (hs0 t) (ms1 t) (hs1 t) (ms2 t) (hs2 t) (ms3 t) (hs3 t) (ms4 t) (hs4 t) (ms5 t) (hs5 t) (ms6 t) (hs6 t) (ms7 t) (hs7 t) scN (Memref.isWhole_whole _) scE (Memref.isWhole_whole _) (fun h => h0 ((isFirst_iff t).mp h)) (fun h => h3 ((isLast_iff t).mp h)) ((isInner_iff t).mpr h3) (fun h => h3 ((isEpilogue_iff t).mp h)) (win0_0.fill (grid0.coords t) d0 (iblk m c 0 t)) (win0_1.fill (grid0.coords t) d1 (iblk m c 1 t)) (iblk m c 2 t) (iblk m c 3 t) (iblk m c 4 t) (iblk m c 5 t) (iblk m c 6 t) (accAt m c (t.val - 1) (Nat.lt_of_le_of_lt (Nat.sub_le _ _) t.isLt)).1 (accAt m c (t.val - 1) (Nat.lt_of_le_of_lt (Nat.sub_le _ _) t.isLt)).2)).trans ((canonN_inner c (grid0.coords t) (ms0 t) (hs0 t) (ms1 t) (hs1 t) (ms2 t) (hs2 t) (ms3 t) (hs3 t) (ms4 t) (hs4 t) (ms5 t) (hs5 t) (ms6 t) (hs6 t) (ms7 t) (hs7 t) scN (Memref.isWhole_whole _) scE (Memref.isWhole_whole _) (fun h => h0 ((isFirst_iff t).mp h)) (fun h => h3 ((isLast_iff t).mp h)) ((isInner_iff t).mpr h3) (fun h => h3 ((isEpilogue_iff t).mp h)) (win0_0.fill (grid0.coords t) d0 (iblk m c 0 t)) (win0_1.fill (grid0.coords t) d1 (iblk m c 1 t)) (iblk m c 2 t) (iblk m c 3 t) (iblk m c 4 t) (iblk m c 5 t) (iblk m c 6 t) (accAt m c (t.val - 1) (Nat.lt_of_le_of_lt (Nat.sub_le _ _) t.isLt)).1 (accAt m c (t.val - 1) (Nat.lt_of_le_of_lt (Nat.sub_le _ _) t.isLt)).2).trans (stepN_inner m c t h0 h3 d0 d1 _).symm)
            · unfold owns; iexists _; isplitr
              swap; · iexact HE
              ipureintro
              exact (View.read_writes_eq_canon _ _ _ (coverE_inner c (grid0.coords t) (ms0 t) (hs0 t) (ms1 t) (hs1 t) (ms2 t) (hs2 t) (ms3 t) (hs3 t) (ms4 t) (hs4 t) (ms5 t) (hs5 t) (ms6 t) (hs6 t) (ms7 t) (hs7 t) scN (Memref.isWhole_whole _) scE (Memref.isWhole_whole _) (fun h => h0 ((isFirst_iff t).mp h)) (fun h => h3 ((isLast_iff t).mp h)) ((isInner_iff t).mpr h3) (fun h => h3 ((isEpilogue_iff t).mp h)) (win0_0.fill (grid0.coords t) d0 (iblk m c 0 t)) (win0_1.fill (grid0.coords t) d1 (iblk m c 1 t)) (iblk m c 2 t) (iblk m c 3 t) (iblk m c 4 t) (iblk m c 5 t) (iblk m c 6 t) (accAt m c (t.val - 1) (Nat.lt_of_le_of_lt (Nat.sub_le _ _) t.isLt)).1 (accAt m c (t.val - 1) (Nat.lt_of_le_of_lt (Nat.sub_le _ _) t.isLt)).2)).trans ((canonE_inner c (grid0.coords t) (ms0 t) (hs0 t) (ms1 t) (hs1 t) (ms2 t) (hs2 t) (ms3 t) (hs3 t) (ms4 t) (hs4 t) (ms5 t) (hs5 t) (ms6 t) (hs6 t) (ms7 t) (hs7 t) scN (Memref.isWhole_whole _) scE (Memref.isWhole_whole _) (fun h => h0 ((isFirst_iff t).mp h)) (fun h => h3 ((isLast_iff t).mp h)) ((isInner_iff t).mpr h3) (fun h => h3 ((isEpilogue_iff t).mp h)) (win0_0.fill (grid0.coords t) d0 (iblk m c 0 t)) (win0_1.fill (grid0.coords t) d1 (iblk m c 1 t)) (iblk m c 2 t) (iblk m c 3 t) (iblk m c 4 t) (iblk m c 5 t) (iblk m c 6 t) (accAt m c (t.val - 1) (Nat.lt_of_le_of_lt (Nat.sub_le _ _) t.isLt)).1 (accAt m c (t.val - 1) (Nat.lt_of_le_of_lt (Nat.sub_le _ _) t.isLt)).2).trans (stepE_inner m c t h0 h3 d0 d1 _).symm)
          iexact Hg
        isplitl [Ho]; · iexact Ho
        isplitl [H0]; · iexists d0; iexact H0
        isplitl [H1]; · iexists d1; iexact H1
        isplitl [H2]; · iexact H2
        isplitl [H3]; · iexact H3
        isplitl [H4]; · iexact H4
        isplitl [H5]; · iexact H5
        isplitl [H6]; · iexact H6
        iexists d7; iexact H7

/-- The library's body obligation, at every point. -/
theorem body_obligation (c : Dev nD) : BodyObligationLoose (dats (F := F) m 0 c) (defs₀ (F := F)) Variants.none () Set.univ := fun t => by
  rw [bigSep_W0, bigSep_W0]
  exact sound_body m c t

end Cert.Kernel.Body

end
-- ==== Proof.Bits.Run.lean ====
/-
  The run of the whole program: the launch theorem for a pipeline whose body carries an invariant from point to
  point, given the body obligation. Before the first point the invariant is the region's plain one (accumulators at
  anything); after the last the accumulators' contents are forgotten again. The run's post names every array of the
  pipeline after its write-backs; read at the argument arrays it is the frame claim.
-/
import proofs.«157794_g77704548319642_cont_9to1_m_740_10_alg».proof.Proof.Bits.Obligation

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA_eq]
  iintro ⟨⟨HN, HE⟩, Hg⟩
  isplitl [HN HE]
  · isplitl [HN]
    · iexists _; iexact HN
    · iexists _; iexact HE
  iexact Hg

theorem hout (c : Dev nD) : (dats m 0 c).Φ (Fin.last cfg0.N) ⊢ Pipeline.ΦA spec0 c :=
  Phi_out m c _ (by rw [Fin.val_last]; have : cfg0.N = 40 := N_0; omega)

set_option backward.isDefEq.respectTransparency.types false in
/-- For any values, from any memory with zero counters: every weakly fair execution of the program terminates, with
    every array of the pipeline at what its write-backs leave and every other unscoped buffer as the region found it. -/
theorem run_main : θ_run defs (onTc (τ := τ) (main (F := F))) (s₀ m ρ) (Pipeline.FramePost cfgs (dats m) 0 (V m)) :=
  Pipeline.θ_run_frame_track cfgs (dats m) (0 : Fin 1) launch0 defs₀ Variants.none m ρ main
    (hbody := body_obligation m) (hshare := fun c => (dats m 0 c).share_full fun _ => rfl)
    (howed := fun _ _ => rfl) (V := V m) (hmain := hmain m Variants.none) (hA := A_eq m) (hin := hin m) (hout := hout m)

/-- The frame: the program runs to the end, faults nowhere, and leaves its seven argument arrays as they were. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  frame_of m ρ (dats m) (A_eq m) (run_main m ρ)

end Cert.Kernel.Body

end
-- ==== Proof.Ideal.Schedule.lean ====
/-
  The schedule of the tiled product. The grid is 10 row tiles by 4 contraction tiles; point `t` is row tile `t / 4`,
  contraction tile `t % 4`. The body branches four times on the contraction coordinate: it clears the two
  accumulators at tile 0, adds the masked partial products at tile 3, the unmasked ones at tiles 0, 1, 2, and at
  tile 3 also runs the two projections and stores the result block. Each condition is decided here over the grid,
  as is where the result's window is idle, and the memrefs the body is called with are named.
-/
import proofs.«157794_g77704548319642_cont_9to1_m_740_10_alg».proof.Proof.Gen.KernelIdeal.Frame
import proofs.«157794_g77704548319642_cont_9to1_m_740_10_alg».proof.Proof.Gen.KernelIdeal.Skeleton
import Idealize.ShloMosaic.Lib.Pipeline.FrameBody
import Idealize.ShloMosaic.Lib.Ring
import Idealize.ShloMosaic.Lib.Tactic

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-! ## The four conditions, from the contraction coordinate -/

/-- The accumulators are cleared: contraction tile 0. -/
abbrev isFirst (i : grid0.Coords) : Prop := (Scalar.cmpi .ne (Scalar.extui (Scalar.cmpi .eq (BitVec.ofNat 32 (i 1).val) 0#32)) 0#32) = 1#1
/-- The masked partial product is added: contraction tile 3. -/
abbrev isLast (i : grid0.Coords) : Prop := (Scalar.cmpi .ne (Scalar.extui (Scalar.cmpi .eq (BitVec.ofNat 32 (i 1).val) 3#32)) 0#32) = 1#1
/-- The unmasked partial product is added: contraction tiles 0, 1, 2. -/
abbrev isInner (i : grid0.Coords) : Prop := (Scalar.cmpi .ne (Scalar.extui (Scalar.cmpi .slt (BitVec.ofNat 32 (i 1).val) 3#32)) 0#32) = 1#1
/-- The projections run and the result block is stored: contraction tile 3. -/
abbrev isEpilogue (i : grid0.Coords) : Prop := k0_cond4 i = 1#1

theorem isFirst_iff : ∀ t : Fin cfg0.N, isFirst (grid0.coords t) ↔ t.val % 4 = 0 :=
  (by decide +kernel : ∀ t : Fin grid0.N, isFirst (grid0.coords t) ↔ t.val % 4 = 0)
theorem isLast_iff : ∀ t : Fin cfg0.N, isLast (grid0.coords t) ↔ t.val % 4 = 3 :=
  (by decide +kernel : ∀ t : Fin grid0.N, isLast (grid0.coords t) ↔ t.val % 4 = 3)
theorem isInner_iff : ∀ t : Fin cfg0.N, isInner (grid0.coords t) ↔ t.val % 4 ≠ 3 :=
  (by decide +kernel : ∀ t : Fin grid0.N, isInner (grid0.coords t) ↔ t.val % 4 ≠ 3)
theorem isEpilogue_iff : ∀ t : Fin cfg0.N, isEpilogue (grid0.coords t) ↔ t.val % 4 = 3 :=
  (by decide +kernel : ∀ t : Fin grid0.N, isEpilogue (grid0.coords t) ↔ t.val % 4 = 3)

/-! ## Where the windows are idle -/

theorem live_0 : ∀ t : Fin cfg0.N, cfg0.idle 0 (grid0.coords t) = false := by decide +kernel
theorem live_1 : ∀ t : Fin cfg0.N, cfg0.idle 1 (grid0.coords t) = false := by decide +kernel
theorem live_2 : ∀ t : Fin cfg0.N, cfg0.idle 2 (grid0.coords t) = false := by decide +kernel
theorem live_3 : ∀ t : Fin cfg0.N, cfg0.idle 3 (grid0.coords t) = false := by decide +kernel
theorem live_4 : ∀ t : Fin cfg0.N, cfg0.idle 4 (grid0.coords t) = false := by decide +kernel
theorem live_5 : ∀ t : Fin cfg0.N, cfg0.idle 5 (grid0.coords t) = false := by decide +kernel
theorem live_6 : ∀ t : Fin cfg0.N, cfg0.idle 6 (grid0.coords t) = false := by decide +kernel
/-- The result's window is idle away from contraction tile 3, and not written back there; -/
theorem idle_7 : ∀ t : Fin cfg0.N, t.val % 4 ≠ 3 → cfg0.idle 7 (grid0.coords t) = true := by decide +kernel
theorem noFlush_7 : ∀ t : Fin cfg0.N, t.val % 4 ≠ 3 → (cfg0.win 7).flush t = false := by decide +kernel
/-- at tile 3 the body stores its block. -/
theorem live_7 : ∀ t : Fin cfg0.N, t.val % 4 = 3 → cfg0.idle 7 (grid0.coords t) = false := by decide +kernel

/-! ## The memrefs the body is called with -/

abbrev ms0 (t : Fin cfg0.N) : Memref sig .tc .vmem S1000x2560 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S1000x2560 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S10240x128 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S128x128 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S1x128 .f32 := win0_4.stage (cfg0.slots t 4)
abbrev hs4 (t : Fin cfg0.N) : (ms4 t).IsWhole := hstage0_4 ((cfg0.slots t 4).cast nbuf0_4)
abbrev ms5 (t : Fin cfg0.N) : Memref sig .tc .vmem S128x128 .f32 := win0_5.stage (cfg0.slots t 5)
abbrev hs5 (t : Fin cfg0.N) : (ms5 t).IsWhole := hstage0_5 ((cfg0.slots t 5).cast nbuf0_5)
abbrev ms6 (t : Fin cfg0.N) : Memref sig .tc .vmem S1x128 .f32 := win0_6.stage (cfg0.slots t 6)
abbrev hs6 (t : Fin cfg0.N) : (ms6 t).IsWhole := hstage0_6 ((cfg0.slots t 6).cast nbuf0_6)
abbrev ms7 (t : Fin cfg0.N) : Memref sig .tc .vmem S1000x128 .f32 := win0_7.stage (cfg0.slots t 7)
abbrev hs7 (t : Fin cfg0.N) : (ms7 t).IsWhole := hstage0_7 ((cfg0.slots t 7).cast nbuf0_7)
/-- The two accumulators: whole scratch buffers of the kernel's own. -/
abbrev scN : Memref sig .tc .vmem S1000x128 .f32 := Memref.whole cc0_scratch0
abbrev scE : Memref sig .tc .vmem S1000x128 .f32 := Memref.whole cc0_scratch1

/-- The region's plain invariant with the two accumulators as memrefs owned at some contents. -/
theorem PhiA_eq (c : Dev nD) :
    (Pipeline.ΦA spec0 c : sProp 𝕄)
      = iprop(iprop((∃ d, owns (c : Thread nD τ) scN fullShare d) ∗ (∃ d, owns (c : Thread nD τ) scE fullShare d)) ∗ (∃ r, prngReg c r)) := by
  unfold Pipeline.ΦA; rw [scopedRest0_eq]; simp only [scN, scE, owns_whole]; try rfl

end Cert.KernelIdeal.Body

end
-- ==== Proof.Ideal.RunInner.lean ====
/-
  The body at contraction tiles 1 and 2: nothing is cleared, the unmasked partial products of the two adjacency
  blocks with the tile's rows of the feature matrix are added to the two accumulators, the result block is untouched.
  The run is by symbolic execution of the body's memory operations; the pieces it leaves in the two accumulators are
  what that run finds.
-/
import proofs.«157794_g77704548319642_cont_9to1_m_740_10_alg».proof.Proof.Ideal.Schedule

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

set_option maxHeartbeats 4000000 in
/-- The body at an inner tile that is not the first: on whole memrefs, the inputs at their contents, the result's
    buffer at contents handed back untouched, the accumulators at what the tile before left, it runs to the
    continuation with the accumulators at their pieces written. -/
noncomputable def runInner (c : Dev nD) (i : grid0.Coords) (arg2 : Memref sig .tc .vmem S1000x2560 .f32) (harg2 : arg2.IsWhole) (arg3 : Memref sig .tc .vmem S1000x2560 .f32) (harg3 : arg3.IsWhole) (arg4 : Memref sig .tc .vmem S10240x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S128x128 .f32) (harg7 : arg7.IsWhole) (arg8 : Memref sig .tc .vmem S1x128 .f32) (harg8 : arg8.IsWhole) (arg9 : Memref sig .tc .vmem S1000x128 .f32) (harg9 : arg9.IsWhole) (arg10 : Memref sig .tc .vmem S1000x128 .f32) (harg10 : arg10.IsWhole) (arg11 : Memref sig .tc .vmem S1000x128 .f32) (harg11 : arg11.IsWhole)
    (h1 : ¬isFirst i) (h2 : ¬isLast i) (h3 : isInner i) (h4 : ¬isEpilogue i)
    (x0 : Vec F S1000x2560 .f32) (x1 : Vec F S1000x2560 .f32) (x2 : Vec F S10240x128 .f32) (x3 : Vec F S128x128 .f32) (x4 : Vec F S1x128 .f32) (x5 : Vec F S128x128 .f32) (x6 : Vec F S1x128 .f32) (xsN xsE : Vec F S1000x128 .f32) :
    Σ' (LN : List (View.Piece (Elt F) S1000x128 .f32)), { LE : List (View.Piece (Elt F) S1000x128 .f32) //
      ∀ (xi7 : Vec F S1000x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare xi7 ∗ owns (c : Thread nD τ) arg10 fullShare xsN ∗ owns (c : Thread nD τ) arg11 fullShare xsE
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare xi7 ∗ (∃ f, arg10.view.loc (c : Thread nD τ) ↦[arg10.view.set]{fullShare} arg10.view.writes (Elt F) f LN) ∗ (∃ f, arg11.view.loc (c : Thread nD τ) ↦[arg11.view.set]{fullShare} arg11.view.writes (Elt F) f LE)) -∗ K ⟨⟩))
          ⊢ wp frame (wpE (defs₀ (F := F)) Variants.none c none) E (cc0__fgc_kernel i arg2 harg2 arg3 harg3 arg4 harg4 arg5 harg5 arg6 harg6 arg7 harg7 arg8 harg8 arg9 harg9 arg10 harg10 arg11 harg11) K } := by
  refine ⟨?_, ?_, fun xi7 E K => ?run⟩
  case run =>
    simp only [cc0__fgc_kernel_eq_skeleton]; unfold cc0__fgc_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%fN, %hfN, HN⟩, ⟨%fE, %hfE, HE⟩, Hk⟩
    obtain rfl := harg2.eq_unread hf0; obtain rfl := harg3.eq_unread hf1; obtain rfl := harg4.eq_unread hf2
    obtain rfl := harg5.eq_unread hf3; obtain rfl := harg6.eq_unread hf4; obtain rfl := harg7.eq_unread hf5
    obtain rfl := harg8.eq_unread hf6; obtain rfl := harg9.eq_unread hf7
    obtain rfl := harg10.eq_unread hfN; obtain rfl := harg11.eq_unread hfE
    sl_exec (disch := first | exact h1 | exact h2 | exact h3 | exact h4)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [HN]
    · iexists _; iexact HN
    iexists _; iexact HE

end Cert.KernelIdeal.Body

end
-- ==== Proof.Ideal.RunFirst.lean ====
/-
  The body at contraction tile 0: both accumulators are cleared, then the unmasked partial products of the two
  adjacency blocks with the tile's rows of the feature matrix are added to them; the result block is untouched.
-/
import proofs.«157794_g77704548319642_cont_9to1_m_740_10_alg».proof.Proof.Ideal.RunInner

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

set_option maxHeartbeats 4000000 in
/-- The body at the first tile: on whole memrefs, the inputs at their contents, the result's buffer at contents
    handed back untouched, the accumulators at anything, it runs to the continuation with the accumulators at their
    pieces written. -/
noncomputable def runFirst (c : Dev nD) (i : grid0.Coords) (arg2 : Memref sig .tc .vmem S1000x2560 .f32) (harg2 : arg2.IsWhole) (arg3 : Memref sig .tc .vmem S1000x2560 .f32) (harg3 : arg3.IsWhole) (arg4 : Memref sig .tc .vmem S10240x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S128x128 .f32) (harg7 : arg7.IsWhole) (arg8 : Memref sig .tc .vmem S1x128 .f32) (harg8 : arg8.IsWhole) (arg9 : Memref sig .tc .vmem S1000x128 .f32) (harg9 : arg9.IsWhole) (arg10 : Memref sig .tc .vmem S1000x128 .f32) (harg10 : arg10.IsWhole) (arg11 : Memref sig .tc .vmem S1000x128 .f32) (harg11 : arg11.IsWhole)
    (h1 : isFirst i) (h2 : ¬isLast i) (h3 : isInner i) (h4 : ¬isEpilogue i)
    (x0 : Vec F S1000x2560 .f32) (x1 : Vec F S1000x2560 .f32) (x2 : Vec F S10240x128 .f32) (x3 : Vec F S128x128 .f32) (x4 : Vec F S1x128 .f32) (x5 : Vec F S128x128 .f32) (x6 : Vec F S1x128 .f32) :
    Σ' (LN : List (View.Piece (Elt F) S1000x128 .f32)), { LE : List (View.Piece (Elt F) S1000x128 .f32) //
      ∀ (xi7 : Vec F S1000x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare xi7 ∗ (∃ d, owns (c : Thread nD τ) arg10 fullShare d) ∗ (∃ d, owns (c : Thread nD τ) arg11 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare xi7 ∗ (∃ f, arg10.view.loc (c : Thread nD τ) ↦[arg10.view.set]{fullShare} arg10.view.writes (Elt F) f LN) ∗ (∃ f, arg11.view.loc (c : Thread nD τ) ↦[arg11.view.set]{fullShare} arg11.view.writes (Elt F) f LE)) -∗ K ⟨⟩))
          ⊢ wp frame (wpE (defs₀ (F := F)) Variants.none c none) E (cc0__fgc_kernel i arg2 harg2 arg3 harg3 arg4 harg4 arg5 harg5 arg6 harg6 arg7 harg7 arg8 harg8 arg9 harg9 arg10 harg10 arg11 harg11) K } := by
  refine ⟨?_, ?_, fun xi7 E K => ?run⟩
  case run =>
    simp only [cc0__fgc_kernel_eq_skeleton]; unfold cc0__fgc_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%dN, %fN, -, HN⟩, ⟨%dE, %fE, -, HE⟩, Hk⟩
    obtain rfl := harg2.eq_unread hf0; obtain rfl := harg3.eq_unread hf1; obtain rfl := harg4.eq_unread hf2
    obtain rfl := harg5.eq_unread hf3; obtain rfl := harg6.eq_unread hf4; obtain rfl := harg7.eq_unread hf5
    obtain rfl := harg8.eq_unread hf6; obtain rfl := harg9.eq_unread hf7
    sl_exec (disch := first | exact h1 | exact h2 | exact h3 | exact h4)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [HN]
    · iexists _; iexact HN
    iexists _; iexact HE

end Cert.KernelIdeal.Body

end
-- ==== Proof.Ideal.RunLast.lean ====
/-
  The body at contraction tile 3: the partial products of the two adjacency blocks, masked to the columns inside
  the matrix, with the tile's rows of the feature matrix are added to the two accumulators; then each accumulator is
  projected by its weight matrix, the bias row added, the first clamped below at zero, and the sum stored as the
  result block.
-/
import proofs.«157794_g77704548319642_cont_9to1_m_740_10_alg».proof.Proof.Ideal.RunFirst

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

set_option maxHeartbeats 4000000 in
/-- The body at the last tile: on whole memrefs, the inputs at their contents, the result's buffer at anything,
    the accumulators at what the tile before left, it runs to the continuation with the accumulators and the result's
    buffer at their pieces written. -/
noncomputable def runLast (c : Dev nD) (i : grid0.Coords) (arg2 : Memref sig .tc .vmem S1000x2560 .f32) (harg2 : arg2.IsWhole) (arg3 : Memref sig .tc .vmem S1000x2560 .f32) (harg3 : arg3.IsWhole) (arg4 : Memref sig .tc .vmem S10240x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S128x128 .f32) (harg7 : arg7.IsWhole) (arg8 : Memref sig .tc .vmem S1x128 .f32) (harg8 : arg8.IsWhole) (arg9 : Memref sig .tc .vmem S1000x128 .f32) (harg9 : arg9.IsWhole) (arg10 : Memref sig .tc .vmem S1000x128 .f32) (harg10 : arg10.IsWhole) (arg11 : Memref sig .tc .vmem S1000x128 .f32) (harg11 : arg11.IsWhole)
    (h1 : ¬isFirst i) (h2 : isLast i) (h3 : ¬isInner i) (h4 : isEpilogue i)
    (x0 : Vec F S1000x2560 .f32) (x1 : Vec F S1000x2560 .f32) (x2 : Vec F S10240x128 .f32) (x3 : Vec F S128x128 .f32) (x4 : Vec F S1x128 .f32) (x5 : Vec F S128x128 .f32) (x6 : Vec F S1x128 .f32) (xsN xsE : Vec F S1000x128 .f32) :
    Σ' (L7 : List (View.Piece (Elt F) S1000x128 .f32)) (LN : List (View.Piece (Elt F) S1000x128 .f32)), { LE : List (View.Piece (Elt F) S1000x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ d, owns (c : Thread nD τ) arg9 fullShare d) ∗ owns (c : Thread nD τ) arg10 fullShare xsN ∗ owns (c : Thread nD τ) arg11 fullShare xsE
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ f, arg9.view.loc (c : Thread nD τ) ↦[arg9.view.set]{fullShare} arg9.view.writes (Elt F) f L7) ∗ (∃ f, arg10.view.loc (c : Thread nD τ) ↦[arg10.view.set]{fullShare} arg10.view.writes (Elt F) f LN) ∗ (∃ f, arg11.view.loc (c : Thread nD τ) ↦[arg11.view.set]{fullShare} arg11.view.writes (Elt F) f LE)) -∗ K ⟨⟩))
          ⊢ wp frame (wpE (defs₀ (F := F)) Variants.none c none) E (cc0__fgc_kernel i arg2 harg2 arg3 harg3 arg4 harg4 arg5 harg5 arg6 harg6 arg7 harg7 arg8 harg8 arg9 harg9 arg10 harg10 arg11 harg11) K } := by
  refine ⟨?_, ?_, ?_, fun E K => ?run⟩
  case run =>
    simp only [cc0__fgc_kernel_eq_skeleton]; unfold cc0__fgc_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%fN, %hfN, HN⟩, ⟨%fE, %hfE, HE⟩, Hk⟩
    obtain rfl := harg2.eq_unread hf0; obtain rfl := harg3.eq_unread hf1; obtain rfl := harg4.eq_unread hf2
    obtain rfl := harg5.eq_unread hf3; obtain rfl := harg6.eq_unread hf4; obtain rfl := harg7.eq_unread hf5
    obtain rfl := harg8.eq_unread hf6
    obtain rfl := harg10.eq_unread hfN; obtain rfl := harg11.eq_unread hfE
    sl_exec (disch := first | exact h1 | exact h2 | exact h3 | exact h4)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; iexact H7
    isplitl [HN]
    · iexists _; iexact HN
    iexists _; iexact HE

end Cert.KernelIdeal.Body

end
-- ==== Proof.Ideal.Pieces.lean ====
/-
  What each case of the body leaves in the buffers it stores into, as values: the pieces the runs found are single
  whole-buffer stores, so each buffer ends at its last store's payload, and every load in a payload reads the whole
  contents of the buffer it names — except the feature rows, read at the tile's row offset.
-/
import proofs.«157794_g77704548319642_cont_9to1_m_740_10_alg».proof.Proof.Ideal.RunLast
import Idealize.ShloMosaic.Lib.Pipeline.Value

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

theorem hz : (![0, 0] : Fin 2 → Nat) = fun _ => 0 := funext fun a => by fin_cases a <;> rfl

/-- The 2560 rows of the padded feature matrix that contraction tile `i 1` multiplies by: rows `2560 · (i 1)` on. -/
abbrev fRows (x2 : Vec F S10240x128 .f32) (i : grid0.Coords) : Vec F S2560x128 .f32 :=
  View.ld x2 (Rect.unit (s := S10240x128) (k0_off1 i) S2560x128.size (k0_off1_inb i))

/-! ## An inner tile after the first -/

theorem coverN_inner (c : Dev nD) (i : grid0.Coords) (arg2 : Memref sig .tc .vmem S1000x2560 .f32) (harg2 : arg2.IsWhole) (arg3 : Memref sig .tc .vmem S1000x2560 .f32) (harg3 : arg3.IsWhole) (arg4 : Memref sig .tc .vmem S10240x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S128x128 .f32) (harg7 : arg7.IsWhole) (arg8 : Memref sig .tc .vmem S1x128 .f32) (harg8 : arg8.IsWhole) (arg9 : Memref sig .tc .vmem S1000x128 .f32) (harg9 : arg9.IsWhole) (arg10 : Memref sig .tc .vmem S1000x128 .f32) (harg10 : arg10.IsWhole) (arg11 : Memref sig .tc .vmem S1000x128 .f32) (harg11 : arg11.IsWhole)
    (h1 : ¬isFirst i) (h2 : ¬isLast i) (h3 : isInner i) (h4 : ¬isEpilogue i)
    (x0 : Vec F S1000x2560 .f32) (x1 : Vec F S1000x2560 .f32) (x2 : Vec F S10240x128 .f32) (x3 : Vec F S128x128 .f32) (x4 : Vec F S1x128 .f32) (x5 : Vec F S128x128 .f32) (x6 : Vec F S1x128 .f32) (xsN xsE : Vec F S1000x128 .f32) (y : S1000x128.Idx) :
    ∃ pc ∈ (runInner c i arg2 harg2 arg3 harg3 arg4 harg4 arg5 harg5 arg6 harg6 arg7 harg7 arg8 harg8 arg9 harg9 arg10 harg10 arg11 harg11 h1 h2 h3 h4 x0 x1 x2 x3 x4 x5 x6 xsN xsE).1, y ∈ pc.1.set :=
  View.cover_of_tiledL (runInner c i arg2 harg2 arg3 harg3 arg4 harg4 arg5 harg5 arg6 harg6 arg7 harg7 arg8 harg8 arg9 harg9 arg10 harg10 arg11 harg11 h1 h2 h3 h4 x0 x1 x2 x3 x4 x5 x6 xsN xsE).1 S1000x128.size (by sl_kernel_rfl) y

theorem coverE_inner (c : Dev nD) (i : grid0.Coords) (arg2 : Memref sig .tc .vmem S1000x2560 .f32) (harg2 : arg2.IsWhole) (arg3 : Memref sig .tc .vmem S1000x2560 .f32) (harg3 : arg3.IsWhole) (arg4 : Memref sig .tc .vmem S10240x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S128x128 .f32) (harg7 : arg7.IsWhole) (arg8 : Memref sig .tc .vmem S1x128 .f32) (harg8 : arg8.IsWhole) (arg9 : Memref sig .tc .vmem S1000x128 .f32) (harg9 : arg9.IsWhole) (arg10 : Memref sig .tc .vmem S1000x128 .f32) (harg10 : arg10.IsWhole) (arg11 : Memref sig .tc .vmem S1000x128 .f32) (harg11 : arg11.IsWhole)
    (h1 : ¬isFirst i) (h2 : ¬isLast i) (h3 : isInner i) (h4 : ¬isEpilogue i)
    (x0 : Vec F S1000x2560 .f32) (x1 : Vec F S1000x2560 .f32) (x2 : Vec F S10240x128 .f32) (x3 : Vec F S128x128 .f32) (x4 : Vec F S1x128 .f32) (x5 : Vec F S128x128 .f32) (x6 : Vec F S1x128 .f32) (xsN xsE : Vec F S1000x128 .f32) (y : S1000x128.Idx) :
    ∃ pc ∈ (runInner c i arg2 harg2 arg3 harg3 arg4 harg4 arg5 harg5 arg6 harg6 arg7 harg7 arg8 harg8 arg9 harg9 arg10 harg10 arg11 harg11 h1 h2 h3 h4 x0 x1 x2 x3 x4 x5 x6 xsN xsE).2.1, y ∈ pc.1.set :=
  View.cover_of_tiledL (runInner c i arg2 harg2 arg3 harg3 arg4 harg4 arg5 harg5 arg6 harg6 arg7 harg7 arg8 harg8 arg9 harg9 arg10 harg10 arg11 harg11 h1 h2 h3 h4 x0 x1 x2 x3 x4 x5 x6 xsN xsE).2.1 S1000x128.size (by sl_kernel_rfl) y

theorem canonN_inner (c : Dev nD) (i : grid0.Coords) (arg2 : Memref sig .tc .vmem S1000x2560 .f32) (harg2 : arg2.IsWhole) (arg3 : Memref sig .tc .vmem S1000x2560 .f32) (harg3 : arg3.IsWhole) (arg4 : Memref sig .tc .vmem S10240x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S128x128 .f32) (harg7 : arg7.IsWhole) (arg8 : Memref sig .tc .vmem S1x128 .f32) (harg8 : arg8.IsWhole) (arg9 : Memref sig .tc .vmem S1000x128 .f32) (harg9 : arg9.IsWhole) (arg10 : Memref sig .tc .vmem S1000x128 .f32) (harg10 : arg10.IsWhole) (arg11 : Memref sig .tc .vmem S1000x128 .f32) (harg11 : arg11.IsWhole)
    (h1 : ¬isFirst i) (h2 : ¬isLast i) (h3 : isInner i) (h4 : ¬isEpilogue i)
    (x0 : Vec F S1000x2560 .f32) (x1 : Vec F S1000x2560 .f32) (x2 : Vec F S10240x128 .f32) (x3 : Vec F S128x128 .f32) (x4 : Vec F S1x128 .f32) (x5 : Vec F S128x128 .f32) (x6 : Vec F S1x128 .f32) (xsN xsE : Vec F S1000x128 .f32) :
    View.canon (runInner c i arg2 harg2 arg3 harg3 arg4 harg4 arg5 harg5 arg6 harg6 arg7 harg7 arg8 harg8 arg9 harg9 arg10 harg10 arg11 harg11 h1 h2 h3 h4 x0 x1 x2 x3 x4 x5 x6 xsN xsE).1 = k0_pay7 (fRows x2 i) x0 xsN := by
  unfold runInner
  dsimp only
  rw [View.canon_unit_zero hz]
  simp only [View.readAt_eq_ld, harg2.read_unread, harg3.read_unread, harg4.read_unread, harg5.read_unread, harg6.read_unread, harg7.read_unread, harg8.read_unread, harg10.read_unread, harg11.read_unread, View.ld_unit_zero (S := S1000x2560) hz, View.ld_unit_zero (S := S1000x128) hz, View.ld_unit_zero (S := S128x128) hz, View.ld_unit_zero (S := S1x128) hz]
  all_goals rfl

theorem canonE_inner (c : Dev nD) (i : grid0.Coords) (arg2 : Memref sig .tc .vmem S1000x2560 .f32) (harg2 : arg2.IsWhole) (arg3 : Memref sig .tc .vmem S1000x2560 .f32) (harg3 : arg3.IsWhole) (arg4 : Memref sig .tc .vmem S10240x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S128x128 .f32) (harg7 : arg7.IsWhole) (arg8 : Memref sig .tc .vmem S1x128 .f32) (harg8 : arg8.IsWhole) (arg9 : Memref sig .tc .vmem S1000x128 .f32) (harg9 : arg9.IsWhole) (arg10 : Memref sig .tc .vmem S1000x128 .f32) (harg10 : arg10.IsWhole) (arg11 : Memref sig .tc .vmem S1000x128 .f32) (harg11 : arg11.IsWhole)
    (h1 : ¬isFirst i) (h2 : ¬isLast i) (h3 : isInner i) (h4 : ¬isEpilogue i)
    (x0 : Vec F S1000x2560 .f32) (x1 : Vec F S1000x2560 .f32) (x2 : Vec F S10240x128 .f32) (x3 : Vec F S128x128 .f32) (x4 : Vec F S1x128 .f32) (x5 : Vec F S128x128 .f32) (x6 : Vec F S1x128 .f32) (xsN xsE : Vec F S1000x128 .f32) :
    View.canon (runInner c i arg2 harg2 arg3 harg3 arg4 harg4 arg5 harg5 arg6 harg6 arg7 harg7 arg8 harg8 arg9 harg9 arg10 harg10 arg11 harg11 h1 h2 h3 h4 x0 x1 x2 x3 x4 x5 x6 xsN xsE).2.1 = k0_pay8 (fRows x2 i) x1 xsE := by
  unfold runInner
  dsimp only
  rw [View.canon_unit_zero hz]
  simp only [View.readAt_eq_ld, harg2.read_unread, harg3.read_unread, harg4.read_unread, harg5.read_unread, harg6.read_unread, harg7.read_unread, harg8.read_unread, harg10.read_unread, harg11.read_unread, View.ld_unit_zero (S := S1000x2560) hz, View.ld_unit_zero (S := S1000x128) hz, View.ld_unit_zero (S := S128x128) hz, View.ld_unit_zero (S := S1x128) hz]
  all_goals rfl

/-! ## The first tile -/

theorem coverN_first (c : Dev nD) (i : grid0.Coords) (arg2 : Memref sig .tc .vmem S1000x2560 .f32) (harg2 : arg2.IsWhole) (arg3 : Memref sig .tc .vmem S1000x2560 .f32) (harg3 : arg3.IsWhole) (arg4 : Memref sig .tc .vmem S10240x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S128x128 .f32) (harg7 : arg7.IsWhole) (arg8 : Memref sig .tc .vmem S1x128 .f32) (harg8 : arg8.IsWhole) (arg9 : Memref sig .tc .vmem S1000x128 .f32) (harg9 : arg9.IsWhole) (arg10 : Memref sig .tc .vmem S1000x128 .f32) (harg10 : arg10.IsWhole) (arg11 : Memref sig .tc .vmem S1000x128 .f32) (harg11 : arg11.IsWhole)
    (h1 : isFirst i) (h2 : ¬isLast i) (h3 : isInner i) (h4 : ¬isEpilogue i)
    (x0 : Vec F S1000x2560 .f32) (x1 : Vec F S1000x2560 .f32) (x2 : Vec F S10240x128 .f32) (x3 : Vec F S128x128 .f32) (x4 : Vec F S1x128 .f32) (x5 : Vec F S128x128 .f32) (x6 : Vec F S1x128 .f32) (y : S1000x128.Idx) :
    ∃ pc ∈ (runFirst c i arg2 harg2 arg3 harg3 arg4 harg4 arg5 harg5 arg6 harg6 arg7 harg7 arg8 harg8 arg9 harg9 arg10 harg10 arg11 harg11 h1 h2 h3 h4 x0 x1 x2 x3 x4 x5 x6).1, y ∈ pc.1.set :=
  View.cover_of_tiledL (runFirst c i arg2 harg2 arg3 harg3 arg4 harg4 arg5 harg5 arg6 harg6 arg7 harg7 arg8 harg8 arg9 harg9 arg10 harg10 arg11 harg11 h1 h2 h3 h4 x0 x1 x2 x3 x4 x5 x6).1 S1000x128.size (by sl_kernel_rfl) y

theorem coverE_first (c : Dev nD) (i : grid0.Coords) (arg2 : Memref sig .tc .vmem S1000x2560 .f32) (harg2 : arg2.IsWhole) (arg3 : Memref sig .tc .vmem S1000x2560 .f32) (harg3 : arg3.IsWhole) (arg4 : Memref sig .tc .vmem S10240x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S128x128 .f32) (harg7 : arg7.IsWhole) (arg8 : Memref sig .tc .vmem S1x128 .f32) (harg8 : arg8.IsWhole) (arg9 : Memref sig .tc .vmem S1000x128 .f32) (harg9 : arg9.IsWhole) (arg10 : Memref sig .tc .vmem S1000x128 .f32) (harg10 : arg10.IsWhole) (arg11 : Memref sig .tc .vmem S1000x128 .f32) (harg11 : arg11.IsWhole)
    (h1 : isFirst i) (h2 : ¬isLast i) (h3 : isInner i) (h4 : ¬isEpilogue i)
    (x0 : Vec F S1000x2560 .f32) (x1 : Vec F S1000x2560 .f32) (x2 : Vec F S10240x128 .f32) (x3 : Vec F S128x128 .f32) (x4 : Vec F S1x128 .f32) (x5 : Vec F S128x128 .f32) (x6 : Vec F S1x128 .f32) (y : S1000x128.Idx) :
    ∃ pc ∈ (runFirst c i arg2 harg2 arg3 harg3 arg4 harg4 arg5 harg5 arg6 harg6 arg7 harg7 arg8 harg8 arg9 harg9 arg10 harg10 arg11 harg11 h1 h2 h3 h4 x0 x1 x2 x3 x4 x5 x6).2.1, y ∈ pc.1.set :=
  View.cover_of_tiledL (runFirst c i arg2 harg2 arg3 harg3 arg4 harg4 arg5 harg5 arg6 harg6 arg7 harg7 arg8 harg8 arg9 harg9 arg10 harg10 arg11 harg11 h1 h2 h3 h4 x0 x1 x2 x3 x4 x5 x6).2.1 S1000x128.size (by sl_kernel_rfl) y

theorem canonN_first (c : Dev nD) (i : grid0.Coords) (arg2 : Memref sig .tc .vmem S1000x2560 .f32) (harg2 : arg2.IsWhole) (arg3 : Memref sig .tc .vmem S1000x2560 .f32) (harg3 : arg3.IsWhole) (arg4 : Memref sig .tc .vmem S10240x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S128x128 .f32) (harg7 : arg7.IsWhole) (arg8 : Memref sig .tc .vmem S1x128 .f32) (harg8 : arg8.IsWhole) (arg9 : Memref sig .tc .vmem S1000x128 .f32) (harg9 : arg9.IsWhole) (arg10 : Memref sig .tc .vmem S1000x128 .f32) (harg10 : arg10.IsWhole) (arg11 : Memref sig .tc .vmem S1000x128 .f32) (harg11 : arg11.IsWhole)
    (h1 : isFirst i) (h2 : ¬isLast i) (h3 : isInner i) (h4 : ¬isEpilogue i)
    (x0 : Vec F S1000x2560 .f32) (x1 : Vec F S1000x2560 .f32) (x2 : Vec F S10240x128 .f32) (x3 : Vec F S128x128 .f32) (x4 : Vec F S1x128 .f32) (x5 : Vec F S128x128 .f32) (x6 : Vec F S1x128 .f32) :
    View.canon (runFirst c i arg2 harg2 arg3 harg3 arg4 harg4 arg5 harg5 arg6 harg6 arg7 harg7 arg8 harg8 arg9 harg9 arg10 harg10 arg11 harg11 h1 h2 h3 h4 x0 x1 x2 x3 x4 x5 x6).1 = k0_pay7 (fRows x2 i) x0 k0_pay1 := by
  unfold runFirst
  dsimp only
  sl_unfold_words
  rw [View.canon_cons_unit_zero (S := S1000x128) hz, View.readCov_unit_zero (S := S1000x128) _ hz]
  simp only [View.readAt_eq_ld, harg2.read_unread, harg3.read_unread, harg4.read_unread, harg5.read_unread, harg6.read_unread, harg7.read_unread, harg8.read_unread, harg10.read_unread, harg11.read_unread, View.ld_unit_zero (S := S1000x2560) hz, View.ld_unit_zero (S := S1000x128) hz, View.ld_unit_zero (S := S128x128) hz, View.ld_unit_zero (S := S1x128) hz]
  all_goals rfl

theorem canonE_first (c : Dev nD) (i : grid0.Coords) (arg2 : Memref sig .tc .vmem S1000x2560 .f32) (harg2 : arg2.IsWhole) (arg3 : Memref sig .tc .vmem S1000x2560 .f32) (harg3 : arg3.IsWhole) (arg4 : Memref sig .tc .vmem S10240x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S128x128 .f32) (harg7 : arg7.IsWhole) (arg8 : Memref sig .tc .vmem S1x128 .f32) (harg8 : arg8.IsWhole) (arg9 : Memref sig .tc .vmem S1000x128 .f32) (harg9 : arg9.IsWhole) (arg10 : Memref sig .tc .vmem S1000x128 .f32) (harg10 : arg10.IsWhole) (arg11 : Memref sig .tc .vmem S1000x128 .f32) (harg11 : arg11.IsWhole)
    (h1 : isFirst i) (h2 : ¬isLast i) (h3 : isInner i) (h4 : ¬isEpilogue i)
    (x0 : Vec F S1000x2560 .f32) (x1 : Vec F S1000x2560 .f32) (x2 : Vec F S10240x128 .f32) (x3 : Vec F S128x128 .f32) (x4 : Vec F S1x128 .f32) (x5 : Vec F S128x128 .f32) (x6 : Vec F S1x128 .f32) :
    View.canon (runFirst c i arg2 harg2 arg3 harg3 arg4 harg4 arg5 harg5 arg6 harg6 arg7 harg7 arg8 harg8 arg9 harg9 arg10 harg10 arg11 harg11 h1 h2 h3 h4 x0 x1 x2 x3 x4 x5 x6).2.1 = k0_pay8 (fRows x2 i) x1 k0_pay2 := by
  unfold runFirst
  dsimp only
  sl_unfold_words
  rw [View.canon_cons_unit_zero (S := S1000x128) hz, View.readCov_unit_zero (S := S1000x128) _ hz]
  simp only [View.readAt_eq_ld, harg2.read_unread, harg3.read_unread, harg4.read_unread, harg5.read_unread, harg6.read_unread, harg7.read_unread, harg8.read_unread, harg10.read_unread, harg11.read_unread, View.ld_unit_zero (S := S1000x2560) hz, View.ld_unit_zero (S := S1000x128) hz, View.ld_unit_zero (S := S128x128) hz, View.ld_unit_zero (S := S1x128) hz]
  all_goals rfl

/-! ## The last tile -/

theorem coverO_last (c : Dev nD) (i : grid0.Coords) (arg2 : Memref sig .tc .vmem S1000x2560 .f32) (harg2 : arg2.IsWhole) (arg3 : Memref sig .tc .vmem S1000x2560 .f32) (harg3 : arg3.IsWhole) (arg4 : Memref sig .tc .vmem S10240x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S128x128 .f32) (harg7 : arg7.IsWhole) (arg8 : Memref sig .tc .vmem S1x128 .f32) (harg8 : arg8.IsWhole) (arg9 : Memref sig .tc .vmem S1000x128 .f32) (harg9 : arg9.IsWhole) (arg10 : Memref sig .tc .vmem S1000x128 .f32) (harg10 : arg10.IsWhole) (arg11 : Memref sig .tc .vmem S1000x128 .f32) (harg11 : arg11.IsWhole)
    (h1 : ¬isFirst i) (h2 : isLast i) (h3 : ¬isInner i) (h4 : isEpilogue i)
    (x0 : Vec F S1000x2560 .f32) (x1 : Vec F S1000x2560 .f32) (x2 : Vec F S10240x128 .f32) (x3 : Vec F S128x128 .f32) (x4 : Vec F S1x128 .f32) (x5 : Vec F S128x128 .f32) (x6 : Vec F S1x128 .f32) (xsN xsE : Vec F S1000x128 .f32) (y : S1000x128.Idx) :
    ∃ pc ∈ (runLast c i arg2 harg2 arg3 harg3 arg4 harg4 arg5 harg5 arg6 harg6 arg7 harg7 arg8 harg8 arg9 harg9 arg10 harg10 arg11 harg11 h1 h2 h3 h4 x0 x1 x2 x3 x4 x5 x6 xsN xsE).1, y ∈ pc.1.set :=
  View.cover_of_tiledL (runLast c i arg2 harg2 arg3 harg3 arg4 harg4 arg5 harg5 arg6 harg6 arg7 harg7 arg8 harg8 arg9 harg9 arg10 harg10 arg11 harg11 h1 h2 h3 h4 x0 x1 x2 x3 x4 x5 x6 xsN xsE).1 S1000x128.size (by sl_kernel_rfl) y

theorem coverN_last (c : Dev nD) (i : grid0.Coords) (arg2 : Memref sig .tc .vmem S1000x2560 .f32) (harg2 : arg2.IsWhole) (arg3 : Memref sig .tc .vmem S1000x2560 .f32) (harg3 : arg3.IsWhole) (arg4 : Memref sig .tc .vmem S10240x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S128x128 .f32) (harg7 : arg7.IsWhole) (arg8 : Memref sig .tc .vmem S1x128 .f32) (harg8 : arg8.IsWhole) (arg9 : Memref sig .tc .vmem S1000x128 .f32) (harg9 : arg9.IsWhole) (arg10 : Memref sig .tc .vmem S1000x128 .f32) (harg10 : arg10.IsWhole) (arg11 : Memref sig .tc .vmem S1000x128 .f32) (harg11 : arg11.IsWhole)
    (h1 : ¬isFirst i) (h2 : isLast i) (h3 : ¬isInner i) (h4 : isEpilogue i)
    (x0 : Vec F S1000x2560 .f32) (x1 : Vec F S1000x2560 .f32) (x2 : Vec F S10240x128 .f32) (x3 : Vec F S128x128 .f32) (x4 : Vec F S1x128 .f32) (x5 : Vec F S128x128 .f32) (x6 : Vec F S1x128 .f32) (xsN xsE : Vec F S1000x128 .f32) (y : S1000x128.Idx) :
    ∃ pc ∈ (runLast c i arg2 harg2 arg3 harg3 arg4 harg4 arg5 harg5 arg6 harg6 arg7 harg7 arg8 harg8 arg9 harg9 arg10 harg10 arg11 harg11 h1 h2 h3 h4 x0 x1 x2 x3 x4 x5 x6 xsN xsE).2.1, y ∈ pc.1.set :=
  View.cover_of_tiledL (runLast c i arg2 harg2 arg3 harg3 arg4 harg4 arg5 harg5 arg6 harg6 arg7 harg7 arg8 harg8 arg9 harg9 arg10 harg10 arg11 harg11 h1 h2 h3 h4 x0 x1 x2 x3 x4 x5 x6 xsN xsE).2.1 S1000x128.size (by sl_kernel_rfl) y

theorem coverE_last (c : Dev nD) (i : grid0.Coords) (arg2 : Memref sig .tc .vmem S1000x2560 .f32) (harg2 : arg2.IsWhole) (arg3 : Memref sig .tc .vmem S1000x2560 .f32) (harg3 : arg3.IsWhole) (arg4 : Memref sig .tc .vmem S10240x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S128x128 .f32) (harg7 : arg7.IsWhole) (arg8 : Memref sig .tc .vmem S1x128 .f32) (harg8 : arg8.IsWhole) (arg9 : Memref sig .tc .vmem S1000x128 .f32) (harg9 : arg9.IsWhole) (arg10 : Memref sig .tc .vmem S1000x128 .f32) (harg10 : arg10.IsWhole) (arg11 : Memref sig .tc .vmem S1000x128 .f32) (harg11 : arg11.IsWhole)
    (h1 : ¬isFirst i) (h2 : isLast i) (h3 : ¬isInner i) (h4 : isEpilogue i)
    (x0 : Vec F S1000x2560 .f32) (x1 : Vec F S1000x2560 .f32) (x2 : Vec F S10240x128 .f32) (x3 : Vec F S128x128 .f32) (x4 : Vec F S1x128 .f32) (x5 : Vec F S128x128 .f32) (x6 : Vec F S1x128 .f32) (xsN xsE : Vec F S1000x128 .f32) (y : S1000x128.Idx) :
    ∃ pc ∈ (runLast c i arg2 harg2 arg3 harg3 arg4 harg4 arg5 harg5 arg6 harg6 arg7 harg7 arg8 harg8 arg9 harg9 arg10 harg10 arg11 harg11 h1 h2 h3 h4 x0 x1 x2 x3 x4 x5 x6 xsN xsE).2.2.1, y ∈ pc.1.set :=
  View.cover_of_tiledL (runLast c i arg2 harg2 arg3 harg3 arg4 harg4 arg5 harg5 arg6 harg6 arg7 harg7 arg8 harg8 arg9 harg9 arg10 harg10 arg11 harg11 h1 h2 h3 h4 x0 x1 x2 x3 x4 x5 x6 xsN xsE).2.2.1 S1000x128.size (by sl_kernel_rfl) y

theorem canonN_last (c : Dev nD) (i : grid0.Coords) (arg2 : Memref sig .tc .vmem S1000x2560 .f32) (harg2 : arg2.IsWhole) (arg3 : Memref sig .tc .vmem S1000x2560 .f32) (harg3 : arg3.IsWhole) (arg4 : Memref sig .tc .vmem S10240x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S128x128 .f32) (harg7 : arg7.IsWhole) (arg8 : Memref sig .tc .vmem S1x128 .f32) (harg8 : arg8.IsWhole) (arg9 : Memref sig .tc .vmem S1000x128 .f32) (harg9 : arg9.IsWhole) (arg10 : Memref sig .tc .vmem S1000x128 .f32) (harg10 : arg10.IsWhole) (arg11 : Memref sig .tc .vmem S1000x128 .f32) (harg11 : arg11.IsWhole)
    (h1 : ¬isFirst i) (h2 : isLast i) (h3 : ¬isInner i) (h4 : isEpilogue i)
    (x0 : Vec F S1000x2560 .f32) (x1 : Vec F S1000x2560 .f32) (x2 : Vec F S10240x128 .f32) (x3 : Vec F S128x128 .f32) (x4 : Vec F S1x128 .f32) (x5 : Vec F S128x128 .f32) (x6 : Vec F S1x128 .f32) (xsN xsE : Vec F S1000x128 .f32) :
    View.canon (runLast c i arg2 harg2 arg3 harg3 arg4 harg4 arg5 harg5 arg6 harg6 arg7 harg7 arg8 harg8 arg9 harg9 arg10 harg10 arg11 harg11 h1 h2 h3 h4 x0 x1 x2 x3 x4 x5 x6 xsN xsE).2.1 = k0_pay5 i (fRows x2 i) x0 xsN := by
  unfold runLast
  dsimp only
  sl_unfold_words
  rw [View.canon_unit_zero hz]
  simp only [View.readAt_eq_ld, harg2.read_unread, harg3.read_unread, harg4.read_unread, harg5.read_unread, harg6.read_unread, harg7.read_unread, harg8.read_unread, harg10.read_unread, harg11.read_unread, View.ld_unit_zero (S := S1000x2560) hz, View.ld_unit_zero (S := S1000x128) hz, View.ld_unit_zero (S := S128x128) hz, View.ld_unit_zero (S := S1x128) hz]
  all_goals rfl

theorem canonE_last (c : Dev nD) (i : grid0.Coords) (arg2 : Memref sig .tc .vmem S1000x2560 .f32) (harg2 : arg2.IsWhole) (arg3 : Memref sig .tc .vmem S1000x2560 .f32) (harg3 : arg3.IsWhole) (arg4 : Memref sig .tc .vmem S10240x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S128x128 .f32) (harg7 : arg7.IsWhole) (arg8 : Memref sig .tc .vmem S1x128 .f32) (harg8 : arg8.IsWhole) (arg9 : Memref sig .tc .vmem S1000x128 .f32) (harg9 : arg9.IsWhole) (arg10 : Memref sig .tc .vmem S1000x128 .f32) (harg10 : arg10.IsWhole) (arg11 : Memref sig .tc .vmem S1000x128 .f32) (harg11 : arg11.IsWhole)
    (h1 : ¬isFirst i) (h2 : isLast i) (h3 : ¬isInner i) (h4 : isEpilogue i)
    (x0 : Vec F S1000x2560 .f32) (x1 : Vec F S1000x2560 .f32) (x2 : Vec F S10240x128 .f32) (x3 : Vec F S128x128 .f32) (x4 : Vec F S1x128 .f32) (x5 : Vec F S128x128 .f32) (x6 : Vec F S1x128 .f32) (xsN xsE : Vec F S1000x128 .f32) :
    View.canon (runLast c i arg2 harg2 arg3 harg3 arg4 harg4 arg5 harg5 arg6 harg6 arg7 harg7 arg8 harg8 arg9 harg9 arg10 harg10 arg11 harg11 h1 h2 h3 h4 x0 x1 x2 x3 x4 x5 x6 xsN xsE).2.2.1 = k0_pay6 i (fRows x2 i) x1 xsE := by
  unfold runLast
  dsimp only
  sl_unfold_words
  rw [View.canon_unit_zero hz]
  simp only [View.readAt_eq_ld, harg2.read_unread, harg3.read_unread, harg4.read_unread, harg5.read_unread, harg6.read_unread, harg7.read_unread, harg8.read_unread, harg10.read_unread, harg11.read_unread, View.ld_unit_zero (S := S1000x2560) hz, View.ld_unit_zero (S := S1000x128) hz, View.ld_unit_zero (S := S128x128) hz, View.ld_unit_zero (S := S1x128) hz]
  all_goals rfl

theorem canonO_last (c : Dev nD) (i : grid0.Coords) (arg2 : Memref sig .tc .vmem S1000x2560 .f32) (harg2 : arg2.IsWhole) (arg3 : Memref sig .tc .vmem S1000x2560 .f32) (harg3 : arg3.IsWhole) (arg4 : Memref sig .tc .vmem S10240x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S128x128 .f32) (harg7 : arg7.IsWhole) (arg8 : Memref sig .tc .vmem S1x128 .f32) (harg8 : arg8.IsWhole) (arg9 : Memref sig .tc .vmem S1000x128 .f32) (harg9 : arg9.IsWhole) (arg10 : Memref sig .tc .vmem S1000x128 .f32) (harg10 : arg10.IsWhole) (arg11 : Memref sig .tc .vmem S1000x128 .f32) (harg11 : arg11.IsWhole)
    (h1 : ¬isFirst i) (h2 : isLast i) (h3 : ¬isInner i) (h4 : isEpilogue i)
    (x0 : Vec F S1000x2560 .f32) (x1 : Vec F S1000x2560 .f32) (x2 : Vec F S10240x128 .f32) (x3 : Vec F S128x128 .f32) (x4 : Vec F S1x128 .f32) (x5 : Vec F S128x128 .f32) (x6 : Vec F S1x128 .f32) (xsN xsE : Vec F S1000x128 .f32) :
    View.canon (runLast c i arg2 harg2 arg3 harg3 arg4 harg4 arg5 harg5 arg6 harg6 arg7 harg7 arg8 harg8 arg9 harg9 arg10 harg10 arg11 harg11 h1 h2 h3 h4 x0 x1 x2 x3 x4 x5 x6 xsN xsE).1
      = k0_pay9 (k0_pay5 i (fRows x2 i) x0 xsN) x3 x4 (k0_pay6 i (fRows x2 i) x1 xsE) x5 x6 := by
  unfold runLast
  dsimp only
  sl_unfold_words
  rw [View.canon_unit_zero hz, View.readCov_unit_zero (S := S1000x128) _ hz, View.readCov_unit_zero (S := S1000x128) _ hz]
  simp only [View.readAt_eq_ld, harg2.read_unread, harg3.read_unread, harg4.read_unread, harg5.read_unread, harg6.read_unread, harg7.read_unread, harg8.read_unread, harg10.read_unread, harg11.read_unread, View.ld_unit_zero (S := S1000x2560) hz, View.ld_unit_zero (S := S1000x128) hz, View.ld_unit_zero (S := S128x128) hz, View.ld_unit_zero (S := S1x128) hz]
  all_goals rfl

end Cert.KernelIdeal.Body

end
-- ==== Proof.Ideal.Accum.lean ====
/-
  The accumulation across the contraction tiles. At point `t` the body is handed the two adjacency blocks as their
  fetches left them: the block's part inside the matrix, and beyond it words nothing names. Away from the last
  contraction tile every block lies inside the matrix; at the last one the columns past 10000 are beyond it, and there
  the body's mask — column index below 10000 — selects zero instead. So what the body adds to the accumulators does
  not depend on those words, and the accumulators after each point are a function of the argument arrays alone: the
  running sum, restarted at each row tile's first contraction tile.
-/
import proofs.«157794_g77704548319642_cont_9to1_m_740_10_alg».proof.Proof.Ideal.Pieces

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The part of each adjacency block its fetch moves -/

theorem rowsA : ∀ t : Fin cfg0.N, win0_0.xsize (grid0.coords t) 0 = 1000 := by decide +kernel
theorem colsA_inner : ∀ t : Fin cfg0.N, t.val % 4 ≠ 3 → win0_0.xsize (grid0.coords t) 1 = 2560 := by decide +kernel
theorem colsA_last : ∀ t : Fin cfg0.N, t.val % 4 = 3 → win0_0.xsize (grid0.coords t) 1 = 2320 := by decide +kernel
theorem rowsB : ∀ t : Fin cfg0.N, win0_1.xsize (grid0.coords t) 0 = 1000 := by decide +kernel
theorem colsB_inner : ∀ t : Fin cfg0.N, t.val % 4 ≠ 3 → win0_1.xsize (grid0.coords t) 1 = 2560 := by decide +kernel
theorem colsB_last : ∀ t : Fin cfg0.N, t.val % 4 = 3 → win0_1.xsize (grid0.coords t) 1 = 2320 := by decide +kernel
theorem tile_last : ∀ t : Fin cfg0.N, t.val % 4 = 3 → ((grid0.coords t) 1).val = 3 := by decide +kernel

/-- Away from the last contraction tile the whole block is moved. -/
theorem movedA_inner (t : Fin cfg0.N) (h : t.val % 4 ≠ 3) (j : S1000x2560.Idx) : win0_0.moved (grid0.coords t) j = true :=
  (win0_0.moved_iff _ j).mpr fun a => by
    match a with
    | ⟨0, _⟩ => show (j 0).val < win0_0.xsize (grid0.coords t) 0; rw [rowsA t]; exact (j 0).isLt
    | ⟨1, _⟩ => show (j 1).val < win0_0.xsize (grid0.coords t) 1; rw [colsA_inner t h]; exact (j 1).isLt
theorem movedB_inner (t : Fin cfg0.N) (h : t.val % 4 ≠ 3) (j : S1000x2560.Idx) : win0_1.moved (grid0.coords t) j = true :=
  (win0_1.moved_iff _ j).mpr fun a => by
    match a with
    | ⟨0, _⟩ => show (j 0).val < win0_1.xsize (grid0.coords t) 0; rw [rowsB t]; exact (j 0).isLt
    | ⟨1, _⟩ => show (j 1).val < win0_1.xsize (grid0.coords t) 1; rw [colsB_inner t h]; exact (j 1).isLt

/-- At the last contraction tile an entry the fetch does not move lies in a column past 2320 of the block. -/
theorem colA_of_not_moved (t : Fin cfg0.N) (h : t.val % 4 = 3) (j : S1000x2560.Idx)
    (hm : ¬win0_0.moved (grid0.coords t) j = true) : 2320 ≤ (j 1).val := by
  by_contra hlt
  refine hm ((win0_0.moved_iff _ j).mpr fun a => ?_)
  match a with
  | ⟨0, _⟩ => show (j 0).val < win0_0.xsize (grid0.coords t) 0; rw [rowsA t]; exact (j 0).isLt
  | ⟨1, _⟩ => show (j 1).val < win0_0.xsize (grid0.coords t) 1; rw [colsA_last t h]; omega
theorem colB_of_not_moved (t : Fin cfg0.N) (h : t.val % 4 = 3) (j : S1000x2560.Idx)
    (hm : ¬win0_1.moved (grid0.coords t) j = true) : 2320 ≤ (j 1).val := by
  by_contra hlt
  refine hm ((win0_1.moved_iff _ j).mpr fun a => ?_)
  match a with
  | ⟨0, _⟩ => show (j 0).val < win0_1.xsize (grid0.coords t) 0; rw [rowsB t]; exact (j 0).isLt
  | ⟨1, _⟩ => show (j 1).val < win0_1.xsize (grid0.coords t) 1; rw [colsB_last t h]; omega

/-- Away from the last contraction tile the block does not depend on what the buffer held. -/
theorem fillA_inner (t : Fin cfg0.N) (h : t.val % 4 ≠ 3) (d d' : S1000x2560.Idx → Elt F .f32)
    (g : (win0_0.xblock (grid0.coords t)).Idx → Elt F .f32) :
    win0_0.fill (grid0.coords t) d g = win0_0.fill (grid0.coords t) d' g := by
  funext j; unfold Window.fill; rw [dif_pos (movedA_inner t h j), dif_pos (movedA_inner t h j)]
theorem fillB_inner (t : Fin cfg0.N) (h : t.val % 4 ≠ 3) (d d' : S1000x2560.Idx → Elt F .f32)
    (g : (win0_1.xblock (grid0.coords t)).Idx → Elt F .f32) :
    win0_1.fill (grid0.coords t) d g = win0_1.fill (grid0.coords t) d' g := by
  funext j; unfold Window.fill; rw [dif_pos (movedB_inner t h j), dif_pos (movedB_inner t h j)]

/-! ## The mask at the last contraction tile -/

/-- At contraction tile 3 block column `n` is matrix column `7680 + n`: at or past 10000 from `n = 2320` on, where
    the mask bit is off. -/
theorem mask_off (i : grid0.Coords) (hi : (i 1).val = 3) (j : S1000x2560.Idx) (hj : 2320 ≤ (j 1).val) : k0_pay4 i j ≠ 1#1 := by
  have hj2 : (j 1).val < 2560 := (j 1).isLt
  unfold k0_pay4
  dsimp only [cmpi, addi, broadcast, iota, List.foldl]
  rw [hi]
  have e : (0 * ![1000, 2560] 1 + (j 1).val) = (j 1).val := by simp
  rw [e]
  generalize (j 1).val = n at hj hj2
  have hm : Scalar.muli 3#32 2560#32 = 7680#32 := by decide
  rw [hm]
  have hs : (IntOp.addi 7680#32 (BitVec.ofNat 32 n)).slt 10000#32 = false := by
    unfold IntOp.addi
    rw [BitVec.slt_eq_decide]
    have h1 : (7680#32 + BitVec.ofNat 32 n).toNat = 7680 + n := by
      rw [BitVec.toNat_add, BitVec.toNat_ofNat, BitVec.toNat_ofNat]; omega
    have h2 : (7680#32 + BitVec.ofNat 32 n).toInt = 7680 + n := by
      rw [BitVec.toInt_eq_toNat_cond, h1]; split <;> omega
    have h3 : (10000#32 : BitVec 32).toInt = 10000 := by decide
    rw [h2, h3]
    simp only [decide_eq_false_iff_not]; omega
  unfold IntOp.cmpi
  simp only [hs]
  decide

/-- So the masked block does not depend on what the buffer held beyond the matrix. -/
theorem maskedA (t : Fin cfg0.N) (h : t.val % 4 = 3) (d d' z : S1000x2560.Idx → Elt F .f32)
    (g : (win0_0.xblock (grid0.coords t)).Idx → Elt F .f32) :
    select (k0_pay4 (grid0.coords t)) (win0_0.fill (grid0.coords t) d g) z
      = select (k0_pay4 (grid0.coords t)) (win0_0.fill (grid0.coords t) d' g) z := by
  funext j
  show Scalar.select (k0_pay4 (grid0.coords t) j) (win0_0.fill (grid0.coords t) d g j) (z j)
    = Scalar.select (k0_pay4 (grid0.coords t) j) (win0_0.fill (grid0.coords t) d' g j) (z j)
  by_cases hm : win0_0.moved (grid0.coords t) j = true
  · unfold Window.fill; rw [dif_pos hm, dif_pos hm]
  · have hoff := mask_off (grid0.coords t) (tile_last t h) j (colA_of_not_moved t h j hm)
    unfold Scalar.select; exact (if_neg hoff).trans (if_neg hoff).symm
theorem maskedB (t : Fin cfg0.N) (h : t.val % 4 = 3) (d d' z : S1000x2560.Idx → Elt F .f32)
    (g : (win0_1.xblock (grid0.coords t)).Idx → Elt F .f32) :
    select (k0_pay4 (grid0.coords t)) (win0_1.fill (grid0.coords t) d g) z
      = select (k0_pay4 (grid0.coords t)) (win0_1.fill (grid0.coords t) d' g) z := by
  funext j
  show Scalar.select (k0_pay4 (grid0.coords t) j) (win0_1.fill (grid0.coords t) d g j) (z j)
    = Scalar.select (k0_pay4 (grid0.coords t) j) (win0_1.fill (grid0.coords t) d' g j) (z j)
  by_cases hm : win0_1.moved (grid0.coords t) j = true
  · unfold Window.fill; rw [dif_pos hm, dif_pos hm]
  · have hoff := mask_off (grid0.coords t) (tile_last t h) j (colB_of_not_moved t h j hm)
    unfold Scalar.select; exact (if_neg hoff).trans (if_neg hoff).symm

/-- The masked partial product added at the last tile does not depend on those words either. -/
theorem pay5_fill (t : Fin cfg0.N) (h : t.val % 4 = 3) (d d' : S1000x2560.Idx → Elt F .f32)
    (g : (win0_0.xblock (grid0.coords t)).Idx → Elt F .f32) (v5 : Vec F S2560x128 .f32) (p : Vec F S1000x128 .f32) :
    k0_pay5 (grid0.coords t) v5 (win0_0.fill (grid0.coords t) d g) p = k0_pay5 (grid0.coords t) v5 (win0_0.fill (grid0.coords t) d' g) p := by
  unfold k0_pay5; dsimp only; rw [maskedA t h d d']
theorem pay6_fill (t : Fin cfg0.N) (h : t.val % 4 = 3) (d d' : S1000x2560.Idx → Elt F .f32)
    (g : (win0_1.xblock (grid0.coords t)).Idx → Elt F .f32) (v5 : Vec F S2560x128 .f32) (p : Vec F S1000x128 .f32) :
    k0_pay6 (grid0.coords t) v5 (win0_1.fill (grid0.coords t) d g) p = k0_pay6 (grid0.coords t) v5 (win0_1.fill (grid0.coords t) d' g) p := by
  unfold k0_pay6; dsimp only; rw [maskedB t h d d']

/-! ## The accumulators after each point -/

/-- The words written beyond the matrix in the blocks the accumulation is stated over: zeros. -/
abbrev zfill : S1000x2560.Idx → Elt F .f32 := fun _ => Scalar.ofBits .f32 0#32

/-- The two adjacency blocks at point `t`: the part inside the matrix, zeros beyond. -/
def blkA (c : Dev nD) (t : Fin cfg0.N) : Vec F S1000x2560 .f32 := win0_0.fill (grid0.coords t) zfill (iblk m c 0 t)
def blkB (c : Dev nD) (t : Fin cfg0.N) : Vec F S1000x2560 .f32 := win0_1.fill (grid0.coords t) zfill (iblk m c 1 t)

/-- One point's step on the two accumulators `p`: at contraction tile 0 from zero, at tile 3 masked. -/
def accStep (t : Fin cfg0.N) (x0 x1 : Vec F S1000x2560 .f32) (x2 : Vec F S10240x128 .f32)
    (p : Vec F S1000x128 .f32 × Vec F S1000x128 .f32) : Vec F S1000x128 .f32 × Vec F S1000x128 .f32 :=
  if t.val % 4 = 0 then (k0_pay7 (fRows x2 (grid0.coords t)) x0 k0_pay1, k0_pay8 (fRows x2 (grid0.coords t)) x1 k0_pay2)
  else if t.val % 4 = 3 then (k0_pay5 (grid0.coords t) (fRows x2 (grid0.coords t)) x0 p.1, k0_pay6 (grid0.coords t) (fRows x2 (grid0.coords t)) x1 p.2)
  else (k0_pay7 (fRows x2 (grid0.coords t)) x0 p.1, k0_pay8 (fRows x2 (grid0.coords t)) x1 p.2)

/-- The step does not depend on the words beyond the matrix. -/
theorem accStep_fill (c : Dev nD) (t : Fin cfg0.N) (d0 d1 : S1000x2560.Idx → Elt F .f32) (x2 : Vec F S10240x128 .f32)
    (p : Vec F S1000x128 .f32 × Vec F S1000x128 .f32) :
    accStep t (win0_0.fill (grid0.coords t) d0 (iblk m c 0 t)) (win0_1.fill (grid0.coords t) d1 (iblk m c 1 t)) x2 p
      = accStep t (blkA m c t) (blkB m c t) x2 p := by
  unfold blkA blkB
  by_cases h3 : t.val % 4 = 3
  · have h0 : ¬t.val % 4 = 0 := by omega
    unfold accStep
    rw [if_neg h0, if_pos h3, if_neg h0, if_pos h3, pay5_fill t h3 d0 zfill, pay6_fill t h3 d1 zfill]
  · rw [fillA_inner t h3 d0 zfill, fillB_inner t h3 d1 zfill]

/-- The two accumulators after the body at position `n`. -/
def accAt (c : Dev nD) : (n : ℕ) → n < cfg0.N → Vec F S1000x128 .f32 × Vec F S1000x128 .f32
  | 0, hn => accStep ⟨0, hn⟩ (blkA m c ⟨0, hn⟩) (blkB m c ⟨0, hn⟩) (iblk m c 2 ⟨0, hn⟩) (k0_pay1, k0_pay2)
  | n + 1, hn => accStep ⟨n + 1, hn⟩ (blkA m c ⟨n + 1, hn⟩) (blkB m c ⟨n + 1, hn⟩) (iblk m c 2 ⟨n + 1, hn⟩) (accAt c n (Nat.lt_of_succ_lt hn))

theorem accAt_eq (c : Dev nD) (t : Fin cfg0.N) :
    accAt m c t.val t.isLt
      = accStep t (blkA m c t) (blkB m c t) (iblk m c 2 t) (accAt m c (t.val - 1) (Nat.lt_of_le_of_lt (Nat.sub_le _ _) t.isLt)) := by
  obtain ⟨n, hn⟩ := t
  cases n with
  | zero =>
    show accStep ⟨0, hn⟩ _ _ _ _ = accStep ⟨0, hn⟩ _ _ _ _
    unfold accStep; rw [if_pos (Nat.zero_mod 4), if_pos (Nat.zero_mod 4)]
  | succ n => rfl

/-- The result block the body stores at a last contraction tile: both accumulators projected, biased, the first
    clamped below at zero, added. -/
def outAt (c : Dev nD) (t : Fin cfg0.N) : Vec F S1000x128 .f32 :=
  k0_pay9 (accAt m c t.val t.isLt).1 (iblk m c 3 t) (iblk m c 4 t) (accAt m c t.val t.isLt).2 (iblk m c 5 t) (iblk m c 6 t)

/-! ## The invariant and the proof data -/

/-- Before position `n`: at the region's entry the plain invariant (accumulators at anything); afterwards the two
    accumulators at what the point before left, and the generator register at some state. -/
def PhiS (c : Dev nD) : (n : ℕ) → n ≤ cfg0.N → sProp 𝕄
  | 0, _ => Pipeline.ΦA spec0 c
  | n + 1, hn => iprop(iprop(owns (c : Thread nD τ) scN fullShare ((accAt m c n hn).1) ∗ owns (c : Thread nD τ) scE fullShare ((accAt m c n hn).2)) ∗ (∃ r, prngReg c r))

theorem PhiS_zero (c : Dev nD) (n : ℕ) (h : n ≤ cfg0.N) (hz : n = 0) : PhiS m c n h = Pipeline.ΦA spec0 c := by
  subst hz; rfl
theorem PhiS_succ (c : Dev nD) (n : ℕ) (hn : n < cfg0.N) :
    PhiS m c (n + 1) hn = iprop(iprop(owns (c : Thread nD τ) scN fullShare ((accAt m c n hn).1) ∗ owns (c : Thread nD τ) scE fullShare ((accAt m c n hn).2)) ∗ (∃ r, prngReg c r)) := rfl
theorem PhiS_pos (c : Dev nD) (n : ℕ) (h : n ≤ cfg0.N) (hz : n ≠ 0) :
    PhiS m c n h = iprop(iprop(owns (c : Thread nD τ) scN fullShare ((accAt m c (n - 1) (by omega)).1) ∗ owns (c : Thread nD τ) scE fullShare ((accAt m c (n - 1) (by omega)).2)) ∗ (∃ r, prngReg c r)) := by
  cases n with
  | zero => exact absurd rfl hz
  | succ n => rfl

/-- The proof data of the pipeline on core `c`: the arrays as the region finds them; after the body each adjacency
    window's buffer at its block (zeros beyond the matrix), each resident input's at its block, the result's at the
    stored block; the invariant carrying the accumulators; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => blkA m c t
    | ⟨1, _⟩ => blkB m c t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => outAt m c t
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after_0 (c : Dev nD) (t : Fin cfg0.N) : (dats m 0 c).after 0 t = blkA m c t := by dsimp only [dats]
theorem after_1 (c : Dev nD) (t : Fin cfg0.N) : (dats m 0 c).after 1 t = blkB m c t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = outAt m c t := by dsimp only [dats]

/-- Each adjacency window is fetched at every point: its buffer holds the block's part inside the matrix, and
    beyond it what the buffer held. -/
theorem before_0 (c : Dev nD) (t : Fin cfg0.N) (d) :
    (dats m 0 c).before 0 t d = win0_0.fill (grid0.coords t) d (iblk m c 0 t) := by
  unfold Dat.before; rw [if_pos (fetch0_0 t)]; unfold Dat.fetched Dat.blockOf iblk; rw [A_eq]; try rfl
theorem before_1 (c : Dev nD) (t : Fin cfg0.N) (d) :
    (dats m 0 c).before 1 t d = win0_1.fill (grid0.coords t) d (iblk m c 1 t) := by
  unfold Dat.before; rw [if_pos (fetch0_1 t)]; unfold Dat.fetched Dat.blockOf iblk; rw [A_eq]; try rfl
/-- Each resident input's buffer holds its block at every point. -/
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d
theorem before_5 (c : Dev nD) (t : Fin cfg0.N) (d) : (dats m 0 c).before 5 t d = iblk m c 5 t :=
  before0_5_of m (dats m 0 c) (A_eq m c 5) (after_5 m c) t d
theorem before_6 (c : Dev nD) (t : Fin cfg0.N) (d) : (dats m 0 c).before 6 t d = iblk m c 6 t :=
  before0_6_of m (dats m 0 c) (A_eq m c 6) (after_6 m c) t d

end Cert.KernelIdeal.Body

end
-- ==== Proof.Ideal.Obligation.lean ====
/-
  The body obligation. At every point the body is handed the invariant (the two accumulators at what the point before
  left, at anything at the region's entry), the adjacency blocks as fetched, the resident inputs at their blocks and
  the result's buffer; it returns the invariant at the next position, the inputs as they were, and the result's buffer
  untouched — or, at a last contraction tile, holding the stored block. Which of the three cases of the body applies
  is the point's residue modulo 4.
-/
import proofs.«157794_g77704548319642_cont_9to1_m_740_10_alg».proof.Proof.Ideal.Accum

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What a step leaves, whatever the words beyond the matrix -/

theorem stepN_first (c : Dev nD) (t : Fin cfg0.N) (h0 : t.val % 4 = 0) (d0 d1 : S1000x2560.Idx → Elt F .f32)
    (p : Vec F S1000x128 .f32 × Vec F S1000x128 .f32) :
    (accStep t (blkA m c t) (blkB m c t) (iblk m c 2 t) p).1 = k0_pay7 (fRows (iblk m c 2 t) (grid0.coords t)) (win0_0.fill (grid0.coords t) d0 (iblk m c 0 t)) k0_pay1 := by
  rw [← accStep_fill m c t d0 d1]; unfold accStep; rw [if_pos h0]
theorem stepE_first (c : Dev nD) (t : Fin cfg0.N) (h0 : t.val % 4 = 0) (d0 d1 : S1000x2560.Idx → Elt F .f32)
    (p : Vec F S1000x128 .f32 × Vec F S1000x128 .f32) :
    (accStep t (blkA m c t) (blkB m c t) (iblk m c 2 t) p).2 = k0_pay8 (fRows (iblk m c 2 t) (grid0.coords t)) (win0_1.fill (grid0.coords t) d1 (iblk m c 1 t)) k0_pay2 := by
  rw [← accStep_fill m c t d0 d1]; unfold accStep; rw [if_pos h0]
theorem stepN_inner (c : Dev nD) (t : Fin cfg0.N) (h0 : ¬t.val % 4 = 0) (h3 : ¬t.val % 4 = 3) (d0 d1 : S1000x2560.Idx → Elt F .f32)
    (p : Vec F S1000x128 .f32 × Vec F S1000x128 .f32) :
    (accStep t (blkA m c t) (blkB m c t) (iblk m c 2 t) p).1 = k0_pay7 (fRows (iblk m c 2 t) (grid0.coords t)) (win0_0.fill (grid0.coords t) d0 (iblk m c 0 t)) p.1 := by
  rw [← accStep_fill m c t d0 d1]; unfold accStep; rw [if_neg h0, if_neg h3]
theorem stepE_inner (c : Dev nD) (t : Fin cfg0.N) (h0 : ¬t.val % 4 = 0) (h3 : ¬t.val % 4 = 3) (d0 d1 : S1000x2560.Idx → Elt F .f32)
    (p : Vec F S1000x128 .f32 × Vec F S1000x128 .f32) :
    (accStep t (blkA m c t) (blkB m c t) (iblk m c 2 t) p).2 = k0_pay8 (fRows (iblk m c 2 t) (grid0.coords t)) (win0_1.fill (grid0.coords t) d1 (iblk m c 1 t)) p.2 := by
  rw [← accStep_fill m c t d0 d1]; unfold accStep; rw [if_neg h0, if_neg h3]
theorem stepN_last (c : Dev nD) (t : Fin cfg0.N) (h0 : ¬t.val % 4 = 0) (h3 : t.val % 4 = 3) (d0 d1 : S1000x2560.Idx → Elt F .f32)
    (p : Vec F S1000x128 .f32 × Vec F S1000x128 .f32) :
    (accStep t (blkA m c t) (blkB m c t) (iblk m c 2 t) p).1 = k0_pay5 (grid0.coords t) (fRows (iblk m c 2 t) (grid0.coords t)) (win0_0.fill (grid0.coords t) d0 (iblk m c 0 t)) p.1 := by
  rw [← accStep_fill m c t d0 d1]; unfold accStep; rw [if_neg h0, if_pos h3]
theorem stepE_last (c : Dev nD) (t : Fin cfg0.N) (h0 : ¬t.val % 4 = 0) (h3 : t.val % 4 = 3) (d0 d1 : S1000x2560.Idx → Elt F .f32)
    (p : Vec F S1000x128 .f32 × Vec F S1000x128 .f32) :
    (accStep t (blkA m c t) (blkB m c t) (iblk m c 2 t) p).2 = k0_pay6 (grid0.coords t) (fRows (iblk m c 2 t) (grid0.coords t)) (win0_1.fill (grid0.coords t) d1 (iblk m c 1 t)) p.2 := by
  rw [← accStep_fill m c t d0 d1]; unfold accStep; rw [if_neg h0, if_pos h3]
/-- The stored block at a last contraction tile. -/
theorem out_last (c : Dev nD) (t : Fin cfg0.N) (h0 : ¬t.val % 4 = 0) (h3 : t.val % 4 = 3) (d0 d1 : S1000x2560.Idx → Elt F .f32) :
    outAt m c t = k0_pay9 (k0_pay5 (grid0.coords t) (fRows (iblk m c 2 t) (grid0.coords t)) (win0_0.fill (grid0.coords t) d0 (iblk m c 0 t)) (accAt m c (t.val - 1) (Nat.lt_of_le_of_lt (Nat.sub_le _ _) t.isLt)).1) (iblk m c 3 t) (iblk m c 4 t)
      (k0_pay6 (grid0.coords t) (fRows (iblk m c 2 t) (grid0.coords t)) (win0_1.fill (grid0.coords t) d1 (iblk m c 1 t)) (accAt m c (t.val - 1) (Nat.lt_of_le_of_lt (Nat.sub_le _ _) t.isLt)).2) (iblk m c 5 t) (iblk m c 6 t) := by
  unfold outAt; rw [accAt_eq m c t, stepN_last m c t h0 h3 d0 d1, stepE_last m c t h0 h3 d0 d1]

/-! ## What the obligation asks of each window -/

theorem leaves_0 (c : Dev nD) (t : Fin cfg0.N) :
    (dats m 0 c).leaves 0 t = iprop(∃ d, owns (c : Thread nD τ) (ms0 t) fullShare (win0_0.fill (grid0.coords t) d (iblk m c 0 t))) := by
  unfold Dat.leaves; rw [live_0 t]
  show iprop(∃ d, owns (c : Thread nD τ) (ms0 t) fullShare (win0_0.fill (grid0.coords t) d (win0_0.cut (grid0.coords t) ((dats m 0 c).after 0 t)))) = _
  rw [after_0]; unfold blkA; rw [Window.cut_fill]
theorem leaves_1 (c : Dev nD) (t : Fin cfg0.N) :
    (dats m 0 c).leaves 1 t = iprop(∃ d, owns (c : Thread nD τ) (ms1 t) fullShare (win0_1.fill (grid0.coords t) d (iblk m c 1 t))) := by
  unfold Dat.leaves; rw [live_1 t]
  show iprop(∃ d, owns (c : Thread nD τ) (ms1 t) fullShare (win0_1.fill (grid0.coords t) d (win0_1.cut (grid0.coords t) ((dats m 0 c).after 1 t)))) = _
  rw [after_1]; unfold blkB; rw [Window.cut_fill]
theorem leaves_2 (c : Dev nD) (t : Fin cfg0.N) : (dats m 0 c).leaves 2 t = owns (c : Thread nD τ) (ms2 t) fullShare (iblk m c 2 t) := by
  unfold Dat.leaves; rw [live_2 t]; show owns (c : Thread nD τ) (ms2 t) fullShare ((dats m 0 c).after 2 t) = _; rw [after_2]
theorem leaves_3 (c : Dev nD) (t : Fin cfg0.N) : (dats m 0 c).leaves 3 t = owns (c : Thread nD τ) (ms3 t) fullShare (iblk m c 3 t) := by
  unfold Dat.leaves; rw [live_3 t]; show owns (c : Thread nD τ) (ms3 t) fullShare ((dats m 0 c).after 3 t) = _; rw [after_3]
theorem leaves_4 (c : Dev nD) (t : Fin cfg0.N) : (dats m 0 c).leaves 4 t = owns (c : Thread nD τ) (ms4 t) fullShare (iblk m c 4 t) := by
  unfold Dat.leaves; rw [live_4 t]; show owns (c : Thread nD τ) (ms4 t) fullShare ((dats m 0 c).after 4 t) = _; rw [after_4]
theorem leaves_5 (c : Dev nD) (t : Fin cfg0.N) : (dats m 0 c).leaves 5 t = owns (c : Thread nD τ) (ms5 t) fullShare (iblk m c 5 t) := by
  unfold Dat.leaves; rw [live_5 t]; show owns (c : Thread nD τ) (ms5 t) fullShare ((dats m 0 c).after 5 t) = _; rw [after_5]
theorem leaves_6 (c : Dev nD) (t : Fin cfg0.N) : (dats m 0 c).leaves 6 t = owns (c : Thread nD τ) (ms6 t) fullShare (iblk m c 6 t) := by
  unfold Dat.leaves; rw [live_6 t]; show owns (c : Thread nD τ) (ms6 t) fullShare ((dats m 0 c).after 6 t) = _; rw [after_6]
theorem leaves_7_last (c : Dev nD) (t : Fin cfg0.N) (h3 : t.val % 4 = 3) :
    (dats m 0 c).leaves 7 t = owns (c : Thread nD τ) (ms7 t) fullShare (outAt m c t) := by
  unfold Dat.leaves; rw [live_7 t h3]; show owns (c : Thread nD τ) (ms7 t) fullShare ((dats m 0 c).after 7 t) = _; rw [after_7]

/-! ## The body at a generic point -/

def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d))
    ∗ (∃ d, owns (c : Thread nD τ) (ms7 t) fullShare ((dats m 0 c).before 7 t d)))

def bodyPost (c : Dev nD) (t : Fin cfg0.N) : sProp 𝕄 :=
  iprop((dats m 0 c).Φ t.succ ∗ (dats m 0 c).owesAt () t.succ
    ∗ (dats m 0 c).leaves 0 t ∗ (dats m 0 c).leaves 1 t ∗ (dats m 0 c).leaves 2 t ∗ (dats m 0 c).leaves 3 t
    ∗ (dats m 0 c).leaves 4 t ∗ (dats m 0 c).leaves 5 t ∗ (dats m 0 c).leaves 6 t ∗ (dats m 0 c).leaves 7 t)

set_option maxHeartbeats 8000000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6]
  rw [leaves_0, leaves_1, leaves_2, leaves_3, leaves_4, leaves_5, leaves_6]
  rw [show (dats m 0 c).owesAt () t.succ = (dats m 0 c).owesAt () t.castSucc from rfl]
  rw [show (dats m 0 c).Φ t.succ = PhiS m c (t.val + 1) t.isLt from rfl, PhiS_succ, accAt_eq m c t]
  have hN : t.val < 40 := lt_of_lt_of_eq t.isLt (show cfg0.N = 40 from N_0)
  by_cases h0 : t.val % 4 = 0
  · have h3 : ¬t.val % 4 = 3 := by omega
    rw [Dat.leaves_idle (dats m 0 c) 7 t (idle_7 t h3) (noFlush_7 t h3)]
    by_cases hz : t.val = 0
    · rw [PhiS_castSucc m c t, PhiS_zero m c _ _ hz, PhiA_eq]
      iintro ⟨⟨⟨HN, HE⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((runFirst c (grid0.coords t) (ms0 t) (hs0 t) (ms1 t) (hs1 t) (ms2 t) (hs2 t) (ms3 t) (hs3 t) (ms4 t) (hs4 t) (ms5 t) (hs5 t) (ms6 t) (hs6 t) (ms7 t) (hs7 t) scN (Memref.isWhole_whole _) scE (Memref.isWhole_whole _) ((isFirst_iff t).mpr h0) (fun h => h3 ((isLast_iff t).mp h)) ((isInner_iff t).mpr h3) (fun h => h3 ((isEpilogue_iff t).mp h)) (win0_0.fill (grid0.coords t) d0 (iblk m c 0 t)) (win0_1.fill (grid0.coords t) d1 (iblk m c 1 t)) (iblk m c 2 t) (iblk m c 3 t) (iblk m c 4 t) (iblk m c 5 t) (iblk m c 6 t)).2.2 ((dats m 0 c).before 7 t d7) Set.univ _)
      ·
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [HN]; · iexact HN
        isplitl [HE]; · iexact HE
        iintro ⟨H0, H1, H2, H3, H4, H5, H6, H7, ⟨%esN, HN⟩, ⟨%esE, HE⟩⟩
        isplitl [HN HE Hg]
        · isplitl [HN HE]
          · isplitl [HN]
            · unfold owns; iexists _; isplitr
              swap; · iexact HN
              ipureintro
              exact (View.read_writes_eq_canon _ _ _ (coverN_first c (grid0.coords t) (ms0 t) (hs0 t) (ms1 t) (hs1 t) (ms2 t) (hs2 t) (ms3 t) (hs3 t) (ms4 t) (hs4 t) (ms5 t) (hs5 t) (ms6 t) (hs6 t) (ms7 t) (hs7 t) scN (Memref.isWhole_whole _) scE (Memref.isWhole_whole _) ((isFirst_iff t).mpr h0) (fun h => h3 ((isLast_iff t).mp h)) ((isInner_iff t).mpr h3) (fun h => h3 ((isEpilogue_iff t).mp h)) (win0_0.fill (grid0.coords t) d0 (iblk m c 0 t)) (win0_1.fill (grid0.coords t) d1 (iblk m c 1 t)) (iblk m c 2 t) (iblk m c 3 t) (iblk m c 4 t) (iblk m c 5 t) (iblk m c 6 t))).trans ((canonN_first c (grid0.coords t) (ms0 t) (hs0 t) (ms1 t) (hs1 t) (ms2 t) (hs2 t) (ms3 t) (hs3 t) (ms4 t) (hs4 t) (ms5 t) (hs5 t) (ms6 t) (hs6 t) (ms7 t) (hs7 t) scN (Memref.isWhole_whole _) scE (Memref.isWhole_whole _) ((isFirst_iff t).mpr h0) (fun h => h3 ((isLast_iff t).mp h)) ((isInner_iff t).mpr h3) (fun h => h3 ((isEpilogue_iff t).mp h)) (win0_0.fill (grid0.coords t) d0 (iblk m c 0 t)) (win0_1.fill (grid0.coords t) d1 (iblk m c 1 t)) (iblk m c 2 t) (iblk m c 3 t) (iblk m c 4 t) (iblk m c 5 t) (iblk m c 6 t)).trans (stepN_first m c t h0 d0 d1 _).symm)
            · unfold owns; iexists _; isplitr
              swap; · iexact HE
              ipureintro
              exact (View.read_writes_eq_canon _ _ _ (coverE_first c (grid0.coords t) (ms0 t) (hs0 t) (ms1 t) (hs1 t) (ms2 t) (hs2 t) (ms3 t) (hs3 t) (ms4 t) (hs4 t) (ms5 t) (hs5 t) (ms6 t) (hs6 t) (ms7 t) (hs7 t) scN (Memref.isWhole_whole _) scE (Memref.isWhole_whole _) ((isFirst_iff t).mpr h0) (fun h => h3 ((isLast_iff t).mp h)) ((isInner_iff t).mpr h3) (fun h => h3 ((isEpilogue_iff t).mp h)) (win0_0.fill (grid0.coords t) d0 (iblk m c 0 t)) (win0_1.fill (grid0.coords t) d1 (iblk m c 1 t)) (iblk m c 2 t) (iblk m c 3 t) (iblk m c 4 t) (iblk m c 5 t) (iblk m c 6 t))).trans ((canonE_first c (grid0.coords t) (ms0 t) (hs0 t) (ms1 t) (hs1 t) (ms2 t) (hs2 t) (ms3 t) (hs3 t) (ms4 t) (hs4 t) (ms5 t) (hs5 t) (ms6 t) (hs6 t) (ms7 t) (hs7 t) scN (Memref.isWhole_whole _) scE (Memref.isWhole_whole _) ((isFirst_iff t).mpr h0) (fun h => h3 ((isLast_iff t).mp h)) ((isInner_iff t).mpr h3) (fun h => h3 ((isEpilogue_iff t).mp h)) (win0_0.fill (grid0.coords t) d0 (iblk m c 0 t)) (win0_1.fill (grid0.coords t) d1 (iblk m c 1 t)) (iblk m c 2 t) (iblk m c 3 t) (iblk m c 4 t) (iblk m c 5 t) (iblk m c 6 t)).trans (stepE_first m c t h0 d0 d1 _).symm)
          iexact Hg
        isplitl [Ho]; · iexact Ho
        isplitl [H0]; · iexists d0; iexact H0
        isplitl [H1]; · iexists d1; iexact H1
        isplitl [H2]; · iexact H2
        isplitl [H3]; · iexact H3
        isplitl [H4]; · iexact H4
        isplitl [H5]; · iexact H5
        isplitl [H6]; · iexact H6
        iexists d7; iexact H7
    · rw [PhiS_castSucc m c t, PhiS_pos m c _ _ hz]
      iintro ⟨⟨⟨HN, HE⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((runFirst c (grid0.coords t) (ms0 t) (hs0 t) (ms1 t) (hs1 t) (ms2 t) (hs2 t) (ms3 t) (hs3 t) (ms4 t) (hs4 t) (ms5 t) (hs5 t) (ms6 t) (hs6 t) (ms7 t) (hs7 t) scN (Memref.isWhole_whole _) scE (Memref.isWhole_whole _) ((isFirst_iff t).mpr h0) (fun h => h3 ((isLast_iff t).mp h)) ((isInner_iff t).mpr h3) (fun h => h3 ((isEpilogue_iff t).mp h)) (win0_0.fill (grid0.coords t) d0 (iblk m c 0 t)) (win0_1.fill (grid0.coords t) d1 (iblk m c 1 t)) (iblk m c 2 t) (iblk m c 3 t) (iblk m c 4 t) (iblk m c 5 t) (iblk m c 6 t)).2.2 ((dats m 0 c).before 7 t d7) Set.univ _)
      ·
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [HN]; · iexists _; iexact HN
        isplitl [HE]; · iexists _; iexact HE
        iintro ⟨H0, H1, H2, H3, H4, H5, H6, H7, ⟨%esN, HN⟩, ⟨%esE, HE⟩⟩
        isplitl [HN HE Hg]
        · isplitl [HN HE]
          · isplitl [HN]
            · unfold owns; iexists _; isplitr
              swap; · iexact HN
              ipureintro
              exact (View.read_writes_eq_canon _ _ _ (coverN_first c (grid0.coords t) (ms0 t) (hs0 t) (ms1 t) (hs1 t) (ms2 t) (hs2 t) (ms3 t) (hs3 t) (ms4 t) (hs4 t) (ms5 t) (hs5 t) (ms6 t) (hs6 t) (ms7 t) (hs7 t) scN (Memref.isWhole_whole _) scE (Memref.isWhole_whole _) ((isFirst_iff t).mpr h0) (fun h => h3 ((isLast_iff t).mp h)) ((isInner_iff t).mpr h3) (fun h => h3 ((isEpilogue_iff t).mp h)) (win0_0.fill (grid0.coords t) d0 (iblk m c 0 t)) (win0_1.fill (grid0.coords t) d1 (iblk m c 1 t)) (iblk m c 2 t) (iblk m c 3 t) (iblk m c 4 t) (iblk m c 5 t) (iblk m c 6 t))).trans ((canonN_first c (grid0.coords t) (ms0 t) (hs0 t) (ms1 t) (hs1 t) (ms2 t) (hs2 t) (ms3 t) (hs3 t) (ms4 t) (hs4 t) (ms5 t) (hs5 t) (ms6 t) (hs6 t) (ms7 t) (hs7 t) scN (Memref.isWhole_whole _) scE (Memref.isWhole_whole _) ((isFirst_iff t).mpr h0) (fun h => h3 ((isLast_iff t).mp h)) ((isInner_iff t).mpr h3) (fun h => h3 ((isEpilogue_iff t).mp h)) (win0_0.fill (grid0.coords t) d0 (iblk m c 0 t)) (win0_1.fill (grid0.coords t) d1 (iblk m c 1 t)) (iblk m c 2 t) (iblk m c 3 t) (iblk m c 4 t) (iblk m c 5 t) (iblk m c 6 t)).trans (stepN_first m c t h0 d0 d1 _).symm)
            · unfold owns; iexists _; isplitr
              swap; · iexact HE
              ipureintro
              exact (View.read_writes_eq_canon _ _ _ (coverE_first c (grid0.coords t) (ms0 t) (hs0 t) (ms1 t) (hs1 t) (ms2 t) (hs2 t) (ms3 t) (hs3 t) (ms4 t) (hs4 t) (ms5 t) (hs5 t) (ms6 t) (hs6 t) (ms7 t) (hs7 t) scN (Memref.isWhole_whole _) scE (Memref.isWhole_whole _) ((isFirst_iff t).mpr h0) (fun h => h3 ((isLast_iff t).mp h)) ((isInner_iff t).mpr h3) (fun h => h3 ((isEpilogue_iff t).mp h)) (win0_0.fill (grid0.coords t) d0 (iblk m c 0 t)) (win0_1.fill (grid0.coords t) d1 (iblk m c 1 t)) (iblk m c 2 t) (iblk m c 3 t) (iblk m c 4 t) (iblk m c 5 t) (iblk m c 6 t))).trans ((canonE_first c (grid0.coords t) (ms0 t) (hs0 t) (ms1 t) (hs1 t) (ms2 t) (hs2 t) (ms3 t) (hs3 t) (ms4 t) (hs4 t) (ms5 t) (hs5 t) (ms6 t) (hs6 t) (ms7 t) (hs7 t) scN (Memref.isWhole_whole _) scE (Memref.isWhole_whole _) ((isFirst_iff t).mpr h0) (fun h => h3 ((isLast_iff t).mp h)) ((isInner_iff t).mpr h3) (fun h => h3 ((isEpilogue_iff t).mp h)) (win0_0.fill (grid0.coords t) d0 (iblk m c 0 t)) (win0_1.fill (grid0.coords t) d1 (iblk m c 1 t)) (iblk m c 2 t) (iblk m c 3 t) (iblk m c 4 t) (iblk m c 5 t) (iblk m c 6 t)).trans (stepE_first m c t h0 d0 d1 _).symm)
          iexact Hg
        isplitl [Ho]; · iexact Ho
        isplitl [H0]; · iexists d0; iexact H0
        isplitl [H1]; · iexists d1; iexact H1
        isplitl [H2]; · iexact H2
        isplitl [H3]; · iexact H3
        isplitl [H4]; · iexact H4
        isplitl [H5]; · iexact H5
        isplitl [H6]; · iexact H6
        iexists d7; iexact H7
  · have hz : t.val ≠ 0 := fun h => h0 (by rw [h])
    by_cases h3 : t.val % 4 = 3
    · rw [leaves_7_last m c t h3]
      rw [PhiS_castSucc m c t, PhiS_pos m c _ _ hz]
      iintro ⟨⟨⟨HN, HE⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((runLast c (grid0.coords t) (ms0 t) (hs0 t) (ms1 t) (hs1 t) (ms2 t) (hs2 t) (ms3 t) (hs3 t) (ms4 t) (hs4 t) (ms5 t) (hs5 t) (ms6 t) (hs6 t) (ms7 t) (hs7 t) scN (Memref.isWhole_whole _) scE (Memref.isWhole_whole _) (fun h => h0 ((isFirst_iff t).mp h)) ((isLast_iff t).mpr h3) (fun h => (isInner_iff t).mp h h3) ((isEpilogue_iff t).mpr h3) (win0_0.fill (grid0.coords t) d0 (iblk m c 0 t)) (win0_1.fill (grid0.coords t) d1 (iblk m c 1 t)) (iblk m c 2 t) (iblk m c 3 t) (iblk m c 4 t) (iblk m c 5 t) (iblk m c 6 t) (accAt m c (t.val - 1) (Nat.lt_of_le_of_lt (Nat.sub_le _ _) t.isLt)).1 (accAt m c (t.val - 1) (Nat.lt_of_le_of_lt (Nat.sub_le _ _) t.isLt)).2).2.2.2 Set.univ _)
      ·
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexists _; iexact H7
        isplitl [HN]; · iexact HN
        isplitl [HE]; · iexact HE
        iintro ⟨H0, H1, H2, H3, H4, H5, H6, ⟨%e7, H7⟩, ⟨%esN, HN⟩, ⟨%esE, HE⟩⟩
        isplitl [HN HE Hg]
        · isplitl [HN HE]
          · isplitl [HN]
            · unfold owns; iexists _; isplitr
              swap; · iexact HN
              ipureintro
              exact (View.read_writes_eq_canon _ _ _ (coverN_last c (grid0.coords t) (ms0 t) (hs0 t) (ms1 t) (hs1 t) (ms2 t) (hs2 t) (ms3 t) (hs3 t) (ms4 t) (hs4 t) (ms5 t) (hs5 t) (ms6 t) (hs6 t) (ms7 t) (hs7 t) scN (Memref.isWhole_whole _) scE (Memref.isWhole_whole _) (fun h => h0 ((isFirst_iff t).mp h)) ((isLast_iff t).mpr h3) (fun h => (isInner_iff t).mp h h3) ((isEpilogue_iff t).mpr h3) (win0_0.fill (grid0.coords t) d0 (iblk m c 0 t)) (win0_1.fill (grid0.coords t) d1 (iblk m c 1 t)) (iblk m c 2 t) (iblk m c 3 t) (iblk m c 4 t) (iblk m c 5 t) (iblk m c 6 t) (accAt m c (t.val - 1) (Nat.lt_of_le_of_lt (Nat.sub_le _ _) t.isLt)).1 (accAt m c (t.val - 1) (Nat.lt_of_le_of_lt (Nat.sub_le _ _) t.isLt)).2)).trans ((canonN_last c (grid0.coords t) (ms0 t) (hs0 t) (ms1 t) (hs1 t) (ms2 t) (hs2 t) (ms3 t) (hs3 t) (ms4 t) (hs4 t) (ms5 t) (hs5 t) (ms6 t) (hs6 t) (ms7 t) (hs7 t) scN (Memref.isWhole_whole _) scE (Memref.isWhole_whole _) (fun h => h0 ((isFirst_iff t).mp h)) ((isLast_iff t).mpr h3) (fun h => (isInner_iff t).mp h h3) ((isEpilogue_iff t).mpr h3) (win0_0.fill (grid0.coords t) d0 (iblk m c 0 t)) (win0_1.fill (grid0.coords t) d1 (iblk m c 1 t)) (iblk m c 2 t) (iblk m c 3 t) (iblk m c 4 t) (iblk m c 5 t) (iblk m c 6 t) (accAt m c (t.val - 1) (Nat.lt_of_le_of_lt (Nat.sub_le _ _) t.isLt)).1 (accAt m c (t.val - 1) (Nat.lt_of_le_of_lt (Nat.sub_le _ _) t.isLt)).2).trans (stepN_last m c t h0 h3 d0 d1 _).symm)
            · unfold owns; iexists _; isplitr
              swap; · iexact HE
              ipureintro
              exact (View.read_writes_eq_canon _ _ _ (coverE_last c (grid0.coords t) (ms0 t) (hs0 t) (ms1 t) (hs1 t) (ms2 t) (hs2 t) (ms3 t) (hs3 t) (ms4 t) (hs4 t) (ms5 t) (hs5 t) (ms6 t) (hs6 t) (ms7 t) (hs7 t) scN (Memref.isWhole_whole _) scE (Memref.isWhole_whole _) (fun h => h0 ((isFirst_iff t).mp h)) ((isLast_iff t).mpr h3) (fun h => (isInner_iff t).mp h h3) ((isEpilogue_iff t).mpr h3) (win0_0.fill (grid0.coords t) d0 (iblk m c 0 t)) (win0_1.fill (grid0.coords t) d1 (iblk m c 1 t)) (iblk m c 2 t) (iblk m c 3 t) (iblk m c 4 t) (iblk m c 5 t) (iblk m c 6 t) (accAt m c (t.val - 1) (Nat.lt_of_le_of_lt (Nat.sub_le _ _) t.isLt)).1 (accAt m c (t.val - 1) (Nat.lt_of_le_of_lt (Nat.sub_le _ _) t.isLt)).2)).trans ((canonE_last c (grid0.coords t) (ms0 t) (hs0 t) (ms1 t) (hs1 t) (ms2 t) (hs2 t) (ms3 t) (hs3 t) (ms4 t) (hs4 t) (ms5 t) (hs5 t) (ms6 t) (hs6 t) (ms7 t) (hs7 t) scN (Memref.isWhole_whole _) scE (Memref.isWhole_whole _) (fun h => h0 ((isFirst_iff t).mp h)) ((isLast_iff t).mpr h3) (fun h => (isInner_iff t).mp h h3) ((isEpilogue_iff t).mpr h3) (win0_0.fill (grid0.coords t) d0 (iblk m c 0 t)) (win0_1.fill (grid0.coords t) d1 (iblk m c 1 t)) (iblk m c 2 t) (iblk m c 3 t) (iblk m c 4 t) (iblk m c 5 t) (iblk m c 6 t) (accAt m c (t.val - 1) (Nat.lt_of_le_of_lt (Nat.sub_le _ _) t.isLt)).1 (accAt m c (t.val - 1) (Nat.lt_of_le_of_lt (Nat.sub_le _ _) t.isLt)).2).trans (stepE_last m c t h0 h3 d0 d1 _).symm)
          iexact Hg
        isplitl [Ho]; · iexact Ho
        isplitl [H0]; · iexists d0; iexact H0
        isplitl [H1]; · iexists d1; iexact H1
        isplitl [H2]; · iexact H2
        isplitl [H3]; · iexact H3
        isplitl [H4]; · iexact H4
        isplitl [H5]; · iexact H5
        isplitl [H6]; · iexact H6
        unfold owns; iexists _; isplitr
        swap; · iexact H7
        ipureintro
        exact (View.read_writes_eq_canon _ _ _ (coverO_last c (grid0.coords t) (ms0 t) (hs0 t) (ms1 t) (hs1 t) (ms2 t) (hs2 t) (ms3 t) (hs3 t) (ms4 t) (hs4 t) (ms5 t) (hs5 t) (ms6 t) (hs6 t) (ms7 t) (hs7 t) scN (Memref.isWhole_whole _) scE (Memref.isWhole_whole _) (fun h => h0 ((isFirst_iff t).mp h)) ((isLast_iff t).mpr h3) (fun h => (isInner_iff t).mp h h3) ((isEpilogue_iff t).mpr h3) (win0_0.fill (grid0.coords t) d0 (iblk m c 0 t)) (win0_1.fill (grid0.coords t) d1 (iblk m c 1 t)) (iblk m c 2 t) (iblk m c 3 t) (iblk m c 4 t) (iblk m c 5 t) (iblk m c 6 t) (accAt m c (t.val - 1) (Nat.lt_of_le_of_lt (Nat.sub_le _ _) t.isLt)).1 (accAt m c (t.val - 1) (Nat.lt_of_le_of_lt (Nat.sub_le _ _) t.isLt)).2)).trans ((canonO_last c (grid0.coords t) (ms0 t) (hs0 t) (ms1 t) (hs1 t) (ms2 t) (hs2 t) (ms3 t) (hs3 t) (ms4 t) (hs4 t) (ms5 t) (hs5 t) (ms6 t) (hs6 t) (ms7 t) (hs7 t) scN (Memref.isWhole_whole _) scE (Memref.isWhole_whole _) (fun h => h0 ((isFirst_iff t).mp h)) ((isLast_iff t).mpr h3) (fun h => (isInner_iff t).mp h h3) ((isEpilogue_iff t).mpr h3) (win0_0.fill (grid0.coords t) d0 (iblk m c 0 t)) (win0_1.fill (grid0.coords t) d1 (iblk m c 1 t)) (iblk m c 2 t) (iblk m c 3 t) (iblk m c 4 t) (iblk m c 5 t) (iblk m c 6 t) (accAt m c (t.val - 1) (Nat.lt_of_le_of_lt (Nat.sub_le _ _) t.isLt)).1 (accAt m c (t.val - 1) (Nat.lt_of_le_of_lt (Nat.sub_le _ _) t.isLt)).2).trans (out_last m c t h0 h3 d0 d1).symm)
    · rw [Dat.leaves_idle (dats m 0 c) 7 t (idle_7 t h3) (noFlush_7 t h3)]
      rw [PhiS_castSucc m c t, PhiS_pos m c _ _ hz]
      iintro ⟨⟨⟨HN, HE⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((runInner c (grid0.coords t) (ms0 t) (hs0 t) (ms1 t) (hs1 t) (ms2 t) (hs2 t) (ms3 t) (hs3 t) (ms4 t) (hs4 t) (ms5 t) (hs5 t) (ms6 t) (hs6 t) (ms7 t) (hs7 t) scN (Memref.isWhole_whole _) scE (Memref.isWhole_whole _) (fun h => h0 ((isFirst_iff t).mp h)) (fun h => h3 ((isLast_iff t).mp h)) ((isInner_iff t).mpr h3) (fun h => h3 ((isEpilogue_iff t).mp h)) (win0_0.fill (grid0.coords t) d0 (iblk m c 0 t)) (win0_1.fill (grid0.coords t) d1 (iblk m c 1 t)) (iblk m c 2 t) (iblk m c 3 t) (iblk m c 4 t) (iblk m c 5 t) (iblk m c 6 t) (accAt m c (t.val - 1) (Nat.lt_of_le_of_lt (Nat.sub_le _ _) t.isLt)).1 (accAt m c (t.val - 1) (Nat.lt_of_le_of_lt (Nat.sub_le _ _) t.isLt)).2).2.2 ((dats m 0 c).before 7 t d7) Set.univ _)
      ·
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [HN]; · iexact HN
        isplitl [HE]; · iexact HE
        iintro ⟨H0, H1, H2, H3, H4, H5, H6, H7, ⟨%esN, HN⟩, ⟨%esE, HE⟩⟩
        isplitl [HN HE Hg]
        · isplitl [HN HE]
          · isplitl [HN]
            · unfold owns; iexists _; isplitr
              swap; · iexact HN
              ipureintro
              exact (View.read_writes_eq_canon _ _ _ (coverN_inner c (grid0.coords t) (ms0 t) (hs0 t) (ms1 t) (hs1 t) (ms2 t) (hs2 t) (ms3 t) (hs3 t) (ms4 t) (hs4 t) (ms5 t) (hs5 t) (ms6 t) (hs6 t) (ms7 t) (hs7 t) scN (Memref.isWhole_whole _) scE (Memref.isWhole_whole _) (fun h => h0 ((isFirst_iff t).mp h)) (fun h => h3 ((isLast_iff t).mp h)) ((isInner_iff t).mpr h3) (fun h => h3 ((isEpilogue_iff t).mp h)) (win0_0.fill (grid0.coords t) d0 (iblk m c 0 t)) (win0_1.fill (grid0.coords t) d1 (iblk m c 1 t)) (iblk m c 2 t) (iblk m c 3 t) (iblk m c 4 t) (iblk m c 5 t) (iblk m c 6 t) (accAt m c (t.val - 1) (Nat.lt_of_le_of_lt (Nat.sub_le _ _) t.isLt)).1 (accAt m c (t.val - 1) (Nat.lt_of_le_of_lt (Nat.sub_le _ _) t.isLt)).2)).trans ((canonN_inner c (grid0.coords t) (ms0 t) (hs0 t) (ms1 t) (hs1 t) (ms2 t) (hs2 t) (ms3 t) (hs3 t) (ms4 t) (hs4 t) (ms5 t) (hs5 t) (ms6 t) (hs6 t) (ms7 t) (hs7 t) scN (Memref.isWhole_whole _) scE (Memref.isWhole_whole _) (fun h => h0 ((isFirst_iff t).mp h)) (fun h => h3 ((isLast_iff t).mp h)) ((isInner_iff t).mpr h3) (fun h => h3 ((isEpilogue_iff t).mp h)) (win0_0.fill (grid0.coords t) d0 (iblk m c 0 t)) (win0_1.fill (grid0.coords t) d1 (iblk m c 1 t)) (iblk m c 2 t) (iblk m c 3 t) (iblk m c 4 t) (iblk m c 5 t) (iblk m c 6 t) (accAt m c (t.val - 1) (Nat.lt_of_le_of_lt (Nat.sub_le _ _) t.isLt)).1 (accAt m c (t.val - 1) (Nat.lt_of_le_of_lt (Nat.sub_le _ _) t.isLt)).2).trans (stepN_inner m c t h0 h3 d0 d1 _).symm)
            · unfold owns; iexists _; isplitr
              swap; · iexact HE
              ipureintro
              exact (View.read_writes_eq_canon _ _ _ (coverE_inner c (grid0.coords t) (ms0 t) (hs0 t) (ms1 t) (hs1 t) (ms2 t) (hs2 t) (ms3 t) (hs3 t) (ms4 t) (hs4 t) (ms5 t) (hs5 t) (ms6 t) (hs6 t) (ms7 t) (hs7 t) scN (Memref.isWhole_whole _) scE (Memref.isWhole_whole _) (fun h => h0 ((isFirst_iff t).mp h)) (fun h => h3 ((isLast_iff t).mp h)) ((isInner_iff t).mpr h3) (fun h => h3 ((isEpilogue_iff t).mp h)) (win0_0.fill (grid0.coords t) d0 (iblk m c 0 t)) (win0_1.fill (grid0.coords t) d1 (iblk m c 1 t)) (iblk m c 2 t) (iblk m c 3 t) (iblk m c 4 t) (iblk m c 5 t) (iblk m c 6 t) (accAt m c (t.val - 1) (Nat.lt_of_le_of_lt (Nat.sub_le _ _) t.isLt)).1 (accAt m c (t.val - 1) (Nat.lt_of_le_of_lt (Nat.sub_le _ _) t.isLt)).2)).trans ((canonE_inner c (grid0.coords t) (ms0 t) (hs0 t) (ms1 t) (hs1 t) (ms2 t) (hs2 t) (ms3 t) (hs3 t) (ms4 t) (hs4 t) (ms5 t) (hs5 t) (ms6 t) (hs6 t) (ms7 t) (hs7 t) scN (Memref.isWhole_whole _) scE (Memref.isWhole_whole _) (fun h => h0 ((isFirst_iff t).mp h)) (fun h => h3 ((isLast_iff t).mp h)) ((isInner_iff t).mpr h3) (fun h => h3 ((isEpilogue_iff t).mp h)) (win0_0.fill (grid0.coords t) d0 (iblk m c 0 t)) (win0_1.fill (grid0.coords t) d1 (iblk m c 1 t)) (iblk m c 2 t) (iblk m c 3 t) (iblk m c 4 t) (iblk m c 5 t) (iblk m c 6 t) (accAt m c (t.val - 1) (Nat.lt_of_le_of_lt (Nat.sub_le _ _) t.isLt)).1 (accAt m c (t.val - 1) (Nat.lt_of_le_of_lt (Nat.sub_le _ _) t.isLt)).2).trans (stepE_inner m c t h0 h3 d0 d1 _).symm)
          iexact Hg
        isplitl [Ho]; · iexact Ho
        isplitl [H0]; · iexists d0; iexact H0
        isplitl [H1]; · iexists d1; iexact H1
        isplitl [H2]; · iexact H2
        isplitl [H3]; · iexact H3
        isplitl [H4]; · iexact H4
        isplitl [H5]; · iexact H5
        isplitl [H6]; · iexact H6
        iexists d7; iexact H7

/-- The library's body obligation, at every point. -/
theorem body_obligation (c : Dev nD) : BodyObligationLoose (dats (F := F) m 0 c) (defs₀ (F := F)) Variants.none () Set.univ := fun t => by
  rw [bigSep_W0, bigSep_W0]
  exact sound_body m c t

end Cert.KernelIdeal.Body

end
-- ==== Proof.Ideal.Run.lean ====
/-
  The run of the whole program: the launch theorem for a pipeline whose body carries an invariant from point to
  point, given the body obligation. Before the first point the invariant is the region's plain one (accumulators at
  anything); after the last the accumulators' contents are forgotten again. The run's post names every array of the
  pipeline after its write-backs; read at the argument arrays it is the frame claim.
-/
import proofs.«157794_g77704548319642_cont_9to1_m_740_10_alg».proof.Proof.Ideal.Obligation

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA_eq]
  iintro ⟨⟨HN, HE⟩, Hg⟩
  isplitl [HN HE]
  · isplitl [HN]
    · iexists _; iexact HN
    · iexists _; iexact HE
  iexact Hg

theorem hout (c : Dev nD) : (dats m 0 c).Φ (Fin.last cfg0.N) ⊢ Pipeline.ΦA spec0 c :=
  Phi_out m c _ (by rw [Fin.val_last]; have : cfg0.N = 40 := N_0; omega)

set_option backward.isDefEq.respectTransparency.types false in
/-- For any values, from any memory with zero counters: every weakly fair execution of the program terminates, with
    every array of the pipeline at what its write-backs leave and every other unscoped buffer as the region found it. -/
theorem run_main : θ_run defs (onTc (τ := τ) (main (F := F))) (s₀ m ρ) (Pipeline.FramePost cfgs (dats m) 0 (V m)) :=
  Pipeline.θ_run_frame_track cfgs (dats m) (0 : Fin 1) launch0 defs₀ Variants.none m ρ main
    (hbody := body_obligation m) (hshare := fun c => (dats m 0 c).share_full fun _ => rfl)
    (howed := fun _ _ => rfl) (V := V m) (hmain := hmain m Variants.none) (hA := A_eq m) (hin := hin m) (hout := hout m)

/-- The frame: the program runs to the end, faults nowhere, and leaves its seven argument arrays as they were. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  frame_of m ρ (dats m) (A_eq m) (run_main m ρ)

end Cert.KernelIdeal.Body

end
-- ==== Proof.Ideal.Blocks.lean ====
/-
  The blocks at coordinates. Point `t` is row tile `t / 4` and contraction tile `t % 4`. Entry `(p, q)` of an
  adjacency block is entry `(1000 · (t / 4) + p, 2560 · (t % 4) + q)` of the adjacency matrix; the feature rows the
  tile multiplies by are rows `2560 · (t % 4)` on of the feature matrix padded with 240 zero rows; the weights and
  bias rows are whole arrays; entry `(p, g)` of the result block is entry `(1000 · (t / 4) + p, g)` of the result.
-/
import proofs.«157794_g77704548319642_cont_9to1_m_740_10_alg».proof.Proof.Ideal.Accum
import Idealize.ShloMosaic.Lib.StableHlo.Run
import Idealize.ShloMosaic.Lib.KernelVsHost
import Idealize.ShloMosaic.Lib.ValueIdx
import Idealize.ShloMosaic.Lib.Pipeline.Value

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

open Idealize.ShloMosaic.ValueIdx

variable (m : (ℓ : Loc nD τ sig) → Buf (Elt F) ℓ) (ρ : Dev nD → PrngReg)

/-! ## The arrays the region finds that the host computed -/

theorem hostFeats (c : Dev nD) : (V m c main_call0_v0 : S10240x128.Idx → Elt F .f32)
    = pad S10240x128 ![0, 0] ![240, 0] ![0, 0] (m ((c : Thread nD τ).loc main_arg0)) (sitofp .f32 (constantI S_ 32 0#32))
        pads_S10000x128_S10240x128_02400_000 h_S_ := by
  dsimp only [V, hostOps0]; after_results; rfl
theorem hostBiasN (c : Dev nD) : (V m c main_call0_v1 : S1x128.Idx → Elt F .f32)
    = shapeCast S1x128 (m ((c : Thread nD τ).loc main_arg4)) shapeCasts_S128_S1x128 := by
  dsimp only [V, hostOps0]; after_results; rfl
theorem hostBiasE (c : Dev nD) : (V m c main_call0_v2 : S1x128.Idx → Elt F .f32)
    = shapeCast S1x128 (m ((c : Thread nD τ).loc main_arg6)) shapeCasts_S128_S1x128 := by
  dsimp only [V, hostOps0]; after_results; rfl

/-! ## The windows' block indices over the grid -/

theorem idxA : ∀ t : Fin cfg0.N, win0_0.index t 0 = t.val / 4 ∧ win0_0.index t 1 = t.val % 4 := by decide +kernel
theorem idxB : ∀ t : Fin cfg0.N, win0_1.index t 0 = t.val / 4 ∧ win0_1.index t 1 = t.val % 4 := by decide +kernel
theorem idxF : ∀ t : Fin cfg0.N, win0_2.index t 0 = 0 ∧ win0_2.index t 1 = 0 := by decide +kernel
theorem idxWn : ∀ t : Fin cfg0.N, win0_3.index t 0 = 0 ∧ win0_3.index t 1 = 0 := by decide +kernel
theorem idxBn : ∀ t : Fin cfg0.N, win0_4.index t 0 = 0 ∧ win0_4.index t 1 = 0 := by decide +kernel
theorem idxWe : ∀ t : Fin cfg0.N, win0_5.index t 0 = 0 ∧ win0_5.index t 1 = 0 := by decide +kernel
theorem idxBe : ∀ t : Fin cfg0.N, win0_6.index t 0 = 0 ∧ win0_6.index t 1 = 0 := by decide +kernel
theorem idxO : ∀ t : Fin cfg0.N, win0_7.index t 0 = t.val / 4 ∧ win0_7.index t 1 = 0 := by decide +kernel
theorem rowOffset : ∀ t : Fin cfg0.N, k0_off1 (grid0.coords t) 0 = 2560 * (t.val % 4) ∧ k0_off1 (grid0.coords t) 1 = 0 := by decide +kernel

/-! ## The adjacency blocks -/

theorem iblkA_apply (c : Dev nD) (t : Fin cfg0.N) (y : (win0_0.xblock (grid0.coords t)).Idx) (r k : Fin 10000)
    (hr : r.val = 1000 * (t.val / 4) + (y 0).val) (hk : k.val = 2560 * (t.val % 4) + (y 1).val) :
    iblk m c 0 t y = m ((c : Thread nD τ).loc main_arg1) (ix2 r k) := by
  unfold iblk; rw [View.read_apply]
  show V m c main_arg1 _ = _
  rw [V_main_arg1]
  congr 1; funext a; apply Fin.ext
  match a with
  | ⟨0, _⟩ => show win0_0.index t 0 * 1000 + 1 * (y 0).val = r.val; rw [(idxA t).1, hr]; omega
  | ⟨1, _⟩ => show win0_0.index t 1 * 2560 + 1 * (y 1).val = k.val; rw [(idxA t).2, hk]; omega

theorem iblkB_apply (c : Dev nD) (t : Fin cfg0.N) (y : (win0_1.xblock (grid0.coords t)).Idx) (r k : Fin 10000)
    (hr : r.val = 1000 * (t.val / 4) + (y 0).val) (hk : k.val = 2560 * (t.val % 4) + (y 1).val) :
    iblk m c 1 t y = m ((c : Thread nD τ).loc main_arg2) (ix2 r k) := by
  unfold iblk; rw [View.read_apply]
  show V m c main_arg2 _ = _
  rw [V_main_arg2]
  congr 1; funext a; apply Fin.ext
  match a with
  | ⟨0, _⟩ => show win0_1.index t 0 * 1000 + 1 * (y 0).val = r.val; rw [(idxB t).1, hr]; omega
  | ⟨1, _⟩ => show win0_1.index t 1 * 2560 + 1 * (y 1).val = k.val; rw [(idxB t).2, hk]; omega

/-- An entry of the block inside the matrix (at the last contraction tile: a column below 2320). -/
theorem blkA_apply (c : Dev nD) (t : Fin cfg0.N) (p : Fin 1000) (q : Fin 2560) (hq : t.val % 4 = 3 → q.val < 2320)
    (r k : Fin 10000) (hr : r.val = 1000 * (t.val / 4) + p.val) (hk : k.val = 2560 * (t.val % 4) + q.val) :
    blkA m c t (ix2 p q) = m ((c : Thread nD τ).loc main_arg1) (ix2 r k) := by
  have hm : win0_0.moved (grid0.coords t) (ix2 p q) = true := (win0_0.moved_iff _ _).mpr fun a => by
    match a with
    | ⟨0, _⟩ => show p.val < win0_0.xsize (grid0.coords t) 0; rw [rowsA t]; exact p.isLt
    | ⟨1, _⟩ =>
      show q.val < win0_0.xsize (grid0.coords t) 1
      by_cases h3 : t.val % 4 = 3
      · rw [colsA_last t h3]; exact hq h3
      · rw [colsA_inner t h3]; exact q.isLt
  unfold blkA Window.fill; rw [dif_pos hm]
  exact iblkA_apply m c t _ r k hr hk
theorem blkB_apply (c : Dev nD) (t : Fin cfg0.N) (p : Fin 1000) (q : Fin 2560) (hq : t.val % 4 = 3 → q.val < 2320)
    (r k : Fin 10000) (hr : r.val = 1000 * (t.val / 4) + p.val) (hk : k.val = 2560 * (t.val % 4) + q.val) :
    blkB m c t (ix2 p q) = m ((c : Thread nD τ).loc main_arg2) (ix2 r k) := by
  have hm : win0_1.moved (grid0.coords t) (ix2 p q) = true := (win0_1.moved_iff _ _).mpr fun a => by
    match a with
    | ⟨0, _⟩ => show p.val < win0_1.xsize (grid0.coords t) 0; rw [rowsB t]; exact p.isLt
    | ⟨1, _⟩ =>
      show q.val < win0_1.xsize (grid0.coords t) 1
      by_cases h3 : t.val % 4 = 3
      · rw [colsB_last t h3]; exact hq h3
      · rw [colsB_inner t h3]; exact q.isLt
  unfold blkB Window.fill; rw [dif_pos hm]
  exact iblkB_apply m c t _ r k hr hk

/-! ## The resident inputs: whole arrays -/

theorem iblkF_apply (c : Dev nD) (t : Fin cfg0.N) (y : S10240x128.Idx) :
    iblk m c 2 t y = (V m c main_call0_v0 : S10240x128.Idx → Elt F .f32) y := by
  unfold iblk; rw [View.read_apply]
  show V m c main_call0_v0 _ = _
  congr 1; funext a; apply Fin.ext
  match a with
  | ⟨0, _⟩ => show win0_2.index t 0 * 10240 + 1 * (y 0).val = (y 0).val; rw [(idxF t).1]; omega
  | ⟨1, _⟩ => show win0_2.index t 1 * 128 + 1 * (y 1).val = (y 1).val; rw [(idxF t).2]; omega
theorem iblkWn_apply (c : Dev nD) (t : Fin cfg0.N) (y : S128x128.Idx) :
    iblk m c 3 t y = m ((c : Thread nD τ).loc main_arg3) y := by
  unfold iblk; rw [View.read_apply]
  show V m c main_arg3 _ = _
  rw [V_main_arg3]
  congr 1; funext a; apply Fin.ext
  match a with
  | ⟨0, _⟩ => show win0_3.index t 0 * 128 + 1 * (y 0).val = (y 0).val; rw [(idxWn t).1]; omega
  | ⟨1, _⟩ => show win0_3.index t 1 * 128 + 1 * (y 1).val = (y 1).val; rw [(idxWn t).2]; omega
theorem iblkBn_apply (c : Dev nD) (t : Fin cfg0.N) (y : S1x128.Idx) :
    iblk m c 4 t y = (V m c main_call0_v1 : S1x128.Idx → Elt F .f32) y := by
  unfold iblk; rw [View.read_apply]
  show V m c main_call0_v1 _ = _
  congr 1; funext a; apply Fin.ext
  match a with
  | ⟨0, _⟩ => show win0_4.index t 0 * 1 + 1 * (y 0).val = (y 0).val; rw [(idxBn t).1]; omega
  | ⟨1, _⟩ => show win0_4.index t 1 * 128 + 1 * (y 1).val = (y 1).val; rw [(idxBn t).2]; omega
theorem iblkWe_apply (c : Dev nD) (t : Fin cfg0.N) (y : S128x128.Idx) :
    iblk m c 5 t y = m ((c : Thread nD τ).loc main_arg5) y := by
  unfold iblk; rw [View.read_apply]
  show V m c main_arg5 _ = _
  rw [V_main_arg5]
  congr 1; funext a; apply Fin.ext
  match a with
  | ⟨0, _⟩ => show win0_5.index t 0 * 128 + 1 * (y 0).val = (y 0).val; rw [(idxWe t).1]; omega
  | ⟨1, _⟩ => show win0_5.index t 1 * 128 + 1 * (y 1).val = (y 1).val; rw [(idxWe t).2]; omega
theorem iblkBe_apply (c : Dev nD) (t : Fin cfg0.N) (y : S1x128.Idx) :
    iblk m c 6 t y = (V m c main_call0_v2 : S1x128.Idx → Elt F .f32) y := by
  unfold iblk; rw [View.read_apply]
  show V m c main_call0_v2 _ = _
  congr 1; funext a; apply Fin.ext
  match a with
  | ⟨0, _⟩ => show win0_6.index t 0 * 1 + 1 * (y 0).val = (y 0).val; rw [(idxBe t).1]; omega
  | ⟨1, _⟩ => show win0_6.index t 1 * 128 + 1 * (y 1).val = (y 1).val; rw [(idxBe t).2]; omega

/-- The feature rows of tile `t` at `(q, j)`: the padded feature matrix at row `2560 · (t % 4) + q`. -/
theorem fRows_apply (c : Dev nD) (t : Fin cfg0.N) (q : Fin 2560) (j : Fin 128) (k : Fin 10240)
    (hk : k.val = 2560 * (t.val % 4) + q.val) :
    fRows (iblk m c 2 t) (grid0.coords t) (ix2 q j) = (V m c main_call0_v0 : S10240x128.Idx → Elt F .f32) (ix2 k j) := by
  show iblk m c 2 t _ = _
  rw [iblkF_apply]
  congr 1; funext a; apply Fin.ext
  match a with
  | ⟨0, _⟩ => show k0_off1 (grid0.coords t) 0 + 1 * q.val = k.val; rw [(rowOffset t).1, hk]; omega
  | ⟨1, _⟩ => show k0_off1 (grid0.coords t) 1 + 1 * j.val = j.val; rw [(rowOffset t).2]; omega

end Cert.KernelIdeal.Body

end
-- ==== Proof.TileSum.lean ====
/-
  A sum over 10000 indices cut into four tiles of 2560.

  Four consecutive tiles of 2560 indices are the 10240 indices below `4 · 2560`; a function of the index that
  vanishes from 10000 on sums over them to its sum over the first 10000. Sums on the extended reals need no
  finiteness for this: only that addition is commutative and associative with unit zero. The tiles are indexed by the naturals below 4, so that a running
  total over them unfolds one tile at a time.
-/
import Mathlib.Algebra.BigOperators.Fin
import Mathlib.Algebra.BigOperators.Intervals
import Mathlib.Data.EReal.Basic

namespace Cert.TileSum

variable {M : Type*} [AddCommMonoid M]

/-- The sum over `a` blocks of `b` consecutive indices each is the sum over all `a * b` indices. -/
theorem sum_blocks (a b : ℕ) (f : ℕ → M) :
    ∑ r ∈ Finset.range a, ∑ p : Fin b, f (b * r + p.val) = ∑ i ∈ Finset.range (a * b), f i := by
  induction a with
  | zero => simp
  | succ a ih =>
    rw [Finset.sum_range_succ, ih, Nat.succ_mul, Finset.sum_range_add, Finset.sum_range (fun x => f (a * b + x)),
      Nat.mul_comm b a]

/-- Four tiles of 2560 of a function vanishing from 10000 on sum to its sum over the first 10000 indices. -/
theorem four_tiles (f : ℕ → M) (hz : ∀ col, 10000 ≤ col → f col = 0) :
    ∑ r ∈ Finset.range 4, ∑ q : Fin 2560, f (2560 * r + q.val) = ∑ k : Fin 10000, f k.val := by
  rw [sum_blocks 4 2560 f, show 4 * 2560 = 10000 + 240 from rfl, Finset.sum_range_add, Finset.sum_range f,
    Finset.sum_eq_zero (fun x _ => hz _ (Nat.le_add_right _ _)), add_zero]

end Cert.TileSum
-- ==== Proof.LibPlainMatmul.lean ====
/-
  A plain matrix product read at coordinates.

  For the plain contraction `[M, K] × [K, N] → [M, N]` (the left operand contracted on its second axis, the right on
  its first, no batch axis), accumulated into the zero matrix, the entry `(r, c)` of the result is
  `Σ_k lhs (r, k) · rhs (k, c)` on the extended reals, at any extents: the left operand is read on row `r`, the
  right on column `c`, and the one contraction coordinate `k` runs over `Fin K`.
-/
import Idealize.ShloMosaic.Lib.ValueIdx
import Idealize.ShloMosaic.PureOps.Ideal.Laws

namespace Cert.PlainMatmul

open Idealize.ShloMosaic Idealize.ShloMosaic.ValueIdx

variable {M K N : ℕ}

/-- The left operand's row coordinate is the result's row coordinate. -/
theorem lhs_row (j : (⟨2, ![M, N]⟩ : Shape).Idx) (q : (DotDims.plain M K N).contr.Idx) :
    ((DotDims.plain M K N).lhsIdx j q (0 : Fin (⟨2, ![M, K]⟩ : Shape).rank)).val = (j 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from
      List.mem_singleton.mpr rfl)]
  rfl

/-- The right operand's column coordinate is the result's column coordinate. -/
theorem rhs_col (j : (⟨2, ![M, N]⟩ : Shape).Idx) (q : (DotDims.plain M K N).contr.Idx) :
    ((DotDims.plain M K N).rhsIdx j q (1 : Fin (⟨2, ![K, N]⟩ : Shape).rank)).val = (j 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from
      List.mem_singleton.mpr rfl)]
  rfl

/-- The plain product into the zero matrix, at `(r, c)`: the sum over `k` of `lhs (r, k) · rhs (k, c)`. -/
theorem plain_apply {φ₁ φ₂ : FTy} (lhs : FVec Ideal ⟨2, ![M, K]⟩ φ₁) (rhs : FVec Ideal ⟨2, ![K, N]⟩ φ₂)
    (r : Fin M) (c : Fin N) :
    FloatOps.matmul (DotDims.plain M K N) none lhs rhs (constant ⟨2, ![M, N]⟩ .f32 0x00000000#32) (ix2 r c)
      = ∑ k : Fin K, lhs (ix2 r k) * rhs (ix2 k c) := by
  rw [Ideal.matmul_constant_zero_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 r c) ((contrEquiv1 (DotDims.plain M K N) K rfl rfl).symm k) = ix2 r k :=
    funext fun a => Fin.ext (by
      match a with
      | ⟨0, _⟩ => exact lhs_row _ _
      | ⟨1, _⟩ => exact ((DotDims.plain M K N).lhsIdx_val_of_single rfl _ _).trans hk)
  have er : (DotDims.plain M K N).rhsIdx (ix2 r c) ((contrEquiv1 (DotDims.plain M K N) K rfl rfl).symm k) = ix2 k c :=
    funext fun a => Fin.ext (by
      match a with
      | ⟨0, _⟩ => exact ((DotDims.plain M K N).rhsIdx_val_of_single rfl _ _).trans hk
      | ⟨1, _⟩ => exact rhs_col _ _)
  rw [el, er]

end Cert.PlainMatmul
-- ==== Proof.Ideal.Value.lean ====
/-
  The kernel's result at the extended reals. With rows of the adjacency matrices and columns of the feature matrix
  read by natural column index, zero from 10000 on, every contraction tile adds to an accumulator entry the sum over
  its 2560 columns of (adjacency entry) · (feature entry): at the last tile the mask zeroes the adjacency factor past
  column 10000, and the padding zeroes the feature factor there. After the fourth tile the accumulator entry is the
  whole contraction over the 10000 columns; the epilogue projects it by the weights, adds the bias, clamps the node
  side below at zero and adds the two sides.
-/
import proofs.«157794_g77704548319642_cont_9to1_m_740_10_alg».proof.Proof.Ideal.Blocks
import proofs.«157794_g77704548319642_cont_9to1_m_740_10_alg».proof.Proof.Ideal.Run
import proofs.«157794_g77704548319642_cont_9to1_m_740_10_alg».proof.Proof.TileSum
import proofs.«157794_g77704548319642_cont_9to1_m_740_10_alg».proof.Proof.LibPlainMatmul
import Idealize.ShloMosaic.PureOps.Ideal.Laws

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

open Idealize.ShloMosaic.ValueIdx

variable (m : (ℓ : Loc nD τ sig) → Buf (Elt Ideal) ℓ) (ρ : Dev nD → PrngReg)

/-! ## The arguments as arrays of extended reals -/

abbrev feats (c : Dev nD) : S10000x128.Idx → EReal := m ((c : Thread nD τ).loc main_arg0)
abbrev adjN (c : Dev nD) : S10000x10000.Idx → EReal := m ((c : Thread nD τ).loc main_arg1)
abbrev adjE (c : Dev nD) : S10000x10000.Idx → EReal := m ((c : Thread nD τ).loc main_arg2)
abbrev wN (c : Dev nD) : S128x128.Idx → EReal := m ((c : Thread nD τ).loc main_arg3)
abbrev bN (c : Dev nD) : S128.Idx → EReal := m ((c : Thread nD τ).loc main_arg4)
abbrev wE (c : Dev nD) : S128x128.Idx → EReal := m ((c : Thread nD τ).loc main_arg5)
abbrev bE (c : Dev nD) : S128.Idx → EReal := m ((c : Thread nD τ).loc main_arg6)

/-- Row `r` of an adjacency matrix by natural column index: zero from column 10000 on. -/
def rowOf (X : S10000x10000.Idx → EReal) (r : Fin 10000) (col : ℕ) : EReal :=
  if h : col < 10000 then X (ix2 r ⟨col, h⟩) else 0
/-- Column `j` of the feature matrix by natural row index: zero from row 10000 on. -/
def colOf (X : S10000x128.Idx → EReal) (j : Fin 128) (col : ℕ) : EReal :=
  if h : col < 10000 then X (ix2 ⟨col, h⟩ j) else 0

/-- The padded feature matrix is the feature matrix with zero rows from 10000 on. -/
theorem featsPad_apply (c : Dev nD) (k : Fin 10240) (j : Fin 128) :
    (V m c main_call0_v0 : S10240x128.Idx → EReal) (ix2 k j) = colOf (feats m c) j k.val := by
  rw [hostFeats]
  unfold colOf
  by_cases h : k.val < 10000
  · rw [dif_pos h]
    exact pad_apply_of_inside _ _ _ _ _ _ _ (ix2 k j) (ix2 ⟨k.val, h⟩ j) (fun a => by
      match a with
      | ⟨0, _⟩ => show k.val = 0 + k.val * (0 + 1); omega
      | ⟨1, _⟩ => show j.val = 0 + j.val * (0 + 1); omega)
  · rw [dif_neg h]
    refine (pad_apply_of_not_inside _ _ _ _ _ _ _ (ix2 k j) (⟨0, Nat.succ_pos 1⟩ : Fin 2) (fun hh => h ?_)).trans ?_
    · have h2 : (k.val - 0) / (0 + 1) < 10000 := hh.2.2
      simpa using h2
    · show ((( (0#32 : BitVec 32).toInt : ℝ)) : EReal) = 0
      simp

/-! ## The mask at the last contraction tile, the other way -/

theorem mask_on (i : grid0.Coords) (hi : (i 1).val = 3) (j : S1000x2560.Idx) (hj : (j 1).val < 2320) : k0_pay4 i j = 1#1 := by
  unfold k0_pay4
  dsimp only [cmpi, addi, broadcast, iota, List.foldl]
  rw [hi]
  have e : (0 * ![1000, 2560] 1 + (j 1).val) = (j 1).val := by simp
  rw [e]
  generalize (j 1).val = n at hj
  have hm : Scalar.muli 3#32 2560#32 = 7680#32 := by decide
  rw [hm]
  have hs : (IntOp.addi 7680#32 (BitVec.ofNat 32 n)).slt 10000#32 = true := by
    unfold IntOp.addi
    rw [BitVec.slt_eq_decide]
    have h1 : (7680#32 + BitVec.ofNat 32 n).toNat = 7680 + n := by
      rw [BitVec.toNat_add, BitVec.toNat_ofNat, BitVec.toNat_ofNat]; omega
    have h2 : (7680#32 + BitVec.ofNat 32 n).toInt = 7680 + n := by
      rw [BitVec.toInt_eq_toNat_cond, h1]; split <;> omega
    have h3 : (10000#32 : BitVec 32).toInt = 10000 := by decide
    rw [h2, h3]
    simp only [decide_eq_true_eq]; omega
  unfold IntOp.cmpi
  simp only [hs]
  decide

/-! ## The left factor of a tile's products -/

theorem lhsN_inner (c : Dev nD) (t : Fin cfg0.N) (h3 : ¬t.val % 4 = 3) (p : Fin 1000) (q : Fin 2560) (r : Fin 10000)
    (hr : r.val = 1000 * (t.val / 4) + p.val) :
    blkA m c t (ix2 p q) = rowOf (adjN m c) r (2560 * (t.val % 4) + q.val) := by
  have hk : 2560 * (t.val % 4) + q.val < 10000 := by have := q.isLt; omega
  rw [blkA_apply m c t p q (fun h => absurd h h3) r ⟨_, hk⟩ hr rfl]; unfold rowOf; rw [dif_pos hk]
theorem lhsE_inner (c : Dev nD) (t : Fin cfg0.N) (h3 : ¬t.val % 4 = 3) (p : Fin 1000) (q : Fin 2560) (r : Fin 10000)
    (hr : r.val = 1000 * (t.val / 4) + p.val) :
    blkB m c t (ix2 p q) = rowOf (adjE m c) r (2560 * (t.val % 4) + q.val) := by
  have hk : 2560 * (t.val % 4) + q.val < 10000 := by have := q.isLt; omega
  rw [blkB_apply m c t p q (fun h => absurd h h3) r ⟨_, hk⟩ hr rfl]; unfold rowOf; rw [dif_pos hk]

theorem lhsN_last (c : Dev nD) (t : Fin cfg0.N) (h3 : t.val % 4 = 3) (p : Fin 1000) (q : Fin 2560) (r : Fin 10000)
    (hr : r.val = 1000 * (t.val / 4) + p.val) :
    select (k0_pay4 (grid0.coords t)) (blkA m c t) (broadcast S1000x2560 (Scalar.ofBits (F := Ideal) .f32 0x00000000#32)) (ix2 p q)
      = rowOf (adjN m c) r (2560 * (t.val % 4) + q.val) := by
  show Scalar.select (k0_pay4 (grid0.coords t) (ix2 p q)) (blkA m c t (ix2 p q)) (Ideal.ofBits .f32 0x00000000#32) = _
  by_cases hq : q.val < 2320
  · have hk : 2560 * (t.val % 4) + q.val < 10000 := by omega
    have hon := mask_on (grid0.coords t) (tile_last t h3) (ix2 p q) hq
    unfold Scalar.select
    refine (if_pos hon).trans ?_
    rw [blkA_apply m c t p q (fun _ => hq) r ⟨_, hk⟩ hr rfl]; unfold rowOf; rw [dif_pos hk]
  · have hk : ¬2560 * (t.val % 4) + q.val < 10000 := by omega
    have hoff := mask_off (grid0.coords t) (tile_last t h3) (ix2 p q) (by show 2320 ≤ q.val; omega)
    unfold Scalar.select
    refine (if_neg hoff).trans ?_
    unfold rowOf; rw [dif_neg hk, Ideal.ofBits_zero_f32]
theorem lhsE_last (c : Dev nD) (t : Fin cfg0.N) (h3 : t.val % 4 = 3) (p : Fin 1000) (q : Fin 2560) (r : Fin 10000)
    (hr : r.val = 1000 * (t.val / 4) + p.val) :
    select (k0_pay4 (grid0.coords t)) (blkB m c t) (broadcast S1000x2560 (Scalar.ofBits (F := Ideal) .f32 0x00000000#32)) (ix2 p q)
      = rowOf (adjE m c) r (2560 * (t.val % 4) + q.val) := by
  show Scalar.select (k0_pay4 (grid0.coords t) (ix2 p q)) (blkB m c t (ix2 p q)) (Ideal.ofBits .f32 0x00000000#32) = _
  by_cases hq : q.val < 2320
  · have hk : 2560 * (t.val % 4) + q.val < 10000 := by omega
    have hon := mask_on (grid0.coords t) (tile_last t h3) (ix2 p q) hq
    unfold Scalar.select
    refine (if_pos hon).trans ?_
    rw [blkB_apply m c t p q (fun _ => hq) r ⟨_, hk⟩ hr rfl]; unfold rowOf; rw [dif_pos hk]
  · have hk : ¬2560 * (t.val % 4) + q.val < 10000 := by omega
    have hoff := mask_off (grid0.coords t) (tile_last t h3) (ix2 p q) (by show 2320 ≤ q.val; omega)
    unfold Scalar.select
    refine (if_neg hoff).trans ?_
    unfold rowOf; rw [dif_neg hk, Ideal.ofBits_zero_f32]

/-- The right factor: the feature column at the tile's row. -/
theorem rhs_tile (c : Dev nD) (t : Fin cfg0.N) (q : Fin 2560) (j : Fin 128) :
    fRows (iblk m c 2 t) (grid0.coords t) (ix2 q j) = colOf (feats m c) j (2560 * (t.val % 4) + q.val) := by
  have hk : 2560 * (t.val % 4) + q.val < 10240 := by have := q.isLt; omega
  rw [fRows_apply m c t q j ⟨_, hk⟩ rfl, featsPad_apply]

/-! ## A tile's contribution to an accumulator entry -/

theorem tileN_inner (c : Dev nD) (t : Fin cfg0.N) (h3 : ¬t.val % 4 = 3) (acc : Vec Ideal S1000x128 .f32) (p : Fin 1000) (j : Fin 128)
    (r : Fin 10000) (hr : r.val = 1000 * (t.val / 4) + p.val) :
    k0_pay7 (fRows (iblk m c 2 t) (grid0.coords t)) (blkA m c t) acc (ix2 p j)
      = acc (ix2 p j) + ∑ q : Fin 2560, rowOf (adjN m c) r (2560 * (t.val % 4) + q.val) * colOf (feats m c) j (2560 * (t.val % 4) + q.val) := by
  unfold k0_pay7 k0_pay3
  dsimp only
  simp only [shapeCast_self]
  show acc (ix2 p j) + FloatOps.matmul (DotDims.plain 1000 2560 128) none (truncf .bf16 (blkA m c t) bitsLt_bf16_f32)
    (truncf .bf16 (fRows (iblk m c 2 t) (grid0.coords t)) bitsLt_bf16_f32) (constant ⟨2, ![1000, 128]⟩ .f32 0x00000000#32) (ix2 p j) = _
  refine congrArg (acc (ix2 p j) + ·) ((Cert.PlainMatmul.plain_apply _ _ p j).trans (Finset.sum_congr rfl fun q _ => ?_))
  show blkA m c t (ix2 p q) * fRows (iblk m c 2 t) (grid0.coords t) (ix2 q j) = _
  rw [lhsN_inner m c t h3 p q r hr, rhs_tile]

theorem tileE_inner (c : Dev nD) (t : Fin cfg0.N) (h3 : ¬t.val % 4 = 3) (acc : Vec Ideal S1000x128 .f32) (p : Fin 1000) (j : Fin 128)
    (r : Fin 10000) (hr : r.val = 1000 * (t.val / 4) + p.val) :
    k0_pay8 (fRows (iblk m c 2 t) (grid0.coords t)) (blkB m c t) acc (ix2 p j)
      = acc (ix2 p j) + ∑ q : Fin 2560, rowOf (adjE m c) r (2560 * (t.val % 4) + q.val) * colOf (feats m c) j (2560 * (t.val % 4) + q.val) := by
  unfold k0_pay8 k0_pay3
  dsimp only
  simp only [shapeCast_self]
  show acc (ix2 p j) + FloatOps.matmul (DotDims.plain 1000 2560 128) none (truncf .bf16 (blkB m c t) bitsLt_bf16_f32)
    (truncf .bf16 (fRows (iblk m c 2 t) (grid0.coords t)) bitsLt_bf16_f32) (constant ⟨2, ![1000, 128]⟩ .f32 0x00000000#32) (ix2 p j) = _
  refine congrArg (acc (ix2 p j) + ·) ((Cert.PlainMatmul.plain_apply _ _ p j).trans (Finset.sum_congr rfl fun q _ => ?_))
  show blkB m c t (ix2 p q) * fRows (iblk m c 2 t) (grid0.coords t) (ix2 q j) = _
  rw [lhsE_inner m c t h3 p q r hr, rhs_tile]

theorem tileN_last (c : Dev nD) (t : Fin cfg0.N) (h3 : t.val % 4 = 3) (acc : Vec Ideal S1000x128 .f32) (p : Fin 1000) (j : Fin 128)
    (r : Fin 10000) (hr : r.val = 1000 * (t.val / 4) + p.val) :
    k0_pay5 (grid0.coords t) (fRows (iblk m c 2 t) (grid0.coords t)) (blkA m c t) acc (ix2 p j)
      = acc (ix2 p j) + ∑ q : Fin 2560, rowOf (adjN m c) r (2560 * (t.val % 4) + q.val) * colOf (feats m c) j (2560 * (t.val % 4) + q.val) := by
  unfold k0_pay5 k0_pay3
  dsimp only
  simp only [shapeCast_self]
  show acc (ix2 p j) + FloatOps.matmul (DotDims.plain 1000 2560 128) none
    (truncf .bf16 (select (k0_pay4 (grid0.coords t)) (blkA m c t) (broadcast S1000x2560 (Scalar.ofBits (F := Ideal) .f32 0x00000000#32))) bitsLt_bf16_f32)
    (truncf .bf16 (fRows (iblk m c 2 t) (grid0.coords t)) bitsLt_bf16_f32) (constant ⟨2, ![1000, 128]⟩ .f32 0x00000000#32) (ix2 p j) = _
  refine congrArg (acc (ix2 p j) + ·) ((Cert.PlainMatmul.plain_apply _ _ p j).trans (Finset.sum_congr rfl fun q _ => ?_))
  show select (k0_pay4 (grid0.coords t)) (blkA m c t) (broadcast S1000x2560 (Scalar.ofBits (F := Ideal) .f32 0x00000000#32)) (ix2 p q)
    * fRows (iblk m c 2 t) (grid0.coords t) (ix2 q j) = _
  rw [lhsN_last m c t h3 p q r hr, rhs_tile]

theorem tileE_last (c : Dev nD) (t : Fin cfg0.N) (h3 : t.val % 4 = 3) (acc : Vec Ideal S1000x128 .f32) (p : Fin 1000) (j : Fin 128)
    (r : Fin 10000) (hr : r.val = 1000 * (t.val / 4) + p.val) :
    k0_pay6 (grid0.coords t) (fRows (iblk m c 2 t) (grid0.coords t)) (blkB m c t) acc (ix2 p j)
      = acc (ix2 p j) + ∑ q : Fin 2560, rowOf (adjE m c) r (2560 * (t.val % 4) + q.val) * colOf (feats m c) j (2560 * (t.val % 4) + q.val) := by
  unfold k0_pay6 k0_pay3
  dsimp only
  simp only [shapeCast_self]
  show acc (ix2 p j) + FloatOps.matmul (DotDims.plain 1000 2560 128) none
    (truncf .bf16 (select (k0_pay4 (grid0.coords t)) (blkB m c t) (broadcast S1000x2560 (Scalar.ofBits (F := Ideal) .f32 0x00000000#32))) bitsLt_bf16_f32)
    (truncf .bf16 (fRows (iblk m c 2 t) (grid0.coords t)) bitsLt_bf16_f32) (constant ⟨2, ![1000, 128]⟩ .f32 0x00000000#32) (ix2 p j) = _
  refine congrArg (acc (ix2 p j) + ·) ((Cert.PlainMatmul.plain_apply _ _ p j).trans (Finset.sum_congr rfl fun q _ => ?_))
  show select (k0_pay4 (grid0.coords t)) (blkB m c t) (broadcast S1000x2560 (Scalar.ofBits (F := Ideal) .f32 0x00000000#32)) (ix2 p q)
    * fRows (iblk m c 2 t) (grid0.coords t) (ix2 q j) = _
  rw [lhsE_last m c t h3 p q r hr, rhs_tile]

/-- The accumulators start from zero. -/
theorem pay1_apply (y : S1000x128.Idx) : (k0_pay1 (F := Ideal)) y = 0 := by
  unfold k0_pay1; simp only [shapeCast_self]
  show Ideal.ofBits .f32 0x00000000#32 = 0
  exact Ideal.ofBits_zero_f32
theorem pay2_apply (y : S1000x128.Idx) : (k0_pay2 (F := Ideal)) y = 0 := by
  unfold k0_pay2; simp only [shapeCast_self]
  show Ideal.ofBits .f32 0x00000000#32 = 0
  exact Ideal.ofBits_zero_f32

/-! ## The accumulators' entries after each point -/

/-- One product of the contraction: row `r` of an adjacency matrix times column `j` of the features at column `col`. -/
def term (X : S10000x10000.Idx → EReal) (Fe : S10000x128.Idx → EReal) (r : Fin 10000) (j : Fin 128) (col : ℕ) : EReal :=
  rowOf X r col * colOf Fe j col

/-- One step on an accumulator entry, whichever case: what was there (zero at a first tile) plus the tile's sum. -/
theorem step_entry (c : Dev nD) (t : Fin cfg0.N) (k : ℕ) (hk : t.val % 4 = k) (prev : Vec Ideal S1000x128 .f32 × Vec Ideal S1000x128 .f32)
    (p : Fin 1000) (j : Fin 128) (r : Fin 10000) (hr : r.val = 1000 * (t.val / 4) + p.val) :
    (accStep t (blkA m c t) (blkB m c t) (iblk m c 2 t) prev).1 (ix2 p j)
        = (if k = 0 then 0 else prev.1 (ix2 p j)) + ∑ q : Fin 2560, term (adjN m c) (feats m c) r j (2560 * k + q.val)
    ∧ (accStep t (blkA m c t) (blkB m c t) (iblk m c 2 t) prev).2 (ix2 p j)
        = (if k = 0 then 0 else prev.2 (ix2 p j)) + ∑ q : Fin 2560, term (adjE m c) (feats m c) r j (2560 * k + q.val) := by
  subst hk
  unfold accStep term
  by_cases h0 : t.val % 4 = 0
  · have h3 : ¬t.val % 4 = 3 := by omega
    rw [if_pos h0, if_pos h0, if_pos h0]
    try dsimp only
    rw [tileN_inner m c t h3 _ p j r hr, tileE_inner m c t h3 _ p j r hr, pay1_apply, pay2_apply]
    exact ⟨rfl, rfl⟩
  · rw [if_neg h0, if_neg h0, if_neg h0]
    by_cases h3 : t.val % 4 = 3
    · rw [if_pos h3]
      try dsimp only
      rw [tileN_last m c t h3 _ p j r hr, tileE_last m c t h3 _ p j r hr]
      exact ⟨rfl, rfl⟩
    · rw [if_neg h3]
      try dsimp only
      rw [tileN_inner m c t h3 _ p j r hr, tileE_inner m c t h3 _ p j r hr]
      exact ⟨rfl, rfl⟩

/-- A running total: zero at the first tile, else the total so far, plus this tile's sum, is the total through this tile. -/
theorem fold_step (f : ℕ → EReal) (k : ℕ) (prev : EReal) (hprev : k ≠ 0 → prev = ∑ kt ∈ Finset.range k, f kt) :
    (if k = 0 then 0 else prev) + f k = ∑ kt ∈ Finset.range (k + 1), f kt := by
  rw [Finset.sum_range_succ]
  by_cases h : k = 0
  · subst h; simp
  · rw [if_neg h, hprev h]

/-- After point `n` an accumulator entry is the sum over the contraction tiles of the row tile met so far. -/
theorem acc_entry (c : Dev nD) : ∀ (n : ℕ) (hn : n < cfg0.N) (p : Fin 1000) (j : Fin 128) (r : Fin 10000)
    (_ : r.val = 1000 * (n / 4) + p.val),
    (accAt m c n hn).1 (ix2 p j) = ∑ kt ∈ Finset.range (n % 4 + 1), ∑ q : Fin 2560, term (adjN m c) (feats m c) r j (2560 * kt + q.val)
    ∧ (accAt m c n hn).2 (ix2 p j) = ∑ kt ∈ Finset.range (n % 4 + 1), ∑ q : Fin 2560, term (adjE m c) (feats m c) r j (2560 * kt + q.val)
  | 0, hn, p, j, r, hr => by
    have h := step_entry m c ⟨0, hn⟩ 0 rfl (k0_pay1 (F := Ideal), k0_pay2 (F := Ideal)) p j r hr
    exact ⟨h.1.trans (fold_step (fun kt => ∑ q : Fin 2560, term (adjN m c) (feats m c) r j (2560 * kt + q.val)) 0 _ (fun h => absurd rfl h)),
      h.2.trans (fold_step (fun kt => ∑ q : Fin 2560, term (adjE m c) (feats m c) r j (2560 * kt + q.val)) 0 _ (fun h => absurd rfl h))⟩
  | n + 1, hn, p, j, r, hr => by
    have h := step_entry m c ⟨n + 1, hn⟩ ((n + 1) % 4) rfl (accAt m c n (Nat.lt_of_succ_lt hn)) p j r hr
    refine ⟨h.1.trans (fold_step (fun kt => ∑ q : Fin 2560, term (adjN m c) (feats m c) r j (2560 * kt + q.val)) _ _ (fun h0 => ?_)),
      h.2.trans (fold_step (fun kt => ∑ q : Fin 2560, term (adjE m c) (feats m c) r j (2560 * kt + q.val)) _ _ (fun h0 => ?_))⟩
    · have e : (n + 1) % 4 = n % 4 + 1 := by omega
      have hr' : r.val = 1000 * (n / 4) + p.val := by
        have : (n + 1) / 4 = n / 4 := by omega
        rw [← this]; exact hr
      rw [e]; exact (acc_entry c n (Nat.lt_of_succ_lt hn) p j r hr').1
    · have e : (n + 1) % 4 = n % 4 + 1 := by omega
      have hr' : r.val = 1000 * (n / 4) + p.val := by
        have : (n + 1) / 4 = n / 4 := by omega
        rw [← this]; exact hr
      rw [e]; exact (acc_entry c n (Nat.lt_of_succ_lt hn) p j r hr').2

/-- After a last contraction tile an accumulator entry is the whole contraction over the 10000 columns. -/
theorem acc_last (c : Dev nD) (t : Fin cfg0.N) (h3 : t.val % 4 = 3) (p : Fin 1000) (j : Fin 128) (r : Fin 10000)
    (hr : r.val = 1000 * (t.val / 4) + p.val) :
    (accAt m c t.val t.isLt).1 (ix2 p j) = ∑ k : Fin 10000, adjN m c (ix2 r k) * feats m c (ix2 k j)
    ∧ (accAt m c t.val t.isLt).2 (ix2 p j) = ∑ k : Fin 10000, adjE m c (ix2 r k) * feats m c (ix2 k j) := by
  have h := acc_entry m c t.val t.isLt p j r hr
  have hzN : ∀ col, 10000 ≤ col → term (adjN m c) (feats m c) r j col = 0 := fun col hc => by
    unfold term rowOf; rw [dif_neg (by omega), zero_mul]
  have hzE : ∀ col, 10000 ≤ col → term (adjE m c) (feats m c) r j col = 0 := fun col hc => by
    unfold term rowOf; rw [dif_neg (by omega), zero_mul]
  rw [h.1, h.2, h3, show 3 + 1 = 4 from rfl, Cert.TileSum.four_tiles _ hzN, Cert.TileSum.four_tiles _ hzE]
  refine ⟨Finset.sum_congr rfl fun k _ => ?_, Finset.sum_congr rfl fun k _ => ?_⟩
  · unfold term rowOf colOf; rw [dif_pos k.isLt, dif_pos k.isLt]
  · unfold term rowOf colOf; rw [dif_pos k.isLt, dif_pos k.isLt]

/-! ## The epilogue and the stored block -/

theorem epilogue_apply (aN aE : FVec Ideal S1000x128 .f32) (wn we : FVec Ideal S128x128 .f32) (bn be : FVec Ideal S1x128 .f32)
    (p : Fin 1000) (g : Fin 128) :
    k0_pay9 aN wn bn aE we be (ix2 p g)
      = max ((∑ j : Fin 128, aN (ix2 p j) * wn (ix2 j g)) + bn (ix2 0 g)) 0
        + ((∑ j : Fin 128, aE (ix2 p j) * we (ix2 j g)) + be (ix2 0 g)) := by
  unfold k0_pay9
  simp only [shapeCast_self]
  show max (FloatOps.matmul (F := Ideal) (DotDims.plain 1000 128 128) none aN wn (constant ⟨2, ![1000, 128]⟩ .f32 0x00000000#32) (ix2 p g)
        + broadcastTo S1000x128 bn broadcasts_S1x128_S1000x128 (ix2 p g)) (Ideal.ofBits .f32 0x00000000#32)
      + (FloatOps.matmul (F := Ideal) (DotDims.plain 1000 128 128) none aE we (constant ⟨2, ![1000, 128]⟩ .f32 0x00000000#32) (ix2 p g)
        + broadcastTo S1000x128 be broadcasts_S1x128_S1000x128 (ix2 p g)) = _
  rw [Cert.PlainMatmul.plain_apply, Cert.PlainMatmul.plain_apply, Ideal.ofBits_zero_f32,
    broadcastTo_apply bn broadcasts_S1x128_S1000x128 (ix2 p g) (ix2 0 g) (fun a => by
      match a with
      | ⟨0, _⟩ => rfl
      | ⟨1, _⟩ => rfl),
    broadcastTo_apply be broadcasts_S1x128_S1000x128 (ix2 p g) (ix2 0 g) (fun a => by
      match a with
      | ⟨0, _⟩ => rfl
      | ⟨1, _⟩ => rfl)]

/-- The result as one function of the argument arrays: at `(r, g)`, the node side's contraction projected by its
    weights plus its bias, clamped below at zero, plus the edge side's contraction projected plus its bias. -/
def result (c : Dev nD) : S10000x128.Idx → EReal := fun i =>
  max ((∑ j : Fin 128, (∑ k : Fin 10000, adjN m c (ix2 (i 0) k) * feats m c (ix2 k j)) * wN m c (ix2 j (i 1))) + bN m c (ix1 (i 1))) 0
    + ((∑ j : Fin 128, (∑ k : Fin 10000, adjE m c (ix2 (i 0) k) * feats m c (ix2 k j)) * wE m c (ix2 j (i 1))) + bE m c (ix1 (i 1)))

/-- The block stored at a last contraction tile is the result's block of that row tile. -/
theorem out_entry (c : Dev nD) (t : Fin cfg0.N) (h3 : t.val % 4 = 3) (p : Fin 1000) (g : Fin 128) (r : Fin 10000)
    (hr : r.val = 1000 * (t.val / 4) + p.val) :
    outAt m c t (ix2 p g) = result m c (ix2 r g) := by
  unfold outAt result
  rw [epilogue_apply]
  refine congrArg₂ (· + ·) (congrArg (max · 0) (congrArg₂ (· + ·) (Finset.sum_congr rfl fun j _ => ?_) ?_))
    (congrArg₂ (· + ·) (Finset.sum_congr rfl fun j _ => ?_) ?_)
  · rw [(acc_last m c t h3 p j r hr).1, iblkWn_apply]
  · rw [iblkBn_apply, hostBiasN]
    exact shapeCast_apply _ _ (ix2 0 g) (ix1 g) (by
      rw [Shape.rowMajor_val_one, Shape.rowMajor_val_two]; show g.val = 0 * 128 + g.val; omega)
  · rw [(acc_last m c t h3 p j r hr).2, iblkWe_apply]
  · rw [iblkBe_apply, hostBiasE]
    exact shapeCast_apply _ _ (ix2 0 g) (ix1 g) (by
      rw [Shape.rowMajor_val_one, Shape.rowMajor_val_two]; show g.val = 0 * 128 + g.val; omega)

/-! ## From the stored blocks to the result array -/

theorem extentO : ∀ t : Fin cfg0.N, win0_7.xsize (grid0.coords t) 0 = 1000 ∧ win0_7.xsize (grid0.coords t) 1 = 128 := by decide +kernel

/-- What a write-back of the result's window writes is the result's block there. -/
theorem flushed_eq (c : Dev nD) (t : Fin cfg0.N) (hf : (cfg0.win 7).flush t = true) :
    (dats m 0 c).flushed 7 t = ((cfg0.win 7).blk t).view.read (Elt Ideal) (result m c) := by
  have h3 : t.val % 4 = 3 := (flush0_7 t).mp hf
  have hN : t.val < 40 := lt_of_lt_of_eq t.isLt (show cfg0.N = 40 from N_0)
  show (cfg0.win 7).cut (grid0.coords t) ((dats m 0 c).after 7 t) = _
  rw [after_7]
  funext y
  rw [View.read_apply]
  have hy0 : (y 0).val < 1000 := lt_of_lt_of_eq (y 0).isLt (extentO t).1
  have hy1 : (y 1).val < 128 := lt_of_lt_of_eq (y 1).isLt (extentO t).2
  have hr : 1000 * (t.val / 4) + (y 0).val < 10000 := by omega
  have e : ((cfg0.win 7).blk t).view.emb y = ix2 (⟨1000 * (t.val / 4) + (y 0).val, hr⟩ : Fin 10000) (⟨(y 1).val, hy1⟩ : Fin 128) :=
    funext fun a => Fin.ext (by
      match a with
      | ⟨0, _⟩ => show win0_7.index t 0 * 1000 + 1 * (y 0).val = 1000 * (t.val / 4) + (y 0).val; rw [(idxO t).1]; omega
      | ⟨1, _⟩ => show win0_7.index t 1 * 128 + 1 * (y 1).val = (y 1).val; rw [(idxO t).2]; omega)
  show outAt m c t (win0_7.xinj (grid0.coords t) y) = result m c (((cfg0.win 7).blk t).view.emb y)
  rw [e, eq_ix2 (win0_7.xinj (grid0.coords t) y)]
  exact out_entry m c t h3 ⟨(y 0).val, hy0⟩ ⟨(y 1).val, hy1⟩ _ rfl

/-- Row `r` of the result lies in the block written back after the last contraction tile of row tile `r / 1000`. -/
theorem cover (c : Dev nD) (i : ((cfg0.win 7).arr.view.loc (c.tc : Thread nD τ)).2.ty.Idx) : ∃ t : Fin cfg0.N, (cfg0.win 7).flush t = true ∧ i ∈ ((cfg0.win 7).blk t).view.set := by
  have h0 : (i 0).val < 10000 := (i 0).isLt
  have h1 : (i 1).val < 128 := (i 1).isLt
  have hlt : 4 * ((i 0).val / 1000) + 3 < cfg0.N := by rw [show cfg0.N = 40 from N_0]; omega
  refine ⟨⟨4 * ((i 0).val / 1000) + 3, hlt⟩, (flush0_7 _).mpr (by show (4 * ((i 0).val / 1000) + 3) % 4 = 3; omega), ?_⟩
  show i ∈ ((View.whole main_v0).slice (win0_7.rect ⟨4 * ((i 0).val / 1000) + 3, hlt⟩)).set
  rw [View.set_slice_whole, Rect.mem_set_unit]
  intro a
  match a with
  | ⟨0, _⟩ =>
    show win0_7.index ⟨4 * ((i 0).val / 1000) + 3, hlt⟩ 0 * 1000 ≤ (i 0).val
      ∧ (i 0).val < win0_7.index ⟨4 * ((i 0).val / 1000) + 3, hlt⟩ 0 * 1000 + win0_7.xsize (grid0.coords ⟨4 * ((i 0).val / 1000) + 3, hlt⟩) 0
    rw [(idxO _).1, (extentO _).1]; show (4 * ((i 0).val / 1000) + 3) / 4 * 1000 ≤ _ ∧ _ < (4 * ((i 0).val / 1000) + 3) / 4 * 1000 + 1000; omega
  | ⟨1, _⟩ =>
    show win0_7.index ⟨4 * ((i 0).val / 1000) + 3, hlt⟩ 1 * 128 ≤ (i 1).val
      ∧ (i 1).val < win0_7.index ⟨4 * ((i 0).val / 1000) + 3, hlt⟩ 1 * 128 + win0_7.xsize (grid0.coords ⟨4 * ((i 0).val / 1000) + 3, hlt⟩) 1
    rw [(idxO _).2, (extentO _).2]; omega

/-- So the result array ends holding `result`. -/
theorem final_o (c : Dev nD) : (dats m 0 c).arrAt 7 cfg0.N = result m c :=
  (dats m 0 c).arrAt_eq_of_cover 7 (result m c) (flushed_eq m c) (cover c)

/-- The run, read: the result array at `result`, the seven arguments unchanged. -/
theorem value_run : θ_run defs (onTc (τ := τ) (main (F := Ideal))) ⟨m, fun _ => 0, ρ⟩ (fun r => ∀ c : Dev nD,
      r.2.mem ((c.tc : Thread nD τ).loc main_v0) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) := by
  refine (θ_run defs _ _).mono (fun _ h c => ⟨((h c).1 7).trans (final_o m c),
      ((h c).2 main_arg0 (Pipeline.mem_restRefs_of main_arg0 (by decide) (by decide))).trans (V_main_arg0 m c),
      ((h c).1 0).trans (((dats m 0 c).arrAt_in 0 rfl _).trans ((A_eq m c 0).trans (V_main_arg1 m c))),
      ((h c).1 1).trans (((dats m 0 c).arrAt_in 1 rfl _).trans ((A_eq m c 1).trans (V_main_arg2 m c))),
      ((h c).1 3).trans (((dats m 0 c).arrAt_in 3 rfl _).trans ((A_eq m c 3).trans (V_main_arg3 m c))),
      ((h c).2 main_arg4 (Pipeline.mem_restRefs_of main_arg4 (by decide) (by decide))).trans (V_main_arg4 m c),
      ((h c).1 5).trans (((dats m 0 c).arrAt_in 5 rfl _).trans ((A_eq m c 5).trans (V_main_arg5 m c))),
      ((h c).2 main_arg6 (Pipeline.mem_restRefs_of main_arg6 (by decide) (by decide))).trans (V_main_arg6 m c)⟩)
    (run_main (F := Ideal) m ρ)

end Cert.KernelIdeal.Body

end
-- ==== Proof.RefBridge.lean ====
/-
  The reference computes the same function. Read one operation at a time, the reference's result at `(r, g)` is:
  the contraction of row `r` of the node adjacency with column `j` of the features, projected by the node weights
  over `j`, plus the node bias at `g`, the maximum of that with zero; plus the same for the edge side without the
  maximum. That is the function the kernel's result array was shown to hold; the two programs run from memories that
  agree on the seven arguments, so the results are equal, entry by entry, as extended reals. No finiteness is used:
  the kernel only regroups the contraction's terms and adds zeros.
-/
import proofs.«157794_g77704548319642_cont_9to1_m_740_10_alg».proof.Defs
import proofs.«157794_g77704548319642_cont_9to1_m_740_10_alg».proof.Proof.Gen.ReferenceIdeal.Run
import proofs.«157794_g77704548319642_cont_9to1_m_740_10_alg».proof.Proof.Gen.ReferenceIdeal.Read
import proofs.«157794_g77704548319642_cont_9to1_m_740_10_alg».proof.Proof.Ideal.Value
import Idealize.ShloMosaic.PureOps.Ideal.Laws
import Idealize.ShloMosaic.Lib.ValueIdx

set_option maxRecDepth 16384

noncomputable section

namespace Cert.RefBridge

open Idealize.ShloMosaic Idealize.ShloMosaic.TcCoe Idealize.SL.Sem Idealize.ShloMosaic.ValueIdx
open Cert.ReferenceIdeal Cert.ReferenceIdeal.Gen Cert.ReferenceIdeal.Read

/-- The reference's last stage at an index, as sums over coordinates. -/
theorem ref_apply (x0 : (⟨S10000x128, .f32⟩ : BufTy).Contents (Elt Ideal)) (x1 x2 : (⟨S10000x10000, .f32⟩ : BufTy).Contents (Elt Ideal))
    (x3 : (⟨S128x128, .f32⟩ : BufTy).Contents (Elt Ideal)) (x4 : (⟨S128, .f32⟩ : BufTy).Contents (Elt Ideal))
    (x5 : (⟨S128x128, .f32⟩ : BufTy).Contents (Elt Ideal)) (x6 : (⟨S128, .f32⟩ : BufTy).Contents (Elt Ideal)) (i : S10000x128.Idx) :
    val_main_v11 (F := Ideal) x0 x1 x2 x3 x4 x5 x6 i
      = max ((∑ j : Fin 128, (∑ k : Fin 10000, x1 (ix2 (i 0) k) * x0 (ix2 k j)) * x3 (ix2 j (i 1))) + x4 (ix1 (i 1))) 0
        + ((∑ j : Fin 128, (∑ k : Fin 10000, x2 (ix2 (i 0) k) * x0 (ix2 k j)) * x5 (ix2 j (i 1))) + x6 (ix1 (i 1))) := by
  have e1 : ∀ k : Fin 128, lidx_main_v1 i k = ix2 (i 0) k := fun k => funext fun a => Fin.ext (by
      match a with
      | ⟨0, _⟩ => rfl
      | ⟨1, _⟩ => rfl)
  have e2 : ∀ k : Fin 128, ridx_main_v1 i k = ix2 k (i 1) := fun k => funext fun a => Fin.ext (by
      match a with
      | ⟨0, _⟩ => rfl
      | ⟨1, _⟩ => rfl)
  have e3 : ∀ (k : Fin 128) (k' : Fin 10000), lidx_main_v0 (ix2 (i 0) k) k' = ix2 (i 0) k' := fun k k' => funext fun a => Fin.ext (by
      match a with
      | ⟨0, _⟩ => rfl
      | ⟨1, _⟩ => rfl)
  have e4 : ∀ (k : Fin 128) (k' : Fin 10000), ridx_main_v0 (ix2 (i 0) k) k' = ix2 k' k := fun k k' => funext fun a => Fin.ext (by
      match a with
      | ⟨0, _⟩ => rfl
      | ⟨1, _⟩ => rfl)
  have e5 : ∀ k : Fin 128, lidx_main_v6 i k = ix2 (i 0) k := fun k => funext fun a => Fin.ext (by
      match a with
      | ⟨0, _⟩ => rfl
      | ⟨1, _⟩ => rfl)
  have e6 : ∀ k : Fin 128, ridx_main_v6 i k = ix2 k (i 1) := fun k => funext fun a => Fin.ext (by
      match a with
      | ⟨0, _⟩ => rfl
      | ⟨1, _⟩ => rfl)
  have e7 : ∀ (k : Fin 128) (k' : Fin 10000), lidx_main_v5 (ix2 (i 0) k) k' = ix2 (i 0) k' := fun k k' => funext fun a => Fin.ext (by
      match a with
      | ⟨0, _⟩ => rfl
      | ⟨1, _⟩ => rfl)
  have e8 : ∀ (k : Fin 128) (k' : Fin 10000), ridx_main_v5 (ix2 (i 0) k) k' = ix2 k' k := fun k k' => funext fun a => Fin.ext (by
      match a with
      | ⟨0, _⟩ => rfl
      | ⟨1, _⟩ => rfl)
  have b1 : idx_main_v2 (idx_main_v3 i) = ix1 (i 1) := funext fun a => Fin.ext (by
      match a with
      | ⟨0, _⟩ => rfl)
  have b2 : idx_main_v7 (idx_main_v8 i) = ix1 (i 1) := funext fun a => Fin.ext (by
      match a with
      | ⟨0, _⟩ => rfl)
  have hv0 : ∀ x : Fin 128, val_main_v0 (F := Ideal) x0 x1 (ix2 (i 0) x) = ∑ k' : Fin 10000, x1 (ix2 (i 0) k') * x0 (ix2 k' x) :=
    fun x => (val_main_v0_apply x0 x1 _).trans (Finset.sum_congr rfl fun k' _ => by rw [e3 x k', e4 x k']; rfl)
  have hv5 : ∀ x : Fin 128, val_main_v5 (F := Ideal) x0 x2 (ix2 (i 0) x) = ∑ k' : Fin 10000, x2 (ix2 (i 0) k') * x0 (ix2 k' x) :=
    fun x => (val_main_v5_apply x0 x2 _).trans (Finset.sum_congr rfl fun k' _ => by rw [e7 x k', e8 x k']; rfl)
  rw [val_main_v11_apply, val_main_v10_apply, val_main_v4_apply, val_main_v1_apply, val_main_v3_apply, val_main_v2_apply,
    val_main_call0_v0_apply, val_main_call0_cst_apply, val_main_v9_apply, val_main_v6_apply, val_main_v8_apply, val_main_v7_apply]
  simp only [e1, e2, e5, e6, b1, b2, Ideal.addf_def, Ideal.maximumf_def, Ideal.ofBits_def, Ideal.ofBits_zero_f32]
  refine congrArg₂ (· + ·) (congrArg (max · 0) (congrArg₂ (· + ·) (Finset.sum_congr rfl fun x _ => ?_) rfl))
    (congrArg₂ (· + ·) (Finset.sum_congr rfl fun x _ => ?_) rfl)
  · exact congrArg (· * x3 (ix2 x (i 1))) (hv0 x)
  · exact congrArg (· * x5 (ix2 x (i 1))) (hv5 x)

/-- The reference's result, of the kernel's arguments, is the function the kernel's result array holds. -/
theorem ref_eq_result (m : (ℓ : Loc Cert.KernelIdeal.nD Cert.KernelIdeal.τ Cert.KernelIdeal.sig) → Buf (Elt Ideal) ℓ)
    (c : Dev Cert.KernelIdeal.nD) :
    val_main_v11 (F := Ideal) (m ((c.tc : Thread Cert.KernelIdeal.nD Cert.KernelIdeal.τ).loc Cert.KernelIdeal.main_arg0))
        (m ((c.tc : Thread Cert.KernelIdeal.nD Cert.KernelIdeal.τ).loc Cert.KernelIdeal.main_arg1))
        (m ((c.tc : Thread Cert.KernelIdeal.nD Cert.KernelIdeal.τ).loc Cert.KernelIdeal.main_arg2))
        (m ((c.tc : Thread Cert.KernelIdeal.nD Cert.KernelIdeal.τ).loc Cert.KernelIdeal.main_arg3))
        (m ((c.tc : Thread Cert.KernelIdeal.nD Cert.KernelIdeal.τ).loc Cert.KernelIdeal.main_arg4))
        (m ((c.tc : Thread Cert.KernelIdeal.nD Cert.KernelIdeal.τ).loc Cert.KernelIdeal.main_arg5))
        (m ((c.tc : Thread Cert.KernelIdeal.nD Cert.KernelIdeal.τ).loc Cert.KernelIdeal.main_arg6))
      = Cert.KernelIdeal.Body.result m c :=
  funext fun i => (ref_apply _ _ _ _ _ _ _ i).trans rfl

end Cert.RefBridge

end
-- ==== Proof.lean ====
/-
  The claim for the tiled factor-graph convolution against its plain reference.

  The kernel computes relu(A·X·Wn + bn) + (B·X·We + be) over a grid of 10 row tiles by 4 contraction tiles: each
  point adds to two accumulators the product of a 1000 × 2560 block of each adjacency matrix with 2560 rows of the
  feature matrix; the last contraction tile reaches past column 10000, where the block is masked to zero and the
  feature rows are zero padding; after it the accumulators are projected by the weights, the biases added, the node
  side clamped below at zero, and the sum stored. The three frames: the word-level kernel and its idealization run to
  the end on the launch theorem for a body carrying an invariant between points (Bits/, Ideal/), and the reference's
  frame is its run with the result dropped. The ideal pass rewrote nothing. On the extended reals the kernel's
  result array is one function of the arguments (Ideal/Value), which the reference's result is too (RefBridge).
-/
import proofs.«157794_g77704548319642_cont_9to1_m_740_10_alg».proof.Defs
import proofs.«157794_g77704548319642_cont_9to1_m_740_10_alg».proof.Proof.Gen.Kernel
import proofs.«157794_g77704548319642_cont_9to1_m_740_10_alg».proof.Proof.Gen.KernelIdeal
import proofs.«157794_g77704548319642_cont_9to1_m_740_10_alg».proof.Proof.Gen.ReferenceIdeal
import proofs.«157794_g77704548319642_cont_9to1_m_740_10_alg».proof.Proof.Gen.Pre_finite_inputs
import proofs.«157794_g77704548319642_cont_9to1_m_740_10_alg».proof.Proof.Gen.ReferenceIdeal.Run
import proofs.«157794_g77704548319642_cont_9to1_m_740_10_alg».proof.Proof.Gen.ReferenceIdeal.Read
import proofs.«157794_g77704548319642_cont_9to1_m_740_10_alg».proof.Proof.Bits.Run
import proofs.«157794_g77704548319642_cont_9to1_m_740_10_alg».proof.Proof.Ideal.Run
import proofs.«157794_g77704548319642_cont_9to1_m_740_10_alg».proof.Proof.Ideal.Value
import proofs.«157794_g77704548319642_cont_9to1_m_740_10_alg».proof.Proof.RefBridge
import Idealize.ShloMosaic.Adequacy
import Idealize.ShloMosaic.Init

noncomputable section

namespace Cert.Proof

open Idealize.ShloMosaic Idealize.SL.Sem

theorem frame_kernel : Cert.frame_Kernel (hKernel := Cert.Kernel.Gen.facts) (hPre_finite_inputs := Cert.Pre_finite_inputs.Gen.facts) :=
  fun m ρ _ => Cert.Kernel.Body.frame (F := Bits) m ρ

theorem frame_kernelIdeal : Cert.frame_KernelIdeal (hKernelIdeal := Cert.KernelIdeal.Gen.facts) (hPre_finite_inputs := Cert.Pre_finite_inputs.Gen.facts) :=
  fun m ρ _ => Cert.KernelIdeal.Body.frame (F := Ideal) m ρ

theorem frame_reference : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

/-- Run from memories agreeing on the arguments, the two idealized programs end with equal results: the kernel's
    result array holds the function of the arguments that the reference's last stage is. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => Cert.KernelIdeal.Body.result m c, Cert.KernelIdeal.Body.value_run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v11_eq, (hagree c).1, (hagree c).2.1, (hagree c).2.2.1, (hagree c).2.2.2.1,
    (hagree c).2.2.2.2.1, (hagree c).2.2.2.2.2.1, (hagree c).2.2.2.2.2.2]
  exact Cert.RefBridge.ref_eq_result m c

theorem claim : Cert.Claim := ⟨Cert.Kernel.Gen.facts, Cert.KernelIdeal.Gen.facts, Cert.ReferenceIdeal.Gen.facts, Cert.Pre_finite_inputs.Gen.facts,
  frame_kernel, frame_kernelIdeal, frame_reference, trivial, algebraic⟩

end Cert.Proof

end
